-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x256 : Shape := ⟨2, ![96, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg8 : FVec F S256 .f32) (main_arg15 : FVec F S256 .f32) (main_arg22 : FVec F S16 .f32) (main_v98 : IVec S_ 1) (main_v101 : IVec S64x16 1) (main_c_39 : IVec S_ 1) : IVec S_ 1 :=
  let main_v102 : IVec S_ 1 := (fun x v => Host.reduce IntOp.andi x v reducesTo_S64x16_S_d0_1 h_S_) main_v101 main_c_39
  let main_v103 : IVec S_ 1 := andi main_v98 main_v102
  let main_v104 : FVec F S16 .f32 := Host.absf main_arg22
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_cst_42 : FVec F S_ .f32 := constant S_ .f32 0x00000000#32
  let main_v109 : FVec F S256 .f32 := broadcastInDim S256 ![] bcast_S_S256 main_cst_42
  let main_v110 : IVec S256 1 := cmpf .oge main_arg8 main_v109
  let main_c_43 : IVec S_ 1 := constantI S_ 1 1#1
  let main_v111 : IVec S_ 1 := (fun x v => Host.reduce IntOp.andi x v reducesTo_S256_S_d0 h_S_) main_v110 main_c_43
  let main_v112 : IVec S_ 1 := andi main_v108 main_v111
  let main_cst_44 : FVec F S_ .f32 := constant S_ .f32 0x00000000#32
  let main_v113 : FVec F S256 .f32 := broadcastInDim S256 ![] bcast_S_S256 main_cst_44
  let main_v114 : IVec S256 1 := cmpf .oge main_arg15 main_v113
  let main_c_45 : IVec S_ 1 := constantI S_ 1 1#1
  let main_v115 : IVec S_ 1 := (fun x v => Host.reduce IntOp.andi x v reducesTo_S256_S_d0 h_S_) main_v114 main_c_45
  let main_v116 : IVec S_ 1 := andi main_v112 main_v115
  main_v116

def fn_part5 {F : FTy → Type} [FloatOps F] (main_arg8 : FVec F S256 .f32) (main_arg15 : FVec F S256 .f32) (main_arg19 : FVec F S128x64 .f32) (main_arg20 : FVec F S64 .f32) (main_arg21 : FVec F S64x16 .f32) (main_arg22 : FVec F S16 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128x64 .f32 := Host.absf main_arg19
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x16 .f32 := Host.absf main_arg21
  let main_cst_38 : FVec F S_ .f32 := constant S_ .f32 0x7F800000#32
  let main_v100 : FVec F S64x16 .f32 := broadcastInDim S64x16 ![] bcast_S_S64x16 main_cst_38
  let main_v101 : IVec S64x16 1 := cmpf .olt main_v99 main_v100
  let main_c_39 : IVec S_ 1 := constantI S_ 1 1#1
  fn_part6 (F := F) main_arg8 main_arg15 main_arg22 main_v98 main_v101 main_c_39

def fn_part4 {F : FTy → Type} [FloatOps F] (main_arg8 : FVec F S256 .f32) (main_arg15 : FVec F S256 .f32) (main_arg16 : FVec F S256x128 .f32) (main_arg17 : FVec F S128 .f32) (main_arg18 : FVec F S256x128 .f32) (main_arg19 : FVec F S128x64 .f32) (main_arg20 : FVec F S64 .f32) (main_arg21 : FVec F S64x16 .f32) (main_arg22 : FVec F S16 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg8 main_arg15 main_arg19 main_arg20 main_arg21 main_arg22 main_v83 main_v84 main_cst_32

def fn_part3 {F : FTy → Type} [FloatOps F] (main_arg8 : FVec F S256 .f32) (main_arg12 : FVec F S256 .f32) (main_arg13 : FVec F S256 .f32) (main_arg14 : FVec F S256 .f32) (main_arg15 : FVec F S256 .f32) (main_arg16 : FVec F S256x128 .f32) (main_arg17 : FVec F S128 .f32) (main_arg18 : FVec F S256x128 .f32) (main_arg19 : FVec F S128x64 .f32) (main_arg20 : FVec F S64 .f32) (main_arg21 : FVec F S64x16 .f32) (main_arg22 : FVec F S16 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg8 main_arg15 main_arg16 main_arg17 main_arg18 main_arg19 main_arg20 main_arg21 main_arg22 main_v63 main_v67

def fn_part2 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x128 .f32) (main_arg17 : FVec F S128 .f32) (main_arg18 : FVec F S256x128 .f32) (main_arg19 : FVec F S128x64 .f32) (main_arg20 : FVec F S64 .f32) (main_arg21 : FVec F S64x16 .f32) (main_arg22 : FVec F S16 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg8 main_arg12 main_arg13 main_arg14 main_arg15 main_arg16 main_arg17 main_arg18 main_arg19 main_arg20 main_arg21 main_arg22 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x128 .f32) (main_arg17 : FVec F S128 .f32) (main_arg18 : FVec F S256x128 .f32) (main_arg19 : FVec F S128x64 .f32) (main_arg20 : FVec F S64 .f32) (main_arg21 : FVec F S64x16 .f32) (main_arg22 : FVec F S16 .f32) (main_v13 : IVec S_ 1) (main_v16 : IVec S96x256 1) : IVec S_ 1 :=
  let main_c_5 : IVec S_ 1 := constantI S_ 1 1#1
  let main_v17 : IVec S_ 1 := (fun x v => Host.reduce IntOp.andi x v reducesTo_S96x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x96 .f32) (main_arg1 : IVec S2x800000 32) (main_arg2 : FVec F S96x256 .f32) (main_arg3 : FVec F S256 .f32) (main_arg4 : FVec F S96x256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256x128 .f32) (main_arg17 : FVec F S128 .f32) (main_arg18 : FVec F S256x128 .f32) (main_arg19 : FVec F S128x64 .f32) (main_arg20 : FVec F S64 .f32) (main_arg21 : FVec F S64x16 .f32) (main_arg22 : FVec F S16 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x256 .f32 := Host.absf main_arg2
  let main_cst_0 : FVec F S_ .f32 := constant S_ .f32 0x7F800000#32
  let main_v5 : FVec F S96x256 .f32 := broadcastInDim S96x256 ![] bcast_S_S96x256 main_cst_0
  let main_v6 : IVec S96x256 1 := cmpf .olt main_v4 main_v5
  let main_c_1 : IVec S_ 1 := constantI S_ 1 1#1
  let main_v7 : IVec S_ 1 := (fun x v => Host.reduce IntOp.andi x v reducesTo_S96x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S96x256 .f32 := Host.absf main_arg4
  let main_cst_4 : FVec F S_ .f32 := constant S_ .f32 0x7F800000#32
  let main_v15 : FVec F S96x256 .f32 := broadcastInDim S96x256 ![] bcast_S_S96x256 main_cst_4
  let main_v16 : IVec S96x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x96 : Shape := ⟨2, ![50000, 96]⟩
abbrev S2x800000 : Shape := ⟨2, ![2, 800000]⟩
abbrev S96x256 : Shape := ⟨2, ![96, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x256 : Shape := ⟨2, ![1, 256]⟩
abbrev S50000x256 : Shape := ⟨2, ![50000, 256]⟩
abbrev S2000x96 : Shape := ⟨2, ![2000, 96]⟩
abbrev S2000x1 : Shape := ⟨2, ![2000, 1]⟩
abbrev S2000x256 : Shape := ⟨2, ![2000, 256]⟩
abbrev S800000x256 : Shape := ⟨2, ![800000, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S1x64 : Shape := ⟨2, ![1, 64]⟩
abbrev S1x16 : Shape := ⟨2, ![1, 16]⟩
abbrev S50000x16 : Shape := ⟨2, ![50000, 16]⟩
abbrev S2000x16 : Shape := ⟨2, ![2000, 16]⟩
abbrev S2000x64 : Shape := ⟨2, ![2000, 64]⟩
abbrev S2000 : Shape := ⟨1, ![2000]⟩

abbrev nBuf : Space → Nat
  | .hbm => 103
  | .vmem => 47
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x256, .f32⟩
  | .hbm, ⟨3, _⟩ => ⟨S256, .f32⟩
  | .hbm, ⟨4, _⟩ => ⟨S96x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S256x128, .f32⟩
  | .hbm, ⟨19, _⟩ => ⟨S128x64, .f32⟩
  | .hbm, ⟨20, _⟩ => ⟨S64, .f32⟩
  | .hbm, ⟨21, _⟩ => ⟨S64x16, .f32⟩
  | .hbm, ⟨22, _⟩ => ⟨S16, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x96, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x96, .bf16⟩
  | .hbm, ⟨50, _⟩ => ⟨S800000x96, .f32⟩
  | .hbm, ⟨51, _⟩ => ⟨S_, .f32⟩
  | .hbm, ⟨52, _⟩ => ⟨S50000x96, .f32⟩
  | .hbm, ⟨53, _⟩ => ⟨S800000x1, .i32⟩
  | .hbm, ⟨54, _⟩ => ⟨S50000x96, .f32⟩
  | .hbm, ⟨55, _⟩ => ⟨S50000x96, .bf16⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S50000x256, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .bf16⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S50000x256, .bf16⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S50000x256, .bf16⟩
  | .hbm, ⟨83, _⟩ => ⟨S50000x128, .bf16⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .bf16⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S50000x128, .bf16⟩
  | .hbm, ⟨99, _⟩ => ⟨S1x128, .f32⟩
  | .hbm, ⟨100, _⟩ => ⟨S1x64, .f32⟩
  | .hbm, ⟨101, _⟩ => ⟨S1x16, .f32⟩
  | .hbm, ⟨102, _⟩ => ⟨S50000x16, .f32⟩
  | .local _ .vmem, ⟨0, _⟩ => ⟨S2000x96, .bf16⟩
  | .local _ .vmem, ⟨1, _⟩ => ⟨S2000x96, .bf16⟩
  | .local _ .vmem, ⟨2, _⟩ => ⟨S2000x96, .bf16⟩
  | .local _ .vmem, ⟨3, _⟩ => ⟨S2000x96, .bf16⟩
  | .local _ .vmem, ⟨4, _⟩ => ⟨S2000x1, .f32⟩
  | .local _ .vmem, ⟨5, _⟩ => ⟨S2000x1, .f32⟩
  | .local _ .vmem, ⟨6, _⟩ => ⟨S96x256, .f32⟩
  | .local _ .vmem, ⟨7, _⟩ => ⟨S1x256, .f32⟩
  | .local _ .vmem, ⟨8, _⟩ => ⟨S96x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S2000x256, .bf16⟩
  | .local _ .vmem, ⟨19, _⟩ => ⟨S2000x1, .f32⟩
  | .local _ .vmem, ⟨20, _⟩ => ⟨S2000x1, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x128, .f32⟩
  | .local _ .vmem, ⟨29, _⟩ => ⟨S2000x256, .bf16⟩
  | .local _ .vmem, ⟨30, _⟩ => ⟨S2000x256, .bf16⟩
  | .local _ .vmem, ⟨31, _⟩ => ⟨S2000x128, .bf16⟩
  | .local _ .vmem, ⟨32, _⟩ => ⟨S2000x128, .bf16⟩
  | .local _ .vmem, ⟨33, _⟩ => ⟨S2000x256, .bf16⟩
  | .local _ .vmem, ⟨34, _⟩ => ⟨S2000x256, .bf16⟩
  | .local _ .vmem, ⟨35, _⟩ => ⟨S2000x128, .bf16⟩
  | .local _ .vmem, ⟨36, _⟩ => ⟨S2000x128, .bf16⟩
  | .local _ .vmem, ⟨37, _⟩ => ⟨S2000x1, .f32⟩
  | .local _ .vmem, ⟨38, _⟩ => ⟨S2000x1, .f32⟩
  | .local _ .vmem, ⟨39, _⟩ => ⟨S256x128, .f32⟩
  | .local _ .vmem, ⟨40, _⟩ => ⟨S1x128, .f32⟩
  | .local _ .vmem, ⟨41, _⟩ => ⟨S128x64, .f32⟩
  | .local _ .vmem, ⟨42, _⟩ => ⟨S1x64, .f32⟩
  | .local _ .vmem, ⟨43, _⟩ => ⟨S64x16, .f32⟩
  | .local _ .vmem, ⟨44, _⟩ => ⟨S1x16, .f32⟩
  | .local _ .vmem, ⟨45, _⟩ => ⟨S2000x16, .f32⟩
  | .local _ .vmem, ⟨46, _⟩ => ⟨S2000x16, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_c_8 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg9_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem11_1 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem9_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x96 : S_.BroadcastsInDim S50000x96 (![] : Fin 0 → Fin S50000x96.rank)
  shapeCasts_S256_S1x256 : S256.ShapeCasts S1x256
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  inb_S96x256_S96x256_0_0 : ∀ a, (![0, 0] : Fin 2 → Nat) a + S96x256.size a ≤ S96x256.size a
  h_S96x256 : 0 < S96x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S64_S1x64 : S64.ShapeCasts S1x64
  shapeCasts_S16_S1x16 : S16.ShapeCasts S1x16
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x256_S2000x256_1_0_0_1_n_n_wf : DotDims.WF S2000x96 S96x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .bf16 = 32 ∨ (Rect.block (s := S50000x96) S2000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .bf16 = 32 ∨ (Rect.block (s := S50000x96) S2000x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x256.size a ≤ S96x256.size a
  hwx0_3 : ∀ i : grid0.Coords, EltTy.bits .f32 = 32 ∨ (Rect.block (s := S96x256) S96x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x256.size a ≤ S96x256.size a
  hwx0_5 : ∀ i : grid0.Coords, EltTy.bits .f32 = 32 ∨ (Rect.block (s := S96x256) S96x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .bf16 = 32 ∨ (Rect.block (s := S50000x256) S2000x256.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x128.size a ≤ S256x128.size a
  hwx1_10 : ∀ i : grid1.Coords, EltTy.bits .f32 = 32 ∨ (Rect.block (s := S256x128) S256x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x256.size a ≤ S50000x256.size a
  hwx1_11 : ∀ i : grid1.Coords, EltTy.bits .bf16 = 32 ∨ (Rect.block (s := S50000x256) S2000x256.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .bf16 = 32 ∨ (Rect.block (s := S50000x128) S2000x128.size (cc1_transform_12 i) (hinb1_12 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x16.size a ≤ S64x16.size a
  hwx2_7 : ∀ i : grid2.Coords, EltTy.bits .f32 = 32 ∨ (Rect.block (s := S64x16) S64x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x16.size a ≤ S1x16.size a
  hwx2_8 : ∀ i : grid2.Coords, EltTy.bits .f32 = 32 ∨ (Rect.block (s := S1x16) S1x16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x16.size a ≤ S50000x16.size a
  hwx2_9 : ∀ i : grid2.Coords, EltTy.bits .f32 = 32 ∨ (Rect.block (s := S50000x16) S2000x16.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_v13) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S256x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v49_0) S2000x256.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v49_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v49_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S64x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S2000x16.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x256 : Shape := ⟨2, ![96, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S50000x16 : Shape := ⟨2, ![50000, 16]⟩
abbrev S1x16 : Shape := ⟨2, ![1, 16]⟩

abbrev nBuf : Space → Nat
  | .hbm => 183
  | .vmem => 0
  | .smem => 0
  | _ => 0

abbrev hbmTy0_0 (i : Nat) : BufTy := match i % 128 with
  | 0 => ⟨S50000x96, .f32⟩
  | 1 => ⟨S2x800000, .i32⟩
  | 2 => ⟨S96x256, .f32⟩
  | 3 => ⟨S256, .f32⟩
  | 4 => ⟨S96x256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256x128, .f32⟩
  | 17 => ⟨S128, .f32⟩
  | 18 => ⟨S256x128, .f32⟩
  | 19 => ⟨S128x64, .f32⟩
  | 20 => ⟨S64, .f32⟩
  | 21 => ⟨S64x16, .f32⟩
  | 22 => ⟨S16, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x96, .f32⟩
  | 36 => ⟨S_, .f32⟩
  | 37 => ⟨S50000x96, .f32⟩
  | 38 => ⟨S800000x1, .i32⟩
  | 39 => ⟨S50000x96, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x96, .f32⟩
  | 51 => ⟨S50000x96, .f32⟩
  | 52 => ⟨S50000x256, .f32⟩
  | 53 => ⟨S1x256, .f32⟩
  | 54 => ⟨S50000x256, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S256, .f32⟩
  | 63 => ⟨S256, .f32⟩
  | 64 => ⟨S256, .f32⟩
  | 65 => ⟨S256, .f32⟩
  | 66 => ⟨S1x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S_, .f32⟩
  | 89 => ⟨S800000, .f32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S256, .f32⟩
  | 111 => ⟨S256, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .i32⟩
  | 124 => ⟨S800000, .i32⟩
  | 125 => ⟨S800000, .i1⟩
  | 126 => ⟨S_, .i32⟩
  | 127 => ⟨S800000, .i32⟩
  | _ => ⟨S50000x96, .f32⟩

abbrev hbmTy0_1 (i : Nat) : BufTy := match i % 128 with
  | 0 => ⟨S800000, .i32⟩
  | 1 => ⟨S800000, .i32⟩
  | 2 => ⟨S800000x1, .i32⟩
  | 3 => ⟨S800000x256, .f32⟩
  | 4 => ⟨S_, .f32⟩
  | 5 => ⟨S50000x256, .f32⟩
  | 6 => ⟨S800000x1, .i32⟩
  | 7 => ⟨S50000x256, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x256, .f32⟩
  | 19 => ⟨S50000x256, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x16, .f32⟩
  | 37 => ⟨S1x16, .f32⟩
  | 38 => ⟨S50000x16, .f32⟩
  | 39 => ⟨S50000x16, .f32⟩
  | 40 => ⟨S_, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x16, .f32⟩
  | 47 => ⟨S50000x16, .f32⟩
  | 48 => ⟨S50000x16, .f32⟩
  | 49 => ⟨S_, .f32⟩
  | 50 => ⟨S50000, .f32⟩
  | 51 => ⟨S50000x1, .f32⟩
  | 52 => ⟨S50000x1, .f32⟩
  | 53 => ⟨S50000x16, .f32⟩
  | 54 => ⟨S50000x16, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call0_cst : Ref sig .tc := ⟨.hbm, 72, rfl⟩
abbrev main_call0_v0 : Ref sig .tc := ⟨.hbm, 73, rfl⟩
abbrev main_v42 : Ref sig .tc := ⟨.hbm, 74, rfl⟩
abbrev main_c_5 : Ref sig .tc := ⟨.hbm, 75, rfl⟩
abbrev main_v43 : Ref sig .tc := ⟨.hbm, 76, rfl⟩
abbrev main_v44 : Ref sig .tc := ⟨.hbm, 77, rfl⟩
abbrev main_c_6 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_v53 : Ref sig .tc := ⟨.hbm, 89, rfl⟩
abbrev main_cst_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call1_cst : Ref sig .tc := ⟨.hbm, 120, rfl⟩
abbrev main_call1_v0 : Ref sig .tc := ⟨.hbm, 121, rfl⟩
abbrev main_v81 : Ref sig .tc := ⟨.hbm, 122, rfl⟩
abbrev main_c_12 : Ref sig .tc := ⟨.hbm, 123, rfl⟩
abbrev main_v82 : Ref sig .tc := ⟨.hbm, 124, rfl⟩
abbrev main_v83 : Ref sig .tc := ⟨.hbm, 125, rfl⟩
abbrev main_c_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_14 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_15 : Ref sig .tc := ⟨.hbm, 136, rfl⟩
abbrev main_v92 : Ref sig .tc := ⟨.hbm, 137, rfl⟩
abbrev main_cst_16 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_17 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call2_cst : Ref sig .tc := ⟨.hbm, 154, rfl⟩
abbrev main_call2_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_call3_cst : Ref sig .tc := ⟨.hbm, 161, rfl⟩
abbrev main_call3_v0 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_call4_cst : Ref sig .tc := ⟨.hbm, 168, rfl⟩
abbrev main_call4_v0 : Ref sig .tc := ⟨.hbm, 169, rfl⟩
abbrev main_call4_cst_0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_v6 : Ref sig .tc := ⟨.hbm, 176, rfl⟩
abbrev main_call4_cst_1 : Ref sig .tc := ⟨.hbm, 177, rfl⟩
abbrev main_call4_v7 : Ref sig .tc := ⟨.hbm, 178, rfl⟩
abbrev main_call4_v8 : Ref sig .tc := ⟨.hbm, 179, rfl⟩
abbrev main_call4_v9 : Ref sig .tc := ⟨.hbm, 180, rfl⟩
abbrev main_call4_v10 : Ref sig .tc := ⟨.hbm, 181, rfl⟩
abbrev main_v117 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000x1_S50000x16_0_1 : S50000x1.BroadcastsInDim S50000x16 (![0, 1] : Fin 2 → Fin S50000x16.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x256_S50000x256_1_0_0_1_n_n_wf : DotDims.WF S50000x96 S96x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x16_S50000x16_1_0_0_1_n_n_wf : DotDims.WF S50000x64 S64x16 S50000x16 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.KernelRun.lean ====
/-
  The idealized kernel's run with its result named. Every weakly fair execution of the program — three pipelined
  regions among stretches of host operations — terminates without a fault; at the end every argument array is as
  launched and the result array holds what the fold of the segments leaves in it: the launch contents pushed through
  the first stretch of host operations, the first region's write-backs, the second stretch, and so on to the third
  region's exit. The fold is read back in the modules that follow.
-/
import proofs.«150929_j57071525429489_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The frame run of the idealized kernel, with the result array's final contents named by the fold. -/
theorem run_named : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v65 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.Sage.KRun

end
-- ==== Proof.Spec.lean ====
/-
  The mathematics of the three fused stages, stated once, on the extended reals.

  A node's row of a SAGE layer is  (Σ_k mean(k)·Wl(k,c) + bl(c)) + Σ_k x(k)·Wr(k,c),  where mean(k) is the
  neighbour sum a(k) divided by the clamped degree d — written by one program as a(k)·(1/d) and by the other as
  a(k)/d —, followed by the affine batch normalisation (h − m)·scale + b with scale = g·rsqrt(v + ε), resp.
  g / sqrt(v + ε), and the positive part. The last layer feeds two dense stages and a row-wise log-softmax.
  Every formula is a function of ONE row of the node features, so it is stated for an array of any number
  of rows: a block of rows of the array and the array itself are read by the same definition.
-/
import Idealize.ShloMosaic.PureOps.Ideal
import Idealize.ShloMosaic.Lib.ValueIdx

noncomputable section

open scoped BigOperators

namespace Cert.Sage

open Idealize.ShloMosaic Idealize.ShloMosaic.ValueIdx

/-- The batch normalisation's ε, the binary32 word both programs carry. -/
abbrev eps : EReal := Ideal.ofBits .f32 0x3727C5AC#32
/-- The binary32 zero word (both zeros denote 0; it is never evaluated here). -/
abbrev zero32 : EReal := Ideal.ofBits .f32 0x00000000#32
/-- The binary32 word of −∞, the row maximum's starting value. -/
abbrev ninf32 : EReal := Ideal.ofBits .f32 0xFF800000#32

/-- Σ_k u(k)·w(k). -/
def dot {K : ℕ} (u w : Fin K → EReal) : EReal := ∑ k, u k * w k

/-- A SAGE row before normalisation, the mean spelt a(k)·i with i the reciprocal of the clamped degree. -/
def sagePre {K : ℕ} (a x : Fin K → EReal) (i : EReal) (wl wr : Fin K → EReal) (bl : EReal) : EReal :=
  (dot (fun k => a k * i) wl + bl) + dot x wr

/-- The same row, the mean spelt as the quotient a(k)/d by the clamped degree d. -/
def sagePreR {K : ℕ} (a x : Fin K → EReal) (d : EReal) (wl wr : Fin K → EReal) (bl : EReal) : EReal :=
  (dot (fun k => Ideal.div (a k) d) wl + bl) + dot x wr

/-- Batch normalisation with the scale g·rsqrt(v + ε), then the positive part. -/
def bnReluK (h m g v b : EReal) : EReal := max ((h - m) * (g * Ideal.rsqrt (v + eps)) + b) zero32

/-- Batch normalisation with the scale g / sqrt(v + ε), then the positive part. -/
def bnReluR (h m g v b : EReal) : EReal := max ((h - m) * Ideal.div g (Ideal.sqrt (v + eps)) + b) zero32

/-- The maximum of a row, folded from −∞. -/
def rowMax {K : ℕ} (l : Fin K → EReal) : EReal := (Finset.univ : Finset (Fin K)).fold max ninf32 l

/-- log-softmax of a row at q: (l(q) − M) − log Σ_k exp(l(k) − M), M the row's maximum. -/
def logSoftmax {K : ℕ} (l : Fin K → EReal) (q : Fin K) : EReal :=
  (l q - rowMax l) - Ideal.log (∑ k, Ideal.exp (l k - rowMax l))

/-- The head on one row h of the last SAGE layer: two dense stages (the first with a positive part), then log-softmax. -/
def head {A B C : ℕ} (h : Fin A → EReal) (wf1 : Fin A → Fin B → EReal) (bf1 : Fin B → EReal)
    (wf2 : Fin B → Fin C → EReal) (bf2 : Fin C → EReal) (q : Fin C) : EReal :=
  logSoftmax (fun j => dot (fun k => max (dot h (fun a => wf1 a k) + bf1 k) zero32) (fun k => wf2 k j) + bf2 j) q

/-- The last SAGE layer's row entry from the already projected neighbour sum a, spelt a·i. -/
def sage3K {K : ℕ} (a : EReal) (x : Fin K → EReal) (i : EReal) (wr : Fin K → EReal) (bl : EReal) : EReal :=
  max ((a * i + bl) + dot x wr) zero32

/-! ## The regions as functions of whole arrays, for any number N of rows. The arguments come in the order of the
    region's windows. -/

/-- Stage 1: features x0 [N,Kin], neighbour sums x1 [N,Kin], reciprocal degrees x2 [N,1], Wl x3, bl x4 [1,H], Wr x5,
    γ x6, β x7, running mean x8, running variance x9 (rows [1,H]). -/
def G0 {N Kin H : ℕ} (x0 x1 : (⟨2, ![N, Kin]⟩ : Shape).Idx → EReal) (x2 : (⟨2, ![N, 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal) :
    (⟨2, ![N, H]⟩ : Shape).Idx → EReal := fun j =>
  bnReluK (sagePre (fun k => x1 (ix2 (j 0) k)) (fun k => x0 (ix2 (j 0) k)) (x2 (ix2 (j 0) (0 : Fin 1)))
      (fun k => x3 (ix2 k (j 1))) (fun k => x5 (ix2 k (j 1))) (x4 (ix2 (0 : Fin 1) (j 1))))
    (x8 (ix2 (0 : Fin 1) (j 1))) (x6 (ix2 (0 : Fin 1) (j 1))) (x9 (ix2 (0 : Fin 1) (j 1))) (x7 (ix2 (0 : Fin 1) (j 1)))

/-- Stage 2's second output: the rows of stage 2's first output (G0 of the same arrays) times the next layer's Wl, x10. -/
def G1b {N Kin H P : ℕ} (x0 x1 : (⟨2, ![N, Kin]⟩ : Shape).Idx → EReal) (x2 : (⟨2, ![N, 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal)
    (x10 : (⟨2, ![H, P]⟩ : Shape).Idx → EReal) : (⟨2, ![N, P]⟩ : Shape).Idx → EReal := fun j =>
  dot (fun k => G0 x0 x1 x2 x3 x4 x5 x6 x7 x8 x9 (ix2 (j 0) k)) (fun k => x10 (ix2 k (j 1)))

/-- Stage 3: features x0 [N,K], projected neighbour sums x1 [N,P], reciprocal degrees x2 [N,1], Wr x3 [K,P], bl x4 [1,P],
    Wf1 x5 [P,B], bf1 x6 [1,B], Wf2 x7 [B,C], bf2 x8 [1,C]. -/
def G2 {N K P B C : ℕ} (x0 : (⟨2, ![N, K]⟩ : Shape).Idx → EReal) (x1 : (⟨2, ![N, P]⟩ : Shape).Idx → EReal)
    (x2 : (⟨2, ![N, 1]⟩ : Shape).Idx → EReal) (x3 : (⟨2, ![K, P]⟩ : Shape).Idx → EReal)
    (x4 : (⟨2, ![1, P]⟩ : Shape).Idx → EReal) (x5 : (⟨2, ![P, B]⟩ : Shape).Idx → EReal)
    (x6 : (⟨2, ![1, B]⟩ : Shape).Idx → EReal) (x7 : (⟨2, ![B, C]⟩ : Shape).Idx → EReal)
    (x8 : (⟨2, ![1, C]⟩ : Shape).Idx → EReal) : (⟨2, ![N, C]⟩ : Shape).Idx → EReal := fun j =>
  head (fun a => sage3K (x1 (ix2 (j 0) a)) (fun k => x0 (ix2 (j 0) k)) (x2 (ix2 (j 0) (0 : Fin 1)))
      (fun k => x3 (ix2 k a)) (x4 (ix2 (0 : Fin 1) a)))
    (fun a k => x5 (ix2 a k)) (fun k => x6 (ix2 (0 : Fin 1) k)) (fun k j' => x7 (ix2 k j')) (fun j' => x8 (ix2 (0 : Fin 1) j'))
    (j 1)

end Cert.Sage

end
-- ==== Proof.KHost.lean ====
/-
  The kernel program's host stretches as pure functions: each buffer a stretch writes and a region reads, as the
  composition of the stretch's operations applied to what the stretch finds (the program's arguments x0 … x22, the edge
  rows r1 (sources) and r3 (targets), the first stage's output h1, the second stage's projected output y). Then the
  whole program as ONE function of its 23 arguments: stage 1 (H1), the neighbour sums of its rows (A2), stage 2 (H2) and
  its projection (Y), and the result (OUT).
-/
import proofs.«150929_j57071525429489_2_alg».proof.Proof.Gen.KernelIdeal
import proofs.«150929_j57071525429489_2_alg».proof.Proof.Spec

noncomputable section

namespace Cert.Sage.KHost

open Cert.KernelIdeal Cert.KernelIdeal.Facts₀ Cert.KernelIdeal.Facts Cert.Sage Idealize.ShloMosaic

variable {F : FTy → Type} [FloatOps F]

def k_v1 (x1 : (⟨S2x800000, .i32⟩ : BufTy).Contents (Elt F)) :
    (⟨S800000, .i32⟩ : BufTy).Contents (Elt F) :=
  (shapeCast S800000 (((extractStridedSlice S1x800000 ![0, 0] · slices_S2x800000_S1x800000_0_0) : (⟨S2x800000, .i32⟩ : BufTy).Contents (Elt F) → (⟨S1x800000, .i32⟩ : BufTy).Contents (Elt F)) x1) shapeCasts_S1x800000_S800000)

def k_v3 (x1 : (⟨S2x800000, .i32⟩ : BufTy).Contents (Elt F)) :
    (⟨S800000, .i32⟩ : BufTy).Contents (Elt F) :=
  (shapeCast S800000 (((extractStridedSlice S1x800000 ![1, 0] · slices_S2x800000_S1x800000_1_0) : (⟨S2x800000, .i32⟩ : BufTy).Contents (Elt F) → (⟨S1x800000, .i32⟩ : BufTy).Contents (Elt F)) x1) shapeCasts_S1x800000_S800000)

def k_v12 (x1 : (⟨S2x800000, .i32⟩ : BufTy).Contents (Elt F)) :
    (⟨S50000x1, .f32⟩ : BufTy).Contents (Elt F) :=
  (shapeCast S50000x1 ((Host.divf : (⟨S50000, .f32⟩ : BufTy).Contents (Elt F) → (⟨S50000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x3F800000#32)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (shapeCast S800000 (((extractStridedSlice S1x800000 ![1, 0] · slices_S2x800000_S1x800000_1_0) : (⟨S2x800000, .i32⟩ : BufTy).Contents (Elt F) → (⟨S1x800000, .i32⟩ : BufTy).Contents (Elt F)) x1) shapeCasts_S1x800000_S800000)) ((broadcastInDim S800000 ![] bcast_S_S800000 : (⟨S_, .f32⟩ : BufTy).Contents (Elt F) → (⟨S800000, .f32⟩ : BufTy).Contents (Elt F)) (constant (F := F) S_ .f32 0x3F800000#32))) ((broadcastInDim S50000 ![] bcast_S_S50000 : (⟨S_, .f32⟩ : BufTy).Contents (Elt F) → (⟨S50000, .f32⟩ : BufTy).Contents (Elt F)) (constant (F := F) S_ .f32 0x3F800000#32)))) shapeCasts_S50000_S50000x1)

def k_v13 (x0 : (⟨S50000x96, .f32⟩ : BufTy).Contents (Elt F)) :
    (⟨S50000x96, .bf16⟩ : BufTy).Contents (Elt F) :=
  (((truncf .bf16 · bitsLt_bf16_f32) : (⟨S50000x96, .f32⟩ : BufTy).Contents (Elt F) → (⟨S50000x96, .bf16⟩ : BufTy).Contents (Elt F)) x0)

def k_v25 (x0 : (⟨S50000x96, .f32⟩ : BufTy).Contents (Elt F)) (x1 : (⟨S2x800000, .i32⟩ : BufTy).Contents (Elt F)) :
    (⟨S50000x96, .bf16⟩ : BufTy).Contents (Elt F) :=
  (((truncf .bf16 · bitsLt_bf16_f32) : (⟨S50000x96, .f32⟩ : BufTy).Contents (Elt F) → (⟨S50000x96, .bf16⟩ : BufTy).Contents (Elt F)) (((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) ((broadcastInDim S50000x96 ![] bcast_S_S50000x96 : (⟨S_, .f32⟩ : BufTy).Contents (Elt F) → (⟨S50000x96, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) (shapeCast S800000 (((extractStridedSlice S1x800000 ![1, 0] · slices_S2x800000_S1x800000_1_0) : (⟨S2x800000, .i32⟩ : BufTy).Contents (Elt F) → (⟨S1x800000, .i32⟩ : BufTy).Contents (Elt F)) x1) shapeCasts_S1x800000_S800000)) (((extf .f32 · bitsLt_bf16_f32) : (⟨S800000x96, .bf16⟩ : BufTy).Contents (Elt F) → (⟨S800000x96, .f32⟩ : BufTy).Contents (Elt F)) (((fun x i => Host.gather gather_S50000x96_S800000x1_S800000x96_1_0_n_n_0_1_196 x i) : (⟨S50000x96, .bf16⟩ : BufTy).Contents (Elt F) → (⟨S800000x1, .i32⟩ : BufTy).Contents (Elt F) → (⟨S800000x96, .bf16⟩ : BufTy).Contents (Elt F)) (((truncf .bf16 · bitsLt_bf16_f32) : (⟨S50000x96, .f32⟩ : BufTy).Contents (Elt F) → (⟨S50000x96, .bf16⟩ : BufTy).Contents (Elt F)) x0) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (shapeCast S800000 (((extractStridedSlice S1x800000 ![0, 0] · slices_S2x800000_S1x800000_0_0) : (⟨S2x800000, .i32⟩ : BufTy).Contents (Elt F) → (⟨S1x800000, .i32⟩ : BufTy).Contents (Elt F)) x1) shapeCasts_S1x800000_S800000) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (shapeCast S800000 (((extractStridedSlice S1x800000 ![0, 0] · slices_S2x800000_S1x800000_0_0) : (⟨S2x800000, .i32⟩ : BufTy).Contents (Elt F) → (⟨S1x800000, .i32⟩ : BufTy).Contents (Elt F)) x1) shapeCasts_S1x800000_S800000) ((broadcastInDim S800000 ![] bcast_S_S800000 : (⟨S_, .i32⟩ : BufTy).Contents (Elt F) → (⟨S800000, .i32⟩ : BufTy).Contents (Elt F)) (constantI S_ 32 50000#32))) (shapeCast S800000 (((extractStridedSlice S1x800000 ![0, 0] · slices_S2x800000_S1x800000_0_0) : (⟨S2x800000, .i32⟩ : BufTy).Contents (Elt F) → (⟨S1x800000, .i32⟩ : BufTy).Contents (Elt F)) x1) shapeCasts_S1x800000_S800000)))))))

def k_v26 (x3 : (⟨S256, .f32⟩ : BufTy).Contents (Elt F)) :
    (⟨S1x256, .f32⟩ : BufTy).Contents (Elt F) :=
  (shapeCast S1x256 x3 shapeCasts_S256_S1x256)

def k_v27 (x5 : (⟨S256, .f32⟩ : BufTy).Contents (Elt F)) :
    (⟨S1x256, .f32⟩ : BufTy).Contents (Elt F) :=
  (shapeCast S1x256 x5 shapeCasts_S256_S1x256)

def k_v28 (x6 : (⟨S256, .f32⟩ : BufTy).Contents (Elt F)) :
    (⟨S1x256, .f32⟩ : BufTy).Contents (Elt F) :=
  (shapeCast S1x256 x6 shapeCasts_S256_S1x256)

def k_v29 (x7 : (⟨S256, .f32⟩ : BufTy).Contents (Elt F)) :
    (⟨S1x256, .f32⟩ : BufTy).Contents (Elt F) :=
  (shapeCast S1x256 x7 shapeCasts_S256_S1x256)

def k_v30 (x8 : (⟨S256, .f32⟩ : BufTy).Contents (Elt F)) :
    (⟨S1x256, .f32⟩ : BufTy).Contents (Elt F) :=
  (shapeCast S1x256 x8 shapeCasts_S256_S1x256)

def k_v43 (r1 : (⟨S800000, .i32⟩ : BufTy).Contents (Elt F)) (r3 : (⟨S800000, .i32⟩ : BufTy).Contents (Elt F)) (h1 : (⟨S50000x256, .bf16⟩ : BufTy).Contents (Elt F)) :
    (⟨S50000x256, .bf16⟩ : BufTy).Contents (Elt F) :=
  (((truncf .bf16 · bitsLt_bf16_f32) : (⟨S50000x256, .f32⟩ : BufTy).Contents (Elt F) → (⟨S50000x256, .bf16⟩ : BufTy).Contents (Elt F)) (((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) r3) (((extf .f32 · bitsLt_bf16_f32) : (⟨S800000x256, .bf16⟩ : BufTy).Contents (Elt F) → (⟨S800000x256, .f32⟩ : BufTy).Contents (Elt F)) (((fun x i => Host.gather gather_S50000x256_S800000x1_S800000x256_1_0_n_n_0_1_1256 x i) : (⟨S50000x256, .bf16⟩ : BufTy).Contents (Elt F) → (⟨S800000x1, .i32⟩ : BufTy).Contents (Elt F) → (⟨S800000x256, .bf16⟩ : BufTy).Contents (Elt F)) h1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) r1 ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) r1 ((broadcastInDim S800000 ![] bcast_S_S800000 : (⟨S_, .i32⟩ : BufTy).Contents (Elt F) → (⟨S800000, .i32⟩ : BufTy).Contents (Elt F)) (constantI S_ 32 50000#32))) r1))))))

def k_v44 (x10 : (⟨S256, .f32⟩ : BufTy).Contents (Elt F)) :
    (⟨S1x256, .f32⟩ : BufTy).Contents (Elt F) :=
  (shapeCast S1x256 x10 shapeCasts_S256_S1x256)

def k_v45 (x12 : (⟨S256, .f32⟩ : BufTy).Contents (Elt F)) :
    (⟨S1x256, .f32⟩ : BufTy).Contents (Elt F) :=
  (shapeCast S1x256 x12 shapeCasts_S256_S1x256)

def k_v46 (x13 : (⟨S256, .f32⟩ : BufTy).Contents (Elt F)) :
    (⟨S1x256, .f32⟩ : BufTy).Contents (Elt F) :=
  (shapeCast S1x256 x13 shapeCasts_S256_S1x256)

def k_v47 (x14 : (⟨S256, .f32⟩ : BufTy).Contents (Elt F)) :
    (⟨S1x256, .f32⟩ : BufTy).Contents (Elt F) :=
  (shapeCast S1x256 x14 shapeCasts_S256_S1x256)

def k_v48 (x15 : (⟨S256, .f32⟩ : BufTy).Contents (Elt F)) :
    (⟨S1x256, .f32⟩ : BufTy).Contents (Elt F) :=
  (shapeCast S1x256 x15 shapeCasts_S256_S1x256)

def k_v61 (r1 : (⟨S800000, .i32⟩ : BufTy).Contents (Elt F)) (r3 : (⟨S800000, .i32⟩ : BufTy).Contents (Elt F)) (y : (⟨S50000x128, .bf16⟩ : BufTy).Contents (Elt F)) :
    (⟨S50000x128, .bf16⟩ : BufTy).Contents (Elt F) :=
  (((truncf .bf16 · bitsLt_bf16_f32) : (⟨S50000x128, .f32⟩ : BufTy).Contents (Elt F) → (⟨S50000x128, .bf16⟩ : BufTy).Contents (Elt F)) (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant (F := F) S_ .f32 0x00000000#32)) ((broadcastInDim S800000x1 ![0] bcast_S800000_S800000x1_0 : (⟨S800000, .i32⟩ : BufTy).Contents (Elt F) → (⟨S800000x1, .i32⟩ : BufTy).Contents (Elt F)) r3) (((extf .f32 · bitsLt_bf16_f32) : (⟨S800000x128, .bf16⟩ : BufTy).Contents (Elt F) → (⟨S800000x128, .f32⟩ : BufTy).Contents (Elt F)) (((fun x i => Host.gather gather_S50000x128_S800000x1_S800000x128_1_0_n_n_0_1_1128 x i) : (⟨S50000x128, .bf16⟩ : BufTy).Contents (Elt F) → (⟨S800000x1, .i32⟩ : BufTy).Contents (Elt F) → (⟨S800000x128, .bf16⟩ : BufTy).Contents (Elt F)) y ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) r1 ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) r1 ((broadcastInDim S800000 ![] bcast_S_S800000 : (⟨S_, .i32⟩ : BufTy).Contents (Elt F) → (⟨S800000, .i32⟩ : BufTy).Contents (Elt F)) (constantI S_ 32 50000#32))) r1))))))

def k_v62 (x17 : (⟨S128, .f32⟩ : BufTy).Contents (Elt F)) :
    (⟨S1x128, .f32⟩ : BufTy).Contents (Elt F) :=
  (shapeCast S1x128 x17 shapeCasts_S128_S1x128)

def k_v63 (x20 : (⟨S64, .f32⟩ : BufTy).Contents (Elt F)) :
    (⟨S1x64, .f32⟩ : BufTy).Contents (Elt F) :=
  (shapeCast S1x64 x20 shapeCasts_S64_S1x64)

def k_v64 (x22 : (⟨S16, .f32⟩ : BufTy).Contents (Elt F)) :
    (⟨S1x16, .f32⟩ : BufTy).Contents (Elt F) :=
  (shapeCast S1x16 x22 shapeCasts_S16_S1x16)

/-- Stage 1's output array. -/
def H1 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) : S50000x256.Idx → EReal :=
  G0 (k_v13 (F := Ideal) x0) (k_v25 (F := Ideal) x0 x1) (k_v12 (F := Ideal) x1) x2 (k_v26 (F := Ideal) x3) x4 (k_v27 (F := Ideal) x5) (k_v28 (F := Ideal) x6) (k_v29 (F := Ideal) x7) (k_v30 (F := Ideal) x8)

/-- The neighbour sums of stage 1's rows. -/
def A2 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) : S50000x256.Idx → EReal :=
  k_v43 (F := Ideal) (k_v1 (F := Ideal) x1) (k_v3 (F := Ideal) x1) (H1 x0 x1 x2 x3 x4 x5 x6 x7 x8)

/-- Stage 2's output array. -/
def H2 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) : S50000x256.Idx → EReal :=
  G0 (H1 x0 x1 x2 x3 x4 x5 x6 x7 x8) (A2 x0 x1 x2 x3 x4 x5 x6 x7 x8) (k_v12 (F := Ideal) x1) x9 (k_v44 (F := Ideal) x10) x11 (k_v45 (F := Ideal) x12) (k_v46 (F := Ideal) x13) (k_v47 (F := Ideal) x14) (k_v48 (F := Ideal) x15)

/-- Stage 2's second output: its rows times the last layer's Wl. -/
def Y (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) : S50000x128.Idx → EReal :=
  G1b (H1 x0 x1 x2 x3 x4 x5 x6 x7 x8) (A2 x0 x1 x2 x3 x4 x5 x6 x7 x8) (k_v12 (F := Ideal) x1) x9 (k_v44 (F := Ideal) x10) x11 (k_v45 (F := Ideal) x12) (k_v46 (F := Ideal) x13) (k_v47 (F := Ideal) x14) (k_v48 (F := Ideal) x15) x16

/-- The program's result as a function of its arguments. -/
def OUT (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) : S50000x16.Idx → EReal :=
  G2 (H2 x0 x1 x2 x3 x4 x5 x6 x7 x8 x9 x10 x11 x12 x13 x14 x15) (k_v61 (F := Ideal) (k_v1 (F := Ideal) x1) (k_v3 (F := Ideal) x1) (Y x0 x1 x2 x3 x4 x5 x6 x7 x8 x9 x10 x11 x12 x13 x14 x15 x16)) (k_v12 (F := Ideal) x1) x18 (k_v62 (F := Ideal) x17) x19 (k_v63 (F := Ideal) x20) x21 (k_v64 (F := Ideal) x22)

end Cert.Sage.KHost

end
-- ==== Proof.SpecRows.lean ====
/-
  Each stage's entry at row r depends on the node arrays only through their row r: two families of node arrays
  whose rows agree (row r of one with row r' of the other) give the same entry there. This is what lets a block of
  2000 rows be read by the formula of the whole array.
-/
import proofs.«150929_j57071525429489_2_alg».proof.Proof.Spec

noncomputable section

namespace Cert.Sage

open Idealize.ShloMosaic Idealize.ShloMosaic.ValueIdx

theorem G0_rows {N N' Kin H : ℕ}
    (x0 x1 : (⟨2, ![N, Kin]⟩ : Shape).Idx → EReal) (x2 : (⟨2, ![N, 1]⟩ : Shape).Idx → EReal)
    (y0 y1 : (⟨2, ![N', Kin]⟩ : Shape).Idx → EReal) (y2 : (⟨2, ![N', 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal)
    (r : Fin N) (r' : Fin N') (q : Fin H)
    (h0 : ∀ k, x0 (ix2 r k) = y0 (ix2 r' k)) (h1 : ∀ k, x1 (ix2 r k) = y1 (ix2 r' k))
    (h2 : x2 (ix2 r (0 : Fin 1)) = y2 (ix2 r' (0 : Fin 1))) :
    G0 x0 x1 x2 x3 x4 x5 x6 x7 x8 x9 (ix2 r q) = G0 y0 y1 y2 x3 x4 x5 x6 x7 x8 x9 (ix2 r' q) := by
  show bnReluK (sagePre (fun k => x1 (ix2 r k)) (fun k => x0 (ix2 r k)) (x2 (ix2 r (0 : Fin 1)))
        (fun k => x3 (ix2 k q)) (fun k => x5 (ix2 k q)) (x4 (ix2 (0 : Fin 1) q)))
        (x8 (ix2 (0 : Fin 1) q)) (x6 (ix2 (0 : Fin 1) q)) (x9 (ix2 (0 : Fin 1) q)) (x7 (ix2 (0 : Fin 1) q))
     = bnReluK (sagePre (fun k => y1 (ix2 r' k)) (fun k => y0 (ix2 r' k)) (y2 (ix2 r' (0 : Fin 1)))
        (fun k => x3 (ix2 k q)) (fun k => x5 (ix2 k q)) (x4 (ix2 (0 : Fin 1) q)))
        (x8 (ix2 (0 : Fin 1) q)) (x6 (ix2 (0 : Fin 1) q)) (x9 (ix2 (0 : Fin 1) q)) (x7 (ix2 (0 : Fin 1) q))
  rw [funext h0, funext h1, h2]

theorem G1b_rows {N N' Kin H P : ℕ}
    (x0 x1 : (⟨2, ![N, Kin]⟩ : Shape).Idx → EReal) (x2 : (⟨2, ![N, 1]⟩ : Shape).Idx → EReal)
    (y0 y1 : (⟨2, ![N', Kin]⟩ : Shape).Idx → EReal) (y2 : (⟨2, ![N', 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal)
    (x10 : (⟨2, ![H, P]⟩ : Shape).Idx → EReal)
    (r : Fin N) (r' : Fin N') (q : Fin P)
    (h0 : ∀ k, x0 (ix2 r k) = y0 (ix2 r' k)) (h1 : ∀ k, x1 (ix2 r k) = y1 (ix2 r' k))
    (h2 : x2 (ix2 r (0 : Fin 1)) = y2 (ix2 r' (0 : Fin 1))) :
    G1b x0 x1 x2 x3 x4 x5 x6 x7 x8 x9 x10 (ix2 r q) = G1b y0 y1 y2 x3 x4 x5 x6 x7 x8 x9 x10 (ix2 r' q) := by
  show dot (fun k => G0 x0 x1 x2 x3 x4 x5 x6 x7 x8 x9 (ix2 r k)) (fun k => x10 (ix2 k q))
     = dot (fun k => G0 y0 y1 y2 x3 x4 x5 x6 x7 x8 x9 (ix2 r' k)) (fun k => x10 (ix2 k q))
  rw [funext fun k => G0_rows x0 x1 x2 y0 y1 y2 x3 x4 x5 x6 x7 x8 x9 r r' k h0 h1 h2]

theorem G2_rows {N N' K P B C : ℕ}
    (x0 : (⟨2, ![N, K]⟩ : Shape).Idx → EReal) (x1 : (⟨2, ![N, P]⟩ : Shape).Idx → EReal)
    (x2 : (⟨2, ![N, 1]⟩ : Shape).Idx → EReal)
    (y0 : (⟨2, ![N', K]⟩ : Shape).Idx → EReal) (y1 : (⟨2, ![N', P]⟩ : Shape).Idx → EReal)
    (y2 : (⟨2, ![N', 1]⟩ : Shape).Idx → EReal)
    (x3 : (⟨2, ![K, P]⟩ : Shape).Idx → EReal) (x4 : (⟨2, ![1, P]⟩ : Shape).Idx → EReal)
    (x5 : (⟨2, ![P, B]⟩ : Shape).Idx → EReal) (x6 : (⟨2, ![1, B]⟩ : Shape).Idx → EReal)
    (x7 : (⟨2, ![B, C]⟩ : Shape).Idx → EReal) (x8 : (⟨2, ![1, C]⟩ : Shape).Idx → EReal)
    (r : Fin N) (r' : Fin N') (q : Fin C)
    (h0 : ∀ k, x0 (ix2 r k) = y0 (ix2 r' k)) (h1 : ∀ a, x1 (ix2 r a) = y1 (ix2 r' a))
    (h2 : x2 (ix2 r (0 : Fin 1)) = y2 (ix2 r' (0 : Fin 1))) :
    G2 x0 x1 x2 x3 x4 x5 x6 x7 x8 (ix2 r q) = G2 y0 y1 y2 x3 x4 x5 x6 x7 x8 (ix2 r' q) := by
  show head (fun a => sage3K (x1 (ix2 r a)) (fun k => x0 (ix2 r k)) (x2 (ix2 r (0 : Fin 1)))
          (fun k => x3 (ix2 k a)) (x4 (ix2 (0 : Fin 1) a)))
        (fun a k => x5 (ix2 a k)) (fun k => x6 (ix2 (0 : Fin 1) k)) (fun k j' => x7 (ix2 k j')) (fun j' => x8 (ix2 (0 : Fin 1) j')) q
     = head (fun a => sage3K (y1 (ix2 r' a)) (fun k => y0 (ix2 r' k)) (y2 (ix2 r' (0 : Fin 1)))
          (fun k => x3 (ix2 k a)) (x4 (ix2 (0 : Fin 1) a)))
        (fun a k => x5 (ix2 a k)) (fun k => x6 (ix2 (0 : Fin 1) k)) (fun k j' => x7 (ix2 k j')) (fun j' => x8 (ix2 (0 : Fin 1) j')) q
  simp only [h0, h1, h2]

/-! ## The same with every window compared: the node arrays row against row, the weight and bias arrays as wholes -/

theorem G0_rowsAll {N N' Kin H : ℕ}
    (x0 x1 : (⟨2, ![N, Kin]⟩ : Shape).Idx → EReal) (x2 : (⟨2, ![N, 1]⟩ : Shape).Idx → EReal)
    (y0 y1 : (⟨2, ![N', Kin]⟩ : Shape).Idx → EReal) (y2 : (⟨2, ![N', 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal)
    (y3 : (⟨2, ![Kin, H]⟩ : Shape).Idx → EReal) (y4 : (⟨2, ![1, H]⟩ : Shape).Idx → EReal)
    (y5 : (⟨2, ![Kin, H]⟩ : Shape).Idx → EReal) (y6 y7 y8 y9 : (⟨2, ![1, H]⟩ : Shape).Idx → EReal)
    (r : Fin N) (r' : Fin N') (q : Fin H)
    (h0 : ∀ k, x0 (ix2 r k) = y0 (ix2 r' k)) (h1 : ∀ k, x1 (ix2 r k) = y1 (ix2 r' k))
    (h2 : x2 (ix2 r (0 : Fin 1)) = y2 (ix2 r' (0 : Fin 1)))
    (h3 : ∀ j, x3 j = y3 j) (h4 : ∀ j, x4 j = y4 j) (h5 : ∀ j, x5 j = y5 j) (h6 : ∀ j, x6 j = y6 j)
    (h7 : ∀ j, x7 j = y7 j) (h8 : ∀ j, x8 j = y8 j) (h9 : ∀ j, x9 j = y9 j) :
    G0 x0 x1 x2 x3 x4 x5 x6 x7 x8 x9 (ix2 r q) = G0 y0 y1 y2 y3 y4 y5 y6 y7 y8 y9 (ix2 r' q) := by
  obtain rfl : x3 = y3 := funext h3
  obtain rfl : x4 = y4 := funext h4
  obtain rfl : x5 = y5 := funext h5
  obtain rfl : x6 = y6 := funext h6
  obtain rfl : x7 = y7 := funext h7
  obtain rfl : x8 = y8 := funext h8
  obtain rfl : x9 = y9 := funext h9
  exact G0_rows x0 x1 x2 y0 y1 y2 x3 x4 x5 x6 x7 x8 x9 r r' q h0 h1 h2

theorem G1b_rowsAll {N N' Kin H P : ℕ}
    (x0 x1 : (⟨2, ![N, Kin]⟩ : Shape).Idx → EReal) (x2 : (⟨2, ![N, 1]⟩ : Shape).Idx → EReal)
    (y0 y1 : (⟨2, ![N', Kin]⟩ : Shape).Idx → EReal) (y2 : (⟨2, ![N', 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal) (x10 : (⟨2, ![H, P]⟩ : Shape).Idx → EReal)
    (y3 : (⟨2, ![Kin, H]⟩ : Shape).Idx → EReal) (y4 : (⟨2, ![1, H]⟩ : Shape).Idx → EReal)
    (y5 : (⟨2, ![Kin, H]⟩ : Shape).Idx → EReal) (y6 y7 y8 y9 : (⟨2, ![1, H]⟩ : Shape).Idx → EReal) (y10 : (⟨2, ![H, P]⟩ : Shape).Idx → EReal)
    (r : Fin N) (r' : Fin N') (q : Fin P)
    (h0 : ∀ k, x0 (ix2 r k) = y0 (ix2 r' k)) (h1 : ∀ k, x1 (ix2 r k) = y1 (ix2 r' k))
    (h2 : x2 (ix2 r (0 : Fin 1)) = y2 (ix2 r' (0 : Fin 1)))
    (h3 : ∀ j, x3 j = y3 j) (h4 : ∀ j, x4 j = y4 j) (h5 : ∀ j, x5 j = y5 j) (h6 : ∀ j, x6 j = y6 j)
    (h7 : ∀ j, x7 j = y7 j) (h8 : ∀ j, x8 j = y8 j) (h9 : ∀ j, x9 j = y9 j) (h10 : ∀ j, x10 j = y10 j) :
    G1b x0 x1 x2 x3 x4 x5 x6 x7 x8 x9 x10 (ix2 r q) = G1b y0 y1 y2 y3 y4 y5 y6 y7 y8 y9 y10 (ix2 r' q) := by
  obtain rfl : x3 = y3 := funext h3
  obtain rfl : x4 = y4 := funext h4
  obtain rfl : x5 = y5 := funext h5
  obtain rfl : x6 = y6 := funext h6
  obtain rfl : x7 = y7 := funext h7
  obtain rfl : x8 = y8 := funext h8
  obtain rfl : x9 = y9 := funext h9
  obtain rfl : x10 = y10 := funext h10
  exact G1b_rows x0 x1 x2 y0 y1 y2 x3 x4 x5 x6 x7 x8 x9 x10 r r' q h0 h1 h2

theorem G2_rowsAll {N N' K P B C : ℕ}
    (x0 : (⟨2, ![N, K]⟩ : Shape).Idx → EReal) (x1 : (⟨2, ![N, P]⟩ : Shape).Idx → EReal)
    (x2 : (⟨2, ![N, 1]⟩ : Shape).Idx → EReal)
    (y0 : (⟨2, ![N', K]⟩ : Shape).Idx → EReal) (y1 : (⟨2, ![N', P]⟩ : Shape).Idx → EReal)
    (y2 : (⟨2, ![N', 1]⟩ : Shape).Idx → EReal)
    (x3 : (⟨2, ![K, P]⟩ : Shape).Idx → EReal) (x4 : (⟨2, ![1, P]⟩ : Shape).Idx → EReal)
    (x5 : (⟨2, ![P, B]⟩ : Shape).Idx → EReal) (x6 : (⟨2, ![1, B]⟩ : Shape).Idx → EReal)
    (x7 : (⟨2, ![B, C]⟩ : Shape).Idx → EReal) (x8 : (⟨2, ![1, C]⟩ : Shape).Idx → EReal)
    (y3 : (⟨2, ![K, P]⟩ : Shape).Idx → EReal) (y4 : (⟨2, ![1, P]⟩ : Shape).Idx → EReal)
    (y5 : (⟨2, ![P, B]⟩ : Shape).Idx → EReal) (y6 : (⟨2, ![1, B]⟩ : Shape).Idx → EReal)
    (y7 : (⟨2, ![B, C]⟩ : Shape).Idx → EReal) (y8 : (⟨2, ![1, C]⟩ : Shape).Idx → EReal)
    (r : Fin N) (r' : Fin N') (q : Fin C)
    (h0 : ∀ k, x0 (ix2 r k) = y0 (ix2 r' k)) (h1 : ∀ a, x1 (ix2 r a) = y1 (ix2 r' a))
    (h2 : x2 (ix2 r (0 : Fin 1)) = y2 (ix2 r' (0 : Fin 1)))
    (h3 : ∀ j, x3 j = y3 j) (h4 : ∀ j, x4 j = y4 j) (h5 : ∀ j, x5 j = y5 j) (h6 : ∀ j, x6 j = y6 j)
    (h7 : ∀ j, x7 j = y7 j) (h8 : ∀ j, x8 j = y8 j) :
    G2 x0 x1 x2 x3 x4 x5 x6 x7 x8 (ix2 r q) = G2 y0 y1 y2 y3 y4 y5 y6 y7 y8 (ix2 r' q) := by
  obtain rfl : x3 = y3 := funext h3
  obtain rfl : x4 = y4 := funext h4
  obtain rfl : x5 = y5 := funext h5
  obtain rfl : x6 = y6 := funext h6
  obtain rfl : x7 = y7 := funext h7
  obtain rfl : x8 = y8 := funext h8
  exact G2_rows x0 x1 x2 y0 y1 y2 x3 x4 x5 x6 x7 x8 r r' q h0 h1 h2

end Cert.Sage

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Body0.lean ====
/-
  Stage 1 on one block of rows: what the fused layer leaves in its output block is G0 of its input blocks.

  The block is written by one whole-block store, and every input is read by one whole-block load, so the block
  after the body is the stored value itself. At the extended reals the stored value is, entry by entry,
      max ( (h(p,q) - m(q)) * (g(q) * rsqrt (v(q) + eps)) + b(q), 0 ),
      h(p,q) = (sum_k (a(p,k) * i(p)) * Wl(k,q) + bl(q)) + sum_k x(p,k) * Wr(k,q),
  the format changes being the identity there; this is G0 at (p, q).
-/
import proofs.«150929_j57071525429489_2_alg».proof.Proof.Spec
import proofs.«150929_j57071525429489_2_alg».proof.Proof.LibPlainDot
import proofs.«150929_j57071525429489_2_alg».proof.Proof.LibColumn
import proofs.«150929_j57071525429489_2_alg».proof.Proof.Gen.KernelIdeal.Frame
import Idealize.ShloMosaic.Lib.ValueLayout

noncomputable section

namespace Cert.Sage.Body

open Idealize.ShloMosaic Idealize.ShloMosaic.ValueIdx
open Cert.KernelIdeal Cert.KernelIdeal.Gen

namespace R0

/-- The zero offsets of a whole-block rectangle of a matrix. -/
theorem hz : (![0, 0] : Fin 2 → Nat) = fun _ => 0 := funext fun a => by fin_cases a <;> rfl

/-- A product into the zero accumulator, over dimension numbers that are the plain ones, at (p, q). -/
theorem mm {M K N : ℕ} (D : DotDims ⟨2, ![M, K]⟩ ⟨2, ![K, N]⟩ ⟨2, ![M, N]⟩) (hD : D = DotDims.plain M K N)
    {φ₁ φ₂ : FTy} (l : FVec Ideal ⟨2, ![M, K]⟩ φ₁) (r : FVec Ideal ⟨2, ![K, N]⟩ φ₂) (p : Fin M) (q : Fin N) :
    matmul (F := Ideal) D none l r (constant ⟨2, ![M, N]⟩ .f32 0x00000000#32) (ix2 p q)
      = ∑ k : Fin K, l (ix2 p k) * r (ix2 k q) := by
  subst hD
  exact Cert.LibPlainDot.matmul_plain M K N none l r (ix2 p q)

/-- The 2000x96 by 96x256 product of this stage. -/
theorem mm0 {φ₁ φ₂ : FTy} (l : FVec Ideal S2000x96 φ₁) (r : FVec Ideal S96x256 φ₂) (p : Fin 2000) (q : Fin 256) :
    matmul (F := Ideal) dot_S2000x96_S96x256_S2000x256_1_0_0_1_n_n none l r (constant S2000x256 .f32 0x00000000#32) (ix2 p q)
      = ∑ k : Fin 96, l (ix2 p k) * r (ix2 k q) :=
  mm dot_S2000x96_S96x256_S2000x256_1_0_0_1_n_n rfl l r p q

/-- The shift row is read as it is. -/
theorem pay2 (v23 : Vec Ideal S1x256 .f32) : k0_pay2 (F := Ideal) v23 = v23 := by
  unfold k0_pay2
  exact shapeCast_self _ _

/-- The scale g * rsqrt (v + eps), spread over the rows. -/
theorem pay4 (v21 v27 : Vec Ideal S1x256 .f32) (p : Fin 2000) (q : Fin 256) :
    k0_pay4 (F := Ideal) v21 v27 (ix2 p q)
      = v21 (ix2 (0 : Fin 1) q) * Ideal.rsqrt (v27 (ix2 (0 : Fin 1) q) + eps) := by
  unfold k0_pay4
  simp only [shapeCast_self]
  exact broadcastTo_1b_ab_apply _ _ p q

/-- The row before normalisation, less the running mean. -/
theorem pay3 (v0 v2 : Vec Ideal S2000x96 .bf16) (v5 : Vec Ideal S2000x1 .f32) (v10 v12 : Vec Ideal S96x256 .f32)
    (v15 v25 : Vec Ideal S1x256 .f32) (p : Fin 2000) (q : Fin 256) :
    k0_pay3 (F := Ideal) v0 v2 v5 v10 v12 v15 v25 (ix2 p q)
      = sagePre (fun k => v2 (ix2 p k)) (fun k => v0 (ix2 p k)) (v5 (ix2 p (0 : Fin 1)))
          (fun k => v10 (ix2 k q)) (fun k => v12 (ix2 k q)) (v15 (ix2 (0 : Fin 1) q))
        - v25 (ix2 (0 : Fin 1) q) := by
  unfold k0_pay3
  simp only [shapeCast_self]
  show (matmul (F := Ideal) dot_S2000x96_S96x256_S2000x256_1_0_0_1_n_n none
            (truncf .bf16 (mulf (extf .f32 v2 _) (broadcastTo S2000x96 v5 _)) _) (truncf .bf16 v10 _)
            (constant S2000x256 .f32 0x00000000#32) (ix2 p q)
          + broadcastTo S2000x256 v15 _ (ix2 p q)
          + matmul (F := Ideal) dot_S2000x96_S96x256_S2000x256_1_0_0_1_n_n none v0 (truncf .bf16 v12 _)
            (constant S2000x256 .f32 0x00000000#32) (ix2 p q))
        - broadcastTo S2000x256 v25 _ (ix2 p q) = _
  rw [mm0, mm0, broadcastTo_1b_ab_apply, broadcastTo_1b_ab_apply]
  refine congrArg (fun s : EReal => s + v15 (ix2 (0 : Fin 1) q) + (∑ k : Fin 96, v0 (ix2 p k) * v12 (ix2 k q))
      - v25 (ix2 (0 : Fin 1) q)) (Finset.sum_congr rfl fun k _ => ?_)
  exact congrArg (fun t : EReal => v2 (ix2 p k) * t * v10 (ix2 k q)) (Cert.LibColumn.broadcastTo_a1_ab_apply v5 _ p k)

/-- The affine map, the shift and the positive part. -/
theorem pay1 (v24 : FVec Ideal S1x256 .f32) (v30 v35 : FVec Ideal S2000x256 .f32) (p : Fin 2000) (q : Fin 256) :
    k0_pay1 (F := Ideal) v24 v30 v35 (ix2 p q)
      = max (v30 (ix2 p q) * v35 (ix2 p q) + v24 (ix2 (0 : Fin 1) q)) zero32 := by
  unfold k0_pay1
  exact congrArg (fun t : EReal => max (v30 (ix2 p q) * v35 (ix2 p q) + t) zero32) (broadcastTo_1b_ab_apply v24 _ p q)

end R0

/-- Stage 1's output block is G0 of its input blocks. -/
theorem out0_10_eq (x0 x1 : Vec Ideal S2000x96 .bf16) (x2 : Vec Ideal S2000x1 .f32) (x3 : Vec Ideal S96x256 .f32)
    (x4 : Vec Ideal S1x256 .f32) (x5 : Vec Ideal S96x256 .f32) (x6 x7 x8 x9 : Vec Ideal S1x256 .f32) :
    out0_10 (F := Ideal) x0 x1 x2 x3 x4 x5 x6 x7 x8 x9 = G0 x0 x1 x2 x3 x4 x5 x6 x7 x8 x9 := by
  unfold out0_10
  rw [View.canon_unit_zero R0.hz]
  simp only [View.ld_unit_zero (S := S2000x96) R0.hz, View.ld_unit_zero (S := S2000x1) R0.hz,
    View.ld_unit_zero (S := S96x256) R0.hz, View.ld_unit_zero (S := S1x256) R0.hz]
  funext j
  obtain ⟨p, q, rfl⟩ : ∃ (p : Fin 2000) (q : Fin 256), j = ix2 p q := ⟨j 0, j 1, eq_ix2 j⟩
  rw [R0.pay1, R0.pay3, R0.pay4, R0.pay2]
  rfl

end Cert.Sage.Body

end
-- ==== Proof.Region0.lean ====
/-
  Region 0 from blocks to whole arrays. The grid has 25 points; point t stages rows 2000·t … 2000·t+1999 of every
  node array (the weight and bias arrays are staged whole at every point) and writes back the same rows of the
  output. What a point writes back is therefore the block of ONE whole-array function of the arrays as the region
  finds them, and the blocks tile the output, so the output ends as that function.
-/
import proofs.«150929_j57071525429489_2_alg».proof.Proof.Gen.KernelIdeal.Frame
import proofs.«150929_j57071525429489_2_alg».proof.Proof.SpecRows
import proofs.«150929_j57071525429489_2_alg».proof.Proof.Body0
import Idealize.ShloMosaic.Lib.Pipeline.Value

set_option maxRecDepth 16384

noncomputable section

namespace Cert.Sage.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays as the region finds them -/

abbrev A0 (c : Dev nD) : S50000x96.Idx → EReal := V c main_v13
abbrev A1 (c : Dev nD) : S50000x96.Idx → EReal := V c main_v25
abbrev A2 (c : Dev nD) : S50000x1.Idx → EReal := V c main_v12
abbrev A3 (c : Dev nD) : S96x256.Idx → EReal := V c main_arg2
abbrev A4 (c : Dev nD) : S1x256.Idx → EReal := V c main_v26
abbrev A5 (c : Dev nD) : S96x256.Idx → EReal := V c main_arg4
abbrev A6 (c : Dev nD) : S1x256.Idx → EReal := V c main_v27
abbrev A7 (c : Dev nD) : S1x256.Idx → EReal := V c main_v28
abbrev A8 (c : Dev nD) : S1x256.Idx → EReal := V c main_v29
abbrev A9 (c : Dev nD) : S1x256.Idx → EReal := V c main_v30

/-! ## The index maps over the grid, decided once -/

theorem idx_0 : ∀ t : Fin cfg0.N, win0_0.index t (0 : Fin 2) = win0_10.index t (0 : Fin 2) ∧ win0_0.index t (1 : Fin 2) = 0 :=
  (by decide +kernel : ∀ t : Fin grid0.N, _)
theorem idx_1 : ∀ t : Fin cfg0.N, win0_1.index t (0 : Fin 2) = win0_10.index t (0 : Fin 2) ∧ win0_1.index t (1 : Fin 2) = 0 :=
  (by decide +kernel : ∀ t : Fin grid0.N, _)
theorem idx_2 : ∀ t : Fin cfg0.N, win0_2.index t (0 : Fin 2) = win0_10.index t (0 : Fin 2) ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = win0_10.index t (0 : Fin 2) ∧ win0_10.index t (1 : Fin 2) = 0 ∧ win0_10.index t (0 : Fin 2) ≤ 24 :=
  (by decide +kernel : ∀ t : Fin grid0.N, _)
theorem idx_onto_10 : ∀ q0 : Fin 25, ∃ t : Fin cfg0.N, win0_10.index t = ![q0.val, 0] :=
  (by decide +kernel : ∀ q0 : Fin 25, ∃ t : Fin grid0.N, win0_10.index t = ![q0.val, 0])

/-- The array row that row p of point t's blocks is. -/
def row (t : Fin cfg0.N) (p : Fin 2000) : Fin 50000 :=
  ⟨win0_10.index t (0 : Fin 2) * 2000 + p.val, by have h := (idx_10 t).2.2; have hp := p.isLt; omega⟩

/-! ## Each window's block at a point, read off its array -/

theorem blk_0 (c : Dev nD) (t : Fin cfg0.N) (p : Fin 2000) (k : Fin 96) :
    iblk0 V c 0 t (ix2 p k) = A0 V c (ix2 (row t p) k) := by
  show V c main_v13 (((cfg0.win 0).blk t).view.emb (ix2 p k)) = _
  refine congrArg (V c main_v13) ?_
  funext a; apply Fin.ext
  have e := idx_0 t
  match a with
  | ⟨0, _⟩ => show win0_0.index t (0 : Fin 2) * 2000 + 1 * p.val = win0_10.index t (0 : Fin 2) * 2000 + p.val; omega
  | ⟨1, _⟩ => show win0_0.index t (1 : Fin 2) * 96 + 1 * k.val = k.val; omega
theorem blk_1 (c : Dev nD) (t : Fin cfg0.N) (p : Fin 2000) (k : Fin 96) :
    iblk0 V c 1 t (ix2 p k) = A1 V c (ix2 (row t p) k) := by
  show V c main_v25 (((cfg0.win 1).blk t).view.emb (ix2 p k)) = _
  refine congrArg (V c main_v25) ?_
  funext a; apply Fin.ext
  have e := idx_1 t
  match a with
  | ⟨0, _⟩ => show win0_1.index t (0 : Fin 2) * 2000 + 1 * p.val = win0_10.index t (0 : Fin 2) * 2000 + p.val; omega
  | ⟨1, _⟩ => show win0_1.index t (1 : Fin 2) * 96 + 1 * k.val = k.val; omega
theorem blk_2 (c : Dev nD) (t : Fin cfg0.N) (p : Fin 2000) (k : Fin 1) :
    iblk0 V c 2 t (ix2 p k) = A2 V c (ix2 (row t p) k) := by
  show V c main_v12 (((cfg0.win 2).blk t).view.emb (ix2 p k)) = _
  refine congrArg (V c main_v12) ?_
  funext a; apply Fin.ext
  have e := idx_2 t
  match a with
  | ⟨0, _⟩ => show win0_2.index t (0 : Fin 2) * 2000 + 1 * p.val = win0_10.index t (0 : Fin 2) * 2000 + p.val; omega
  | ⟨1, _⟩ => show win0_2.index t (1 : Fin 2) * 1 + 1 * k.val = k.val; omega
theorem blk_3 (c : Dev nD) (t : Fin cfg0.N) (j : S96x256.Idx) :
    iblk0 V c 3 t j = A3 V c j := by
  show V c main_arg2 (((cfg0.win 3).blk t).view.emb j) = _
  refine congrArg (V c main_arg2) ?_
  funext a; apply Fin.ext
  have e := idx_3 t
  match a with
  | ⟨0, _⟩ => show win0_3.index t (0 : Fin 2) * 96 + 1 * (j 0).val = (j 0).val; omega
  | ⟨1, _⟩ => show win0_3.index t (1 : Fin 2) * 256 + 1 * (j 1).val = (j 1).val; omega
theorem blk_4 (c : Dev nD) (t : Fin cfg0.N) (j : S1x256.Idx) :
    iblk0 V c 4 t j = A4 V c j := by
  show V c main_v26 (((cfg0.win 4).blk t).view.emb j) = _
  refine congrArg (V c main_v26) ?_
  funext a; apply Fin.ext
  have e := idx_4 t
  match a with
  | ⟨0, _⟩ => show win0_4.index t (0 : Fin 2) * 1 + 1 * (j 0).val = (j 0).val; omega
  | ⟨1, _⟩ => show win0_4.index t (1 : Fin 2) * 256 + 1 * (j 1).val = (j 1).val; omega
theorem blk_5 (c : Dev nD) (t : Fin cfg0.N) (j : S96x256.Idx) :
    iblk0 V c 5 t j = A5 V c j := by
  show V c main_arg4 (((cfg0.win 5).blk t).view.emb j) = _
  refine congrArg (V c main_arg4) ?_
  funext a; apply Fin.ext
  have e := idx_5 t
  match a with
  | ⟨0, _⟩ => show win0_5.index t (0 : Fin 2) * 96 + 1 * (j 0).val = (j 0).val; omega
  | ⟨1, _⟩ => show win0_5.index t (1 : Fin 2) * 256 + 1 * (j 1).val = (j 1).val; omega
theorem blk_6 (c : Dev nD) (t : Fin cfg0.N) (j : S1x256.Idx) :
    iblk0 V c 6 t j = A6 V c j := by
  show V c main_v27 (((cfg0.win 6).blk t).view.emb j) = _
  refine congrArg (V c main_v27) ?_
  funext a; apply Fin.ext
  have e := idx_6 t
  match a with
  | ⟨0, _⟩ => show win0_6.index t (0 : Fin 2) * 1 + 1 * (j 0).val = (j 0).val; omega
  | ⟨1, _⟩ => show win0_6.index t (1 : Fin 2) * 256 + 1 * (j 1).val = (j 1).val; omega
theorem blk_7 (c : Dev nD) (t : Fin cfg0.N) (j : S1x256.Idx) :
    iblk0 V c 7 t j = A7 V c j := by
  show V c main_v28 (((cfg0.win 7).blk t).view.emb j) = _
  refine congrArg (V c main_v28) ?_
  funext a; apply Fin.ext
  have e := idx_7 t
  match a with
  | ⟨0, _⟩ => show win0_7.index t (0 : Fin 2) * 1 + 1 * (j 0).val = (j 0).val; omega
  | ⟨1, _⟩ => show win0_7.index t (1 : Fin 2) * 256 + 1 * (j 1).val = (j 1).val; omega
theorem blk_8 (c : Dev nD) (t : Fin cfg0.N) (j : S1x256.Idx) :
    iblk0 V c 8 t j = A8 V c j := by
  show V c main_v29 (((cfg0.win 8).blk t).view.emb j) = _
  refine congrArg (V c main_v29) ?_
  funext a; apply Fin.ext
  have e := idx_8 t
  match a with
  | ⟨0, _⟩ => show win0_8.index t (0 : Fin 2) * 1 + 1 * (j 0).val = (j 0).val; omega
  | ⟨1, _⟩ => show win0_8.index t (1 : Fin 2) * 256 + 1 * (j 1).val = (j 1).val; omega
theorem blk_9 (c : Dev nD) (t : Fin cfg0.N) (j : S1x256.Idx) :
    iblk0 V c 9 t j = A9 V c j := by
  show V c main_v30 (((cfg0.win 9).blk t).view.emb j) = _
  refine congrArg (V c main_v30) ?_
  funext a; apply Fin.ext
  have e := idx_9 t
  match a with
  | ⟨0, _⟩ => show win0_9.index t (0 : Fin 2) * 1 + 1 * (j 0).val = (j 0).val; omega
  | ⟨1, _⟩ => show win0_9.index t (1 : Fin 2) * 256 + 1 * (j 1).val = (j 1).val; omega

/-! ## Output window 10 -/

/-- Row p, column q of point t's block is the array index (row t p, q). -/
theorem emb_10 (t : Fin cfg0.N) (p : Fin 2000) (q : Fin 256) :
    ((cfg0.win 10).blk t).view.emb (ix2 p q) = ix2 (row t p) q := by
  funext a; apply Fin.ext
  have e := idx_10 t
  match a with
  | ⟨0, _⟩ => show win0_10.index t (0 : Fin 2) * 2000 + 1 * p.val = win0_10.index t (0 : Fin 2) * 2000 + p.val; omega
  | ⟨1, _⟩ => show win0_10.index t (1 : Fin 2) * 256 + 1 * q.val = q.val; omega

/-- What point t writes back is block t of the stage's whole-array function of the arrays as the region finds them. -/
theorem flushed_10 (c : Dev nD) (t : Fin cfg0.N) :
    (dat0 (F := Ideal) V c).flushed 10 t
      = ((cfg0.win 10).blk t).view.read (Elt Ideal) (G0 (A0 V c) (A1 V c) (A2 V c) (A3 V c) (A4 V c) (A5 V c) (A6 V c) (A7 V c) (A8 V c) (A9 V c)) := by
  show (cfg0.win 10).cut (grid0.coords t) ((dat0 (F := Ideal) V c).after 10 t) = _
  rw [after0_10, Cert.Sage.Body.out0_10_eq]
  funext j
  obtain ⟨p, q, rfl⟩ : ∃ (p : Fin 2000) (q : Fin 256), j = ix2 p q := ⟨j 0, j 1, eq_ix2 j⟩
  show G0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p q)
     = G0 (A0 V c) (A1 V c) (A2 V c) (A3 V c) (A4 V c) (A5 V c) (A6 V c) (A7 V c) (A8 V c) (A9 V c) (((cfg0.win 10).blk t).view.emb (ix2 p q))
  rw [emb_10 t p q]
  exact G0_rowsAll _ _ _ _ _ _ _ _ _ _ _ _ _ _ _ _ _ _ _ _ p (row t p) q (fun k => blk_0 V c t p k) (fun k => blk_1 V c t p k) (blk_2 V c t p (0 : Fin 1)) (blk_3 V c t) (blk_4 V c t) (blk_5 V c t) (blk_6 V c t) (blk_7 V c t) (blk_8 V c t) (blk_9 V c t)

/-- An index of the output array is in point t's block iff each coordinate is in the block's range. -/
theorem mem_blk_10 (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v31).slice (win0_10.rect t)).set ↔ _
  rw [View.set_slice_whole, Rect.mem_set_unit]
  exact Iff.rfl

/-- The 25 blocks tile the output array: row n is in the block of point n / 2000. -/
theorem cover_10 (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  obtain ⟨t, ht⟩ := idx_onto_10 ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk_10]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 256 ≤ (i 1).val ∧ (i 1).val < win0_10.index t (1 : Fin 2) * 256 + 256; omega

/-- The output array after the region: the stage's function of the arrays as the region finds them. -/
theorem final_10 (c : Dev nD) :
    (dat0 (F := Ideal) V c).arrAt 10 cfg0.N = G0 (A0 V c) (A1 V c) (A2 V c) (A3 V c) (A4 V c) (A5 V c) (A6 V c) (A7 V c) (A8 V c) (A9 V c) :=
  (dat0 (F := Ideal) V c).arrAt_eq_of_cover 10 _ (fun t _ => flushed_10 V c t) cover_10

end Cert.Sage.Region0

end
-- ==== Proof.Body1.lean ====
/-
  Stage 2 on one block of rows: its first output block is G0 of its input blocks (the same formula as stage 1, at
  width 256), and its second output block is that first output times the next layer's left weight, G1b.

  Both blocks are written by one whole-block store each and every input is read by one whole-block load, so each
  block after the body is the stored value. At the extended reals the format changes are the identity; the second
  stored value is, at (p, c), the sum over k of (first output)(p, k) * W(k, c).
-/
import proofs.«150929_j57071525429489_2_alg».proof.Proof.Spec
import proofs.«150929_j57071525429489_2_alg».proof.Proof.LibPlainDot
import proofs.«150929_j57071525429489_2_alg».proof.Proof.LibColumn
import proofs.«150929_j57071525429489_2_alg».proof.Proof.Gen.KernelIdeal.Frame
import Idealize.ShloMosaic.Lib.ValueLayout

noncomputable section

namespace Cert.Sage.Body

open Idealize.ShloMosaic Idealize.ShloMosaic.ValueIdx
open Cert.KernelIdeal Cert.KernelIdeal.Gen

namespace R1

/-- The zero offsets of a whole-block rectangle of a matrix. -/
theorem hz : (![0, 0] : Fin 2 → Nat) = fun _ => 0 := funext fun a => by fin_cases a <;> rfl

/-- A product into the zero accumulator, over dimension numbers that are the plain ones, at (p, q). -/
theorem mm {M K N : ℕ} (D : DotDims ⟨2, ![M, K]⟩ ⟨2, ![K, N]⟩ ⟨2, ![M, N]⟩) (hD : D = DotDims.plain M K N)
    {φ₁ φ₂ : FTy} (l : FVec Ideal ⟨2, ![M, K]⟩ φ₁) (r : FVec Ideal ⟨2, ![K, N]⟩ φ₂) (p : Fin M) (q : Fin N) :
    matmul (F := Ideal) D none l r (constant ⟨2, ![M, N]⟩ .f32 0x00000000#32) (ix2 p q)
      = ∑ k : Fin K, l (ix2 p k) * r (ix2 k q) := by
  subst hD
  exact Cert.LibPlainDot.matmul_plain M K N none l r (ix2 p q)

/-- The 2000x256 by 256x256 product of this stage. -/
theorem mmA {φ₁ φ₂ : FTy} (l : FVec Ideal S2000x256 φ₁) (r : FVec Ideal S256x256 φ₂) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) :=
  mm dot_S2000x256_S256x256_S2000x256_1_0_0_1_n_n rfl l r p q

/-- The 2000x256 by 256x128 product of this stage. -/
theorem mmB {φ₁ φ₂ : FTy} (l : FVec Ideal S2000x256 φ₁) (r : FVec Ideal S256x128 φ₂) (p : Fin 2000) (q : Fin 128) :
    matmul (F := Ideal) dot_S2000x256_S256x128_S2000x128_1_0_0_1_n_n none l r (constant S2000x128 .f32 0x00000000#32) (ix2 p q)
      = ∑ k : Fin 256, l (ix2 p k) * r (ix2 k q) :=
  mm dot_S2000x256_S256x128_S2000x128_1_0_0_1_n_n rfl l r p q

/-- The shift row is read as it is. -/
theorem pay4 (v23 : Vec Ideal S1x256 .f32) : k1_pay4 (F := Ideal) v23 = v23 := by
  unfold k1_pay4
  exact shapeCast_self _ _

/-- The scale g * rsqrt (v + eps), spread over the rows. -/
theorem pay6 (v21 v27 : Vec Ideal S1x256 .f32) (p : Fin 2000) (q : Fin 256) :
    k1_pay6 (F := Ideal) v21 v27 (ix2 p q)
      = v21 (ix2 (0 : Fin 1) q) * Ideal.rsqrt (v27 (ix2 (0 : Fin 1) q) + eps) := by
  unfold k1_pay6
  simp only [shapeCast_self]
  exact broadcastTo_1b_ab_apply _ _ p q

/-- The row before normalisation, less the running mean. -/
theorem pay5 (v0 v2 : Vec Ideal S2000x256 .bf16) (v5 : Vec Ideal S2000x1 .f32) (v10 v12 : Vec Ideal S256x256 .f32)
    (v15 v25 : Vec Ideal S1x256 .f32) (p : Fin 2000) (q : Fin 256) :
    k1_pay5 (F := Ideal) v0 v2 v5 v10 v12 v15 v25 (ix2 p q)
      = sagePre (fun k => v2 (ix2 p k)) (fun k => v0 (ix2 p k)) (v5 (ix2 p (0 : Fin 1)))
          (fun k => v10 (ix2 k q)) (fun k => v12 (ix2 k q)) (v15 (ix2 (0 : Fin 1) q))
        - v25 (ix2 (0 : Fin 1) q) := by
  unfold k1_pay5
  simp only [shapeCast_self]
  show (matmul (F := Ideal) dot_S2000x256_S256x256_S2000x256_1_0_0_1_n_n none
            (truncf .bf16 (mulf (extf .f32 v2 _) (broadcastTo S2000x256 v5 _)) _) (truncf .bf16 v10 _)
            (constant S2000x256 .f32 0x00000000#32) (ix2 p q)
          + broadcastTo S2000x256 v15 _ (ix2 p q)
          + matmul (F := Ideal) dot_S2000x256_S256x256_S2000x256_1_0_0_1_n_n none v0 (truncf .bf16 v12 _)
            (constant S2000x256 .f32 0x00000000#32) (ix2 p q))
        - broadcastTo S2000x256 v25 _ (ix2 p q) = _
  rw [mmA, mmA, broadcastTo_1b_ab_apply, broadcastTo_1b_ab_apply]
  refine congrArg (fun s : EReal => s + v15 (ix2 (0 : Fin 1) q) + (∑ k : Fin 256, v0 (ix2 p k) * v12 (ix2 k q))
      - v25 (ix2 (0 : Fin 1) q)) (Finset.sum_congr rfl fun k _ => ?_)
  exact congrArg (fun t : EReal => v2 (ix2 p k) * t * v10 (ix2 k q)) (Cert.LibColumn.broadcastTo_a1_ab_apply v5 _ p k)

/-- The affine map, the shift and the positive part. -/
theorem pay1 (v24 : FVec Ideal S1x256 .f32) (v30 v35 : FVec Ideal S2000x256 .f32) (p : Fin 2000) (q : Fin 256) :
    k1_pay1 (F := Ideal) v24 v30 v35 (ix2 p q)
      = max (v30 (ix2 p q) * v35 (ix2 p q) + v24 (ix2 (0 : Fin 1) q)) zero32 := by
  unfold k1_pay1
  exact congrArg (fun t : EReal => max (v30 (ix2 p q) * v35 (ix2 p q) + t) zero32) (broadcastTo_1b_ab_apply v24 _ p q)

/-- The normalised layer of this stage, entry by entry, is G0 of the blocks. -/
theorem g0 (x0 x1 : Vec Ideal S2000x256 .bf16) (x2 : Vec Ideal S2000x1 .f32) (x3 : Vec Ideal S256x256 .f32)
    (x4 : Vec Ideal S1x256 .f32) (x5 : Vec Ideal S256x256 .f32) (x6 x7 x8 x9 : Vec Ideal S1x256 .f32)
    (p : Fin 2000) (q : Fin 256) :
    k1_pay1 (F := Ideal) (k1_pay4 x7) (k1_pay5 x0 x1 x2 x3 x5 x4 x8) (k1_pay6 x6 x9) (ix2 p q)
      = G0 x0 x1 x2 x3 x4 x5 x6 x7 x8 x9 (ix2 p q) := by
  rw [pay1, pay5, pay6, pay4]
  rfl

end R1

/-- Stage 2's first output block is G0 of its input blocks. -/
theorem out1_11_eq (x0 x1 : Vec Ideal S2000x256 .bf16) (x2 : Vec Ideal S2000x1 .f32) (x3 : Vec Ideal S256x256 .f32)
    (x4 : Vec Ideal S1x256 .f32) (x5 : Vec Ideal S256x256 .f32) (x6 x7 x8 x9 : Vec Ideal S1x256 .f32)
    (x10 : Vec Ideal S256x128 .f32) :
    out1_11 (F := Ideal) x0 x1 x2 x3 x4 x5 x6 x7 x8 x9 x10 = G0 x0 x1 x2 x3 x4 x5 x6 x7 x8 x9 := by
  unfold out1_11
  rw [View.canon_unit_zero R1.hz]
  simp only [View.ld_unit_zero (S := S2000x256) R1.hz, View.ld_unit_zero (S := S2000x1) R1.hz,
    View.ld_unit_zero (S := S256x256) R1.hz, View.ld_unit_zero (S := S1x256) R1.hz]
  funext j
  obtain ⟨p, q, rfl⟩ : ∃ (p : Fin 2000) (q : Fin 256), j = ix2 p q := ⟨j 0, j 1, eq_ix2 j⟩
  exact R1.g0 x0 x1 x2 x3 x4 x5 x6 x7 x8 x9 p q

/-- Stage 2's second output block is G1b of its input blocks. -/
theorem out1_12_eq (x0 x1 : Vec Ideal S2000x256 .bf16) (x2 : Vec Ideal S2000x1 .f32) (x3 : Vec Ideal S256x256 .f32)
    (x4 : Vec Ideal S1x256 .f32) (x5 : Vec Ideal S256x256 .f32) (x6 x7 x8 x9 : Vec Ideal S1x256 .f32)
    (x10 : Vec Ideal S256x128 .f32) :
    out1_12 (F := Ideal) x0 x1 x2 x3 x4 x5 x6 x7 x8 x9 x10 = G1b x0 x1 x2 x3 x4 x5 x6 x7 x8 x9 x10 := by
  unfold out1_12
  rw [View.canon_unit_zero R1.hz]
  simp only [View.ld_unit_zero (S := S2000x256) R1.hz, View.ld_unit_zero (S := S2000x1) R1.hz,
    View.ld_unit_zero (S := S256x256) R1.hz, View.ld_unit_zero (S := S1x256) R1.hz,
    View.ld_unit_zero (S := S256x128) R1.hz]
  funext j
  obtain ⟨p, q, rfl⟩ : ∃ (p : Fin 2000) (q : Fin 128), j = ix2 p q := ⟨j 0, j 1, eq_ix2 j⟩
  unfold k1_pay3
  refine (R1.mmB _ _ p q).trans ?_
  exact Finset.sum_congr rfl fun k _ =>
    congrArg (fun t : EReal => t * x10 (ix2 k q)) (R1.g0 x0 x1 x2 x3 x4 x5 x6 x7 x8 x9 p k)

end Cert.Sage.Body

end
-- ==== Proof.Region1.lean ====
/-
  Region 1 from blocks to whole arrays. The grid has 25 points; point t stages rows 2000·t … 2000·t+1999 of every
  node array (the weight and bias arrays are staged whole at every point) and writes back the same rows of the
  outputs. What a point writes back is therefore the block of ONE whole-array function of the arrays as the region
  finds them, and the blocks tile the output, so the output ends as that function.
-/
import proofs.«150929_j57071525429489_2_alg».proof.Proof.Gen.KernelIdeal.Frame
import proofs.«150929_j57071525429489_2_alg».proof.Proof.SpecRows
import proofs.«150929_j57071525429489_2_alg».proof.Proof.Body1
import Idealize.ShloMosaic.Lib.Pipeline.Value

set_option maxRecDepth 16384

noncomputable section

namespace Cert.Sage.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays as the region finds them -/

abbrev A0 (c : Dev nD) : S50000x256.Idx → EReal := V c main_v31
abbrev A1 (c : Dev nD) : S50000x256.Idx → EReal := V c main_v43
abbrev A2 (c : Dev nD) : S50000x1.Idx → EReal := V c main_v12
abbrev A3 (c : Dev nD) : S256x256.Idx → EReal := V c main_arg9
abbrev A4 (c : Dev nD) : S1x256.Idx → EReal := V c main_v44
abbrev A5 (c : Dev nD) : S256x256.Idx → EReal := V c main_arg11
abbrev A6 (c : Dev nD) : S1x256.Idx → EReal := V c main_v45
abbrev A7 (c : Dev nD) : S1x256.Idx → EReal := V c main_v46
abbrev A8 (c : Dev nD) : S1x256.Idx → EReal := V c main_v47
abbrev A9 (c : Dev nD) : S1x256.Idx → EReal := V c main_v48
abbrev A10 (c : Dev nD) : S256x128.Idx → EReal := V c main_arg16

/-! ## The index maps over the grid, decided once -/

theorem idx_0 : ∀ t : Fin cfg1.N, win1_0.index t (0 : Fin 2) = win1_11.index t (0 : Fin 2) ∧ win1_0.index t (1 : Fin 2) = 0 :=
  (by decide +kernel : ∀ t : Fin grid1.N, _)
theorem idx_1 : ∀ t : Fin cfg1.N, win1_1.index t (0 : Fin 2) = win1_11.index t (0 : Fin 2) ∧ win1_1.index t (1 : Fin 2) = 0 :=
  (by decide +kernel : ∀ t : Fin grid1.N, _)
theorem idx_2 : ∀ t : Fin cfg1.N, win1_2.index t (0 : Fin 2) = win1_11.index t (0 : Fin 2) ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = 0 ∧ win1_10.index t (1 : Fin 2) = 0 :=
  (by decide +kernel : ∀ t : Fin grid1.N, _)
theorem idx_11 : ∀ t : Fin cfg1.N, win1_11.index t (0 : Fin 2) = win1_11.index t (0 : Fin 2) ∧ win1_11.index t (1 : Fin 2) = 0 ∧ win1_11.index t (0 : Fin 2) ≤ 24 :=
  (by decide +kernel : ∀ t : Fin grid1.N, _)
theorem idx_12 : ∀ t : Fin cfg1.N, win1_12.index t (0 : Fin 2) = win1_11.index t (0 : Fin 2) ∧ win1_12.index t (1 : Fin 2) = 0 ∧ win1_12.index t (0 : Fin 2) ≤ 24 :=
  (by decide +kernel : ∀ t : Fin grid1.N, _)
theorem idx_onto_11 : ∀ q0 : Fin 25, ∃ t : Fin cfg1.N, win1_11.index t = ![q0.val, 0] :=
  (by decide +kernel : ∀ q0 : Fin 25, ∃ t : Fin grid1.N, win1_11.index t = ![q0.val, 0])
theorem idx_onto_12 : ∀ q0 : Fin 25, ∃ t : Fin cfg1.N, win1_12.index t = ![q0.val, 0] :=
  (by decide +kernel : ∀ q0 : Fin 25, ∃ t : Fin grid1.N, win1_12.index t = ![q0.val, 0])

/-- The array row that row p of point t's blocks is. -/
def row (t : Fin cfg1.N) (p : Fin 2000) : Fin 50000 :=
  ⟨win1_11.index t (0 : Fin 2) * 2000 + p.val, by have h := (idx_11 t).2.2; have hp := p.isLt; omega⟩

/-! ## Each window's block at a point, read off its array -/

theorem blk_0 (c : Dev nD) (t : Fin cfg1.N) (p : Fin 2000) (k : Fin 256) :
    iblk1 V c 0 t (ix2 p k) = A0 V c (ix2 (row t p) k) := by
  show V c main_v31 (((cfg1.win 0).blk t).view.emb (ix2 p k)) = _
  refine congrArg (V c main_v31) ?_
  funext a; apply Fin.ext
  have e := idx_0 t
  match a with
  | ⟨0, _⟩ => show win1_0.index t (0 : Fin 2) * 2000 + 1 * p.val = win1_11.index t (0 : Fin 2) * 2000 + p.val; omega
  | ⟨1, _⟩ => show win1_0.index t (1 : Fin 2) * 256 + 1 * k.val = k.val; omega
theorem blk_1 (c : Dev nD) (t : Fin cfg1.N) (p : Fin 2000) (k : Fin 256) :
    iblk1 V c 1 t (ix2 p k) = A1 V c (ix2 (row t p) k) := by
  show V c main_v43 (((cfg1.win 1).blk t).view.emb (ix2 p k)) = _
  refine congrArg (V c main_v43) ?_
  funext a; apply Fin.ext
  have e := idx_1 t
  match a with
  | ⟨0, _⟩ => show win1_1.index t (0 : Fin 2) * 2000 + 1 * p.val = win1_11.index t (0 : Fin 2) * 2000 + p.val; omega
  | ⟨1, _⟩ => show win1_1.index t (1 : Fin 2) * 256 + 1 * k.val = k.val; omega
theorem blk_2 (c : Dev nD) (t : Fin cfg1.N) (p : Fin 2000) (k : Fin 1) :
    iblk1 V c 2 t (ix2 p k) = A2 V c (ix2 (row t p) k) := by
  show V c main_v12 (((cfg1.win 2).blk t).view.emb (ix2 p k)) = _
  refine congrArg (V c main_v12) ?_
  funext a; apply Fin.ext
  have e := idx_2 t
  match a with
  | ⟨0, _⟩ => show win1_2.index t (0 : Fin 2) * 2000 + 1 * p.val = win1_11.index t (0 : Fin 2) * 2000 + p.val; omega
  | ⟨1, _⟩ => show win1_2.index t (1 : Fin 2) * 1 + 1 * k.val = k.val; omega
theorem blk_3 (c : Dev nD) (t : Fin cfg1.N) (j : S256x256.Idx) :
    iblk1 V c 3 t j = A3 V c j := by
  show V c main_arg9 (((cfg1.win 3).blk t).view.emb j) = _
  refine congrArg (V c main_arg9) ?_
  funext a; apply Fin.ext
  have e := idx_3 t
  match a with
  | ⟨0, _⟩ => show win1_3.index t (0 : Fin 2) * 256 + 1 * (j 0).val = (j 0).val; omega
  | ⟨1, _⟩ => show win1_3.index t (1 : Fin 2) * 256 + 1 * (j 1).val = (j 1).val; omega
theorem blk_4 (c : Dev nD) (t : Fin cfg1.N) (j : S1x256.Idx) :
    iblk1 V c 4 t j = A4 V c j := by
  show V c main_v44 (((cfg1.win 4).blk t).view.emb j) = _
  refine congrArg (V c main_v44) ?_
  funext a; apply Fin.ext
  have e := idx_4 t
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem blk_5 (c : Dev nD) (t : Fin cfg1.N) (j : S256x256.Idx) :
    iblk1 V c 5 t j = A5 V c j := by
  show V c main_arg11 (((cfg1.win 5).blk t).view.emb j) = _
  refine congrArg (V c main_arg11) ?_
  funext a; apply Fin.ext
  have e := idx_5 t
  match a with
  | ⟨0, _⟩ => show win1_5.index t (0 : Fin 2) * 256 + 1 * (j 0).val = (j 0).val; omega
  | ⟨1, _⟩ => show win1_5.index t (1 : Fin 2) * 256 + 1 * (j 1).val = (j 1).val; omega
theorem blk_6 (c : Dev nD) (t : Fin cfg1.N) (j : S1x256.Idx) :
    iblk1 V c 6 t j = A6 V c j := by
  show V c main_v45 (((cfg1.win 6).blk t).view.emb j) = _
  refine congrArg (V c main_v45) ?_
  funext a; apply Fin.ext
  have e := idx_6 t
  match a with
  | ⟨0, _⟩ => show win1_6.index t (0 : Fin 2) * 1 + 1 * (j 0).val = (j 0).val; omega
  | ⟨1, _⟩ => show win1_6.index t (1 : Fin 2) * 256 + 1 * (j 1).val = (j 1).val; omega
theorem blk_7 (c : Dev nD) (t : Fin cfg1.N) (j : S1x256.Idx) :
    iblk1 V c 7 t j = A7 V c j := by
  show V c main_v46 (((cfg1.win 7).blk t).view.emb j) = _
  refine congrArg (V c main_v46) ?_
  funext a; apply Fin.ext
  have e := idx_7 t
  match a with
  | ⟨0, _⟩ => show win1_7.index t (0 : Fin 2) * 1 + 1 * (j 0).val = (j 0).val; omega
  | ⟨1, _⟩ => show win1_7.index t (1 : Fin 2) * 256 + 1 * (j 1).val = (j 1).val; omega
theorem blk_8 (c : Dev nD) (t : Fin cfg1.N) (j : S1x256.Idx) :
    iblk1 V c 8 t j = A8 V c j := by
  show V c main_v47 (((cfg1.win 8).blk t).view.emb j) = _
  refine congrArg (V c main_v47) ?_
  funext a; apply Fin.ext
  have e := idx_8 t
  match a with
  | ⟨0, _⟩ => show win1_8.index t (0 : Fin 2) * 1 + 1 * (j 0).val = (j 0).val; omega
  | ⟨1, _⟩ => show win1_8.index t (1 : Fin 2) * 256 + 1 * (j 1).val = (j 1).val; omega
theorem blk_9 (c : Dev nD) (t : Fin cfg1.N) (j : S1x256.Idx) :
    iblk1 V c 9 t j = A9 V c j := by
  show V c main_v48 (((cfg1.win 9).blk t).view.emb j) = _
  refine congrArg (V c main_v48) ?_
  funext a; apply Fin.ext
  have e := idx_9 t
  match a with
  | ⟨0, _⟩ => show win1_9.index t (0 : Fin 2) * 1 + 1 * (j 0).val = (j 0).val; omega
  | ⟨1, _⟩ => show win1_9.index t (1 : Fin 2) * 256 + 1 * (j 1).val = (j 1).val; omega
theorem blk_10 (c : Dev nD) (t : Fin cfg1.N) (j : S256x128.Idx) :
    iblk1 V c 10 t j = A10 V c j := by
  show V c main_arg16 (((cfg1.win 10).blk t).view.emb j) = _
  refine congrArg (V c main_arg16) ?_
  funext a; apply Fin.ext
  have e := idx_10 t
  match a with
  | ⟨0, _⟩ => show win1_10.index t (0 : Fin 2) * 256 + 1 * (j 0).val = (j 0).val; omega
  | ⟨1, _⟩ => show win1_10.index t (1 : Fin 2) * 128 + 1 * (j 1).val = (j 1).val; omega

/-! ## Output window 11 -/

/-- Row p, column q of point t's block is the array index (row t p, q). -/
theorem emb_11 (t : Fin cfg1.N) (p : Fin 2000) (q : Fin 256) :
    ((cfg1.win 11).blk t).view.emb (ix2 p q) = ix2 (row t p) q := by
  funext a; apply Fin.ext
  have e := idx_11 t
  match a with
  | ⟨0, _⟩ => show win1_11.index t (0 : Fin 2) * 2000 + 1 * p.val = win1_11.index t (0 : Fin 2) * 2000 + p.val; omega
  | ⟨1, _⟩ => show win1_11.index t (1 : Fin 2) * 256 + 1 * q.val = q.val; omega

/-- What point t writes back is block t of the stage's whole-array function of the arrays as the region finds them. -/
theorem flushed_11 (c : Dev nD) (t : Fin cfg1.N) :
    (dat1 (F := Ideal) V c).flushed 11 t
      = ((cfg1.win 11).blk t).view.read (Elt Ideal) (G0 (A0 V c) (A1 V c) (A2 V c) (A3 V c) (A4 V c) (A5 V c) (A6 V c) (A7 V c) (A8 V c) (A9 V c)) := by
  show (cfg1.win 11).cut (grid1.coords t) ((dat1 (F := Ideal) V c).after 11 t) = _
  rw [after1_11, Cert.Sage.Body.out1_11_eq]
  funext j
  obtain ⟨p, q, rfl⟩ : ∃ (p : Fin 2000) (q : Fin 256), j = ix2 p q := ⟨j 0, j 1, eq_ix2 j⟩
  show G0 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
     = G0 (A0 V c) (A1 V c) (A2 V c) (A3 V c) (A4 V c) (A5 V c) (A6 V c) (A7 V c) (A8 V c) (A9 V c) (((cfg1.win 11).blk t).view.emb (ix2 p q))
  rw [emb_11 t p q]
  exact G0_rowsAll _ _ _ _ _ _ _ _ _ _ _ _ _ _ _ _ _ _ _ _ p (row t p) q (fun k => blk_0 V c t p k) (fun k => blk_1 V c t p k) (blk_2 V c t p (0 : Fin 1)) (blk_3 V c t) (blk_4 V c t) (blk_5 V c t) (blk_6 V c t) (blk_7 V c t) (blk_8 V c t) (blk_9 V c t)

/-- An index of the output array is in point t's block iff each coordinate is in the block's range. -/
theorem mem_blk_11 (t : Fin cfg1.N) (i : S50000x256.Idx) :
    i ∈ ((cfg1.win 11).blk t).view.set ↔ ∀ a : Fin 2, win1_11.index t a * S2000x256.size a ≤ (i a).val ∧ (i a).val < win1_11.index t a * S2000x256.size a + S2000x256.size a := by
  show i ∈ ((View.whole main_v49_0).slice (win1_11.rect t)).set ↔ _
  rw [View.set_slice_whole, Rect.mem_set_unit]
  exact Iff.rfl

/-- The 25 blocks tile the output array: row n is in the block of point n / 2000. -/
theorem cover_11 (i : S50000x256.Idx) :
    ∃ t : Fin cfg1.N, (cfg1.win 11).flush t = true ∧ i ∈ ((cfg1.win 11).blk t).view.set := by
  have hi0 : (i 0).val < 50000 := (i 0).isLt
  have hi1 : (i 1).val < 256 := (i 1).isLt
  obtain ⟨t, ht⟩ := idx_onto_11 ⟨(i 0).val / 2000, by omega⟩
  have q0 : win1_11.index t (0 : Fin 2) = (i 0).val / 2000 := congrFun ht 0
  have q1 : win1_11.index t (1 : Fin 2) = 0 := congrFun ht 1
  refine ⟨t, flush1_11 t, ?_⟩
  rw [mem_blk_11]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 256 ≤ (i 1).val ∧ (i 1).val < win1_11.index t (1 : Fin 2) * 256 + 256; omega

/-- The output array after the region: the stage's function of the arrays as the region finds them. -/
theorem final_11 (c : Dev nD) :
    (dat1 (F := Ideal) V c).arrAt 11 cfg1.N = G0 (A0 V c) (A1 V c) (A2 V c) (A3 V c) (A4 V c) (A5 V c) (A6 V c) (A7 V c) (A8 V c) (A9 V c) :=
  (dat1 (F := Ideal) V c).arrAt_eq_of_cover 11 _ (fun t _ => flushed_11 V c t) cover_11

/-! ## Output window 12 -/

/-- Row p, column q of point t's block is the array index (row t p, q). -/
theorem emb_12 (t : Fin cfg1.N) (p : Fin 2000) (q : Fin 128) :
    ((cfg1.win 12).blk t).view.emb (ix2 p q) = ix2 (row t p) q := by
  funext a; apply Fin.ext
  have e := idx_12 t
  match a with
  | ⟨0, _⟩ => show win1_12.index t (0 : Fin 2) * 2000 + 1 * p.val = win1_11.index t (0 : Fin 2) * 2000 + p.val; omega
  | ⟨1, _⟩ => show win1_12.index t (1 : Fin 2) * 128 + 1 * q.val = q.val; omega

/-- What point t writes back is block t of the stage's whole-array function of the arrays as the region finds them. -/
theorem flushed_12 (c : Dev nD) (t : Fin cfg1.N) :
    (dat1 (F := Ideal) V c).flushed 12 t
      = ((cfg1.win 12).blk t).view.read (Elt Ideal) (G1b (A0 V c) (A1 V c) (A2 V c) (A3 V c) (A4 V c) (A5 V c) (A6 V c) (A7 V c) (A8 V c) (A9 V c) (A10 V c)) := by
  show (cfg1.win 12).cut (grid1.coords t) ((dat1 (F := Ideal) V c).after 12 t) = _
  rw [after1_12, Cert.Sage.Body.out1_12_eq]
  funext j
  obtain ⟨p, q, rfl⟩ : ∃ (p : Fin 2000) (q : Fin 128), j = ix2 p q := ⟨j 0, j 1, eq_ix2 j⟩
  show G1b (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
     = G1b (A0 V c) (A1 V c) (A2 V c) (A3 V c) (A4 V c) (A5 V c) (A6 V c) (A7 V c) (A8 V c) (A9 V c) (A10 V c) (((cfg1.win 12).blk t).view.emb (ix2 p q))
  rw [emb_12 t p q]
  exact G1b_rowsAll _ _ _ _ _ _ _ _ _ _ _ _ _ _ _ _ _ _ _ _ _ _ p (row t p) q (fun k => blk_0 V c t p k) (fun k => blk_1 V c t p k) (blk_2 V c t p (0 : Fin 1)) (blk_3 V c t) (blk_4 V c t) (blk_5 V c t) (blk_6 V c t) (blk_7 V c t) (blk_8 V c t) (blk_9 V c t) (blk_10 V c t)

/-- An index of the output array is in point t's block iff each coordinate is in the block's range. -/
theorem mem_blk_12 (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v49_1).slice (win1_12.rect t)).set ↔ _
  rw [View.set_slice_whole, Rect.mem_set_unit]
  exact Iff.rfl

/-- The 25 blocks tile the output array: row n is in the block of point n / 2000. -/
theorem cover_12 (i : S50000x128.Idx) :
    ∃ t : Fin cfg1.N, (cfg1.win 12).flush t = true ∧ i ∈ ((cfg1.win 12).blk t).view.set := by
  have hi0 : (i 0).val < 50000 := (i 0).isLt
  have hi1 : (i 1).val < 128 := (i 1).isLt
  obtain ⟨t, ht⟩ := idx_onto_12 ⟨(i 0).val / 2000, by omega⟩
  have q0 : win1_12.index t (0 : Fin 2) = (i 0).val / 2000 := congrFun ht 0
  have q1 : win1_12.index t (1 : Fin 2) = 0 := congrFun ht 1
  refine ⟨t, flush1_12 t, ?_⟩
  rw [mem_blk_12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 128 ≤ (i 1).val ∧ (i 1).val < win1_12.index t (1 : Fin 2) * 128 + 128; omega

/-- The output array after the region: the stage's function of the arrays as the region finds them. -/
theorem final_12 (c : Dev nD) :
    (dat1 (F := Ideal) V c).arrAt 12 cfg1.N = G1b (A0 V c) (A1 V c) (A2 V c) (A3 V c) (A4 V c) (A5 V c) (A6 V c) (A7 V c) (A8 V c) (A9 V c) (A10 V c) :=
  (dat1 (F := Ideal) V c).arrAt_eq_of_cover 12 _ (fun t _ => flushed_12 V c t) cover_12

end Cert.Sage.Region1

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibRowLogSoftmax.lean ====
/-
  The logarithm of a softmax along the rows of a matrix, in the spelling a vector unit computes it, read at an index on
  the extended reals.
  For an [a, b] matrix y and an accumulator word w, let m(r) be the fold of max over k < b of y(r, k) started from w's
  value. The spelling takes the row maxima by a maximum reduction along axis 1, recasts the length-a vector as an [a, 1]
  column, spreads the column over the b columns and subtracts; takes exponentials; sums them along axis 1, recasts to a
  column, takes the logarithm, spreads and subtracts again. At (r, c) the result is
      (y(r, c) − m(r)) − log Σ_{k<b} exp (y(r, k) − m(r)) .
  * rowMax_spread: the spread column of row maxima reads m(r) at (r, c).
  * logRowSum_spread: the spread column of logarithms of row sums of z reads log Σ_k z(r, k) at (r, c).
  * logSoftmax_spelling: the two together.
  Over the library, the row-reduction and the column lemmas only; both extents are variables. No finiteness hypothesis.
-/
import Idealize.ShloMosaic.PureOps.Ideal.Laws
import Idealize.ShloMosaic.Lib.ValueIdx
import Idealize.ShloMosaic.Lib.Pipeline.Value
import proofs.«150929_j57071525429489_2_alg».proof.Proof.LibRowReduce
import proofs.«150929_j57071525429489_2_alg».proof.Proof.LibColumn

noncomputable section

namespace Cert.LibRowLogSoftmax

open Idealize.ShloMosaic Idealize.ShloMosaic.ValueIdx

variable {a b : ℕ}

/-- The row maximum from the accumulator word's value. -/
def rowMaxFrom (w : BitVec FTy.f32.bits) (y : FVec Ideal ⟨2, ![a, b]⟩ .f32) (r : Fin a) : Ideal .f32 :=
  (Finset.univ : Finset (Fin b)).fold max (Ideal.ofBits .f32 w) (fun k => y (ix2 r k))

/-- The column of row maxima, spread over the columns, reads the row's maximum. -/
theorem rowMax_spread (y : FVec Ideal ⟨2, ![a, b]⟩ .f32) (w : BitVec FTy.f32.bits)
    (hr : (⟨2, ![a, b]⟩ : Shape).Reduces [1] ⟨1, ![a]⟩) (hφ : FKind.Formats .f32) (hw : w = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (c : Fin b) :
    broadcastTo ⟨2, ![a, b]⟩ (shapeCast ⟨2, ![a, 1]⟩ (multiReduction .maximumf [1] ⟨1, ![a]⟩ y w hr hφ hw) hc) hb (ix2 r c)
      = rowMaxFrom w y r :=
  (Cert.LibColumn.broadcastTo_a1_ab_apply _ hb r c).trans
    ((Cert.LibColumn.shapeCast_a_a1_apply _ hc r (0 : Fin 1)).trans (Cert.LibRowReduce.rowMax_apply y w hr hφ hw r))

/-- The column of logarithms of row sums, spread over the columns, reads the logarithm of the row's sum. -/
theorem logRowSum_spread (z : FVec Ideal ⟨2, ![a, b]⟩ .f32) (w : BitVec FTy.f32.bits)
    (hr : (⟨2, ![a, b]⟩ : Shape).Reduces [1] ⟨1, ![a]⟩) (hφ : FKind.Formats .f32) (hw : w = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (c : Fin b) :
    broadcastTo ⟨2, ![a, b]⟩ (log (shapeCast ⟨2, ![a, 1]⟩ (multiReduction .add [1] ⟨1, ![a]⟩ z w hr hφ hw) hc)) hb (ix2 r c)
      = Ideal.log (∑ k : Fin b, z (ix2 r k)) :=
  (Cert.LibColumn.broadcastTo_a1_ab_apply _ hb r c).trans
    (congrArg Ideal.log
      ((Cert.LibColumn.shapeCast_a_a1_apply _ hc r (0 : Fin 1)).trans (Cert.LibRowReduce.rowSum_apply z w hr hφ hw r)))

/-- The whole spelling at an index. -/
theorem logSoftmax_spelling (y : FVec Ideal ⟨2, ![a, b]⟩ .f32) (wm ws : BitVec FTy.f32.bits)
    (hr : (⟨2, ![a, b]⟩ : Shape).Reduces [1] ⟨1, ![a]⟩) (hφ : FKind.Formats .f32)
    (hwm : wm = FKind.maximumf.neutral .f32 hφ) (hws : ws = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (c : Fin b) :
    subf
        (subf y (broadcastTo ⟨2, ![a, b]⟩ (shapeCast ⟨2, ![a, 1]⟩ (multiReduction .maximumf [1] ⟨1, ![a]⟩ y wm hr hφ hwm) hc) hb))
        (broadcastTo ⟨2, ![a, b]⟩
          (log (shapeCast ⟨2, ![a, 1]⟩
            (multiReduction .add [1] ⟨1, ![a]⟩
              (exp (subf y (broadcastTo ⟨2, ![a, b]⟩
                (shapeCast ⟨2, ![a, 1]⟩ (multiReduction .maximumf [1] ⟨1, ![a]⟩ y wm hr hφ hwm) hc) hb)))
              ws hr hφ hws) hc)) hb)
        (ix2 r c)
      = (y (ix2 r c) - rowMaxFrom wm y r) - Ideal.log (∑ k : Fin b, Ideal.exp (y (ix2 r k) - rowMaxFrom wm y r)) := by
  rw [subf_apply, subf_apply, rowMax_spread y wm hr hφ hwm hc hb r c, logRowSum_spread _ ws hr hφ hws hc hb r c]
  refine congrArg (fun s => (y (ix2 r c) - rowMaxFrom wm y r) - Ideal.log s) (Finset.sum_congr rfl fun k _ => ?_)
  show Ideal.exp (y (ix2 r k) - _) = _
  rw [rowMax_spread y wm hr hφ hwm hc hb r k]

end Cert.LibRowLogSoftmax

end
-- ==== Proof.Body2.lean ====
/-
  Stage 3 on one block of rows: what the last fused stage leaves in its output block is G2 of its input blocks.

  The block is written by one whole-block store and every input is read by one whole-block load, so the block after
  the body is the stored value. At the extended reals, with the format changes the identity, a row of the stored
  value is the log-softmax of the second dense stage of the positive part of the first dense stage of the last
  SAGE row; the log-softmax is computed by row maxima and row sums spread back over the columns.
-/
import proofs.«150929_j57071525429489_2_alg».proof.Proof.Spec
import proofs.«150929_j57071525429489_2_alg».proof.Proof.LibPlainDot
import proofs.«150929_j57071525429489_2_alg».proof.Proof.LibColumn
import proofs.«150929_j57071525429489_2_alg».proof.Proof.LibRowLogSoftmax
import proofs.«150929_j57071525429489_2_alg».proof.Proof.Gen.KernelIdeal.Frame
import Idealize.ShloMosaic.Lib.ValueLayout

noncomputable section

namespace Cert.Sage.Body

open Idealize.ShloMosaic Idealize.ShloMosaic.ValueIdx
open Cert.KernelIdeal Cert.KernelIdeal.Gen

namespace R2

/-- The zero offsets of a whole-block rectangle of a matrix. -/
theorem hz : (![0, 0] : Fin 2 → Nat) = fun _ => 0 := funext fun a => by fin_cases a <;> rfl

/-- A product into the zero accumulator, over dimension numbers that are the plain ones, at (p, q). -/
theorem mm {M K N : ℕ} (D : DotDims ⟨2, ![M, K]⟩ ⟨2, ![K, N]⟩ ⟨2, ![M, N]⟩) (hD : D = DotDims.plain M K N)
    {φ₁ φ₂ : FTy} (l : FVec Ideal ⟨2, ![M, K]⟩ φ₁) (r : FVec Ideal ⟨2, ![K, N]⟩ φ₂) (p : Fin M) (q : Fin N) :
    matmul (F := Ideal) D none l r (constant ⟨2, ![M, N]⟩ .f32 0x00000000#32) (ix2 p q)
      = ∑ k : Fin K, l (ix2 p k) * r (ix2 k q) := by
  subst hD
  exact Cert.LibPlainDot.matmul_plain M K N none l r (ix2 p q)

/-- The 2000x256 by 256x128 product of this stage. -/
theorem mmA {φ₁ φ₂ : FTy} (l : FVec Ideal S2000x256 φ₁) (r : FVec Ideal S256x128 φ₂) (p : Fin 2000) (q : Fin 128) :
    matmul (F := Ideal) dot_S2000x256_S256x128_S2000x128_1_0_0_1_n_n none l r (constant S2000x128 .f32 0x00000000#32) (ix2 p q)
      = ∑ k : Fin 256, l (ix2 p k) * r (ix2 k q) :=
  mm dot_S2000x256_S256x128_S2000x128_1_0_0_1_n_n rfl l r p q

/-- The 2000x128 by 128x64 product of this stage. -/
theorem mmB {φ₁ φ₂ : FTy} (l : FVec Ideal S2000x128 φ₁) (r : FVec Ideal S128x64 φ₂) (p : Fin 2000) (q : Fin 64) :
    matmul (F := Ideal) dot_S2000x128_S128x64_S2000x64_1_0_0_1_n_n none l r (constant S2000x64 .f32 0x00000000#32) (ix2 p q)
      = ∑ k : Fin 128, l (ix2 p k) * r (ix2 k q) :=
  mm dot_S2000x128_S128x64_S2000x64_1_0_0_1_n_n rfl l r p q

/-- The 2000x64 by 64x16 product of this stage. -/
theorem mmC {φ₁ φ₂ : FTy} (l : FVec Ideal S2000x64 φ₁) (r : FVec Ideal S64x16 φ₂) (p : Fin 2000) (q : Fin 16) :
    matmul (F := Ideal) dot_S2000x64_S64x16_S2000x16_1_0_0_1_n_n none l r (constant S2000x16 .f32 0x00000000#32) (ix2 p q)
      = ∑ k : Fin 64, l (ix2 p k) * r (ix2 k q) :=
  mm dot_S2000x64_S64x16_S2000x16_1_0_0_1_n_n rfl l r p q

/-- The last bias row, spread over the rows. -/
theorem pay3 (v33 : Vec Ideal S1x16 .f32) (p : Fin 2000) (q : Fin 16) :
    k2_pay3 (F := Ideal) v33 (ix2 p q) = v33 (ix2 (0 : Fin 1) q) := by
  unfold k2_pay3
  simp only [shapeCast_self]
  exact broadcastTo_1b_ab_apply _ _ p q

/-- The last SAGE layer's entry: the projected neighbour sum times the reciprocal degree, the bias, the root product,
    the positive part. -/
theorem layer (v0 : FVec Ideal S2000x256 .bf16) (v2 : FVec Ideal S2000x128 .bf16) (v5 : FVec Ideal S2000x1 .f32)
    (v9 : FVec Ideal S256x128 .f32) (v11 : FVec Ideal S1x128 .f32)
    (h1 : FTy.bf16.bits < FTy.f32.bits) (h2 : S2000x1.Broadcasts S2000x128) (h3 : S1x128.Broadcasts S2000x128)
    (h4 : FTy.bf16.bits < FTy.f32.bits) (p : Fin 2000) (a : Fin 128) :
    maximumf (F := Ideal)
        (addf (addf (mulf (extf .f32 v2 h1) (broadcastTo S2000x128 v5 h2)) (broadcastTo S2000x128 v11 h3))
          (matmul dot_S2000x256_S256x128_S2000x128_1_0_0_1_n_n none v0 (truncf .bf16 v9 h4)
            (constant S2000x128 .f32 0x00000000#32)))
        (broadcast S2000x128 (Scalar.ofBits .f32 0x00000000#32)) (ix2 p a)
      = sage3K (v2 (ix2 p a)) (fun k => v0 (ix2 p k)) (v5 (ix2 p (0 : Fin 1))) (fun k => v9 (ix2 k a))
          (v11 (ix2 (0 : Fin 1) a)) := by
  show max ((v2 (ix2 p a) * broadcastTo S2000x128 v5 h2 (ix2 p a) + broadcastTo S2000x128 v11 h3 (ix2 p a))
      + matmul (F := Ideal) dot_S2000x256_S256x128_S2000x128_1_0_0_1_n_n none v0 (truncf .bf16 v9 h4)
          (constant S2000x128 .f32 0x00000000#32) (ix2 p a)) zero32 = _
  rw [mmA, Cert.LibColumn.broadcastTo_a1_ab_apply, broadcastTo_1b_ab_apply]
  rfl

/-- The logits before the last bias: the two dense stages on the last SAGE row. -/
theorem pay2 (v0 : Vec Ideal S2000x256 .bf16) (v2 : Vec Ideal S2000x128 .bf16) (v5 : Vec Ideal S2000x1 .f32)
    (v9 : Vec Ideal S256x128 .f32) (v11 : Vec Ideal S1x128 .f32) (v19 : Vec Ideal S128x64 .f32)
    (v23 : Vec Ideal S1x64 .f32) (v29 : Vec Ideal S64x16 .f32) (p : Fin 2000) (q : Fin 16) :
    k2_pay2 (F := Ideal) v0 v2 v5 v9 v11 v19 v23 v29 (ix2 p q)
      = dot (fun k : Fin 64 => max (dot (fun a : Fin 128 =>
              sage3K (v2 (ix2 p a)) (fun k => v0 (ix2 p k)) (v5 (ix2 p (0 : Fin 1))) (fun k => v9 (ix2 k a))
                (v11 (ix2 (0 : Fin 1) a))) (fun a => v19 (ix2 a k)) + v23 (ix2 (0 : Fin 1) k)) zero32)
          (fun k => v29 (ix2 k q)) := by
  unfold k2_pay2
  simp only [shapeCast_self]
  refine (mmC _ _ p q).trans ?_
  refine Finset.sum_congr rfl fun k _ => ?_
  refine congrArg (fun t : EReal => t * v29 (ix2 k q)) ?_
  show max (matmul (F := Ideal) dot_S2000x128_S128x64_S2000x64_1_0_0_1_n_n none _ _
      (constant S2000x64 .f32 0x00000000#32) (ix2 p k) + broadcastTo S2000x64 v23 _ (ix2 p k)) zero32 = _
  rw [mmB, broadcastTo_1b_ab_apply]
  refine congrArg (fun s : EReal => max (s + v23 (ix2 (0 : Fin 1) k)) zero32) (Finset.sum_congr rfl fun a _ => ?_)
  exact congrArg (fun t : EReal => t * v19 (ix2 a k)) (layer v0 v2 v5 v9 v11 _ _ _ _ p a)

/-- The row-wise log-softmax of the logits plus the bias. -/
theorem pay1 (v32 v35 : FVec Ideal S2000x16 .f32) (p : Fin 2000) (q : Fin 16) :
    k2_pay1 (F := Ideal) v32 v35 (ix2 p q) = logSoftmax (fun k : Fin 16 => v32 (ix2 p k) + v35 (ix2 p k)) q := by
  unfold k2_pay1
  exact Cert.LibRowLogSoftmax.logSoftmax_spelling (a := 2000) (b := 16) (addf v32 v35) 0xFF800000#32 0x00000000#32
    _ _ _ _ _ _ p q

end R2

/-- Stage 3's output block is G2 of its input blocks. -/
theorem out2_9_eq (x0 : Vec Ideal S2000x256 .bf16) (x1 : Vec Ideal S2000x128 .bf16) (x2 : Vec Ideal S2000x1 .f32)
    (x3 : Vec Ideal S256x128 .f32) (x4 : Vec Ideal S1x128 .f32) (x5 : Vec Ideal S128x64 .f32)
    (x6 : Vec Ideal S1x64 .f32) (x7 : Vec Ideal S64x16 .f32) (x8 : Vec Ideal S1x16 .f32) :
    out2_9 (F := Ideal) x0 x1 x2 x3 x4 x5 x6 x7 x8 = G2 x0 x1 x2 x3 x4 x5 x6 x7 x8 := by
  unfold out2_9
  rw [View.canon_unit_zero R2.hz]
  simp only [View.ld_unit_zero (S := S2000x256) R2.hz, View.ld_unit_zero (S := S2000x128) R2.hz,
    View.ld_unit_zero (S := S2000x1) R2.hz, View.ld_unit_zero (S := S256x128) R2.hz,
    View.ld_unit_zero (S := S1x128) R2.hz, View.ld_unit_zero (S := S128x64) R2.hz,
    View.ld_unit_zero (S := S1x64) R2.hz, View.ld_unit_zero (S := S64x16) R2.hz,
    View.ld_unit_zero (S := S1x16) R2.hz]
  funext j
  obtain ⟨p, q, rfl⟩ : ∃ (p : Fin 2000) (q : Fin 16), j = ix2 p q := ⟨j 0, j 1, eq_ix2 j⟩
  rw [R2.pay1]
  simp only [R2.pay2, R2.pay3]
  rfl

end Cert.Sage.Body

end
-- ==== Proof.Region2.lean ====
/-
  Region 2 from blocks to whole arrays. The grid has 25 points; point t stages rows 2000·t … 2000·t+1999 of every
  node array (the weight and bias arrays are staged whole at every point) and writes back the same rows of the
  output. What a point writes back is therefore the block of ONE whole-array function of the arrays as the region
  finds them, and the blocks tile the output, so the output ends as that function.
-/
import proofs.«150929_j57071525429489_2_alg».proof.Proof.Gen.KernelIdeal.Frame
import proofs.«150929_j57071525429489_2_alg».proof.Proof.SpecRows
import proofs.«150929_j57071525429489_2_alg».proof.Proof.Body2
import Idealize.ShloMosaic.Lib.Pipeline.Value

set_option maxRecDepth 16384

noncomputable section

namespace Cert.Sage.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays as the region finds them -/

abbrev A0 (c : Dev nD) : S50000x256.Idx → EReal := V c main_v49_0
abbrev A1 (c : Dev nD) : S50000x128.Idx → EReal := V c main_v61
abbrev A2 (c : Dev nD) : S50000x1.Idx → EReal := V c main_v12
abbrev A3 (c : Dev nD) : S256x128.Idx → EReal := V c main_arg18
abbrev A4 (c : Dev nD) : S1x128.Idx → EReal := V c main_v62
abbrev A5 (c : Dev nD) : S128x64.Idx → EReal := V c main_arg19
abbrev A6 (c : Dev nD) : S1x64.Idx → EReal := V c main_v63
abbrev A7 (c : Dev nD) : S64x16.Idx → EReal := V c main_arg21
abbrev A8 (c : Dev nD) : S1x16.Idx → EReal := V c main_v64

/-! ## The index maps over the grid, decided once -/

theorem idx_0 : ∀ t : Fin cfg2.N, win2_0.index t (0 : Fin 2) = win2_9.index t (0 : Fin 2) ∧ win2_0.index t (1 : Fin 2) = 0 :=
  (by decide +kernel : ∀ t : Fin grid2.N, _)
theorem idx_1 : ∀ t : Fin cfg2.N, win2_1.index t (0 : Fin 2) = win2_9.index t (0 : Fin 2) ∧ win2_1.index t (1 : Fin 2) = 0 :=
  (by decide +kernel : ∀ t : Fin grid2.N, _)
theorem idx_2 : ∀ t : Fin cfg2.N, win2_2.index t (0 : Fin 2) = win2_9.index t (0 : Fin 2) ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = 0 ∧ win2_8.index t (1 : Fin 2) = 0 :=
  (by decide +kernel : ∀ t : Fin grid2.N, _)
theorem idx_9 : ∀ t : Fin cfg2.N, win2_9.index t (0 : Fin 2) = win2_9.index t (0 : Fin 2) ∧ win2_9.index t (1 : Fin 2) = 0 ∧ win2_9.index t (0 : Fin 2) ≤ 24 :=
  (by decide +kernel : ∀ t : Fin grid2.N, _)
theorem idx_onto_9 : ∀ q0 : Fin 25, ∃ t : Fin cfg2.N, win2_9.index t = ![q0.val, 0] :=
  (by decide +kernel : ∀ q0 : Fin 25, ∃ t : Fin grid2.N, win2_9.index t = ![q0.val, 0])

/-- The array row that row p of point t's blocks is. -/
def row (t : Fin cfg2.N) (p : Fin 2000) : Fin 50000 :=
  ⟨win2_9.index t (0 : Fin 2) * 2000 + p.val, by have h := (idx_9 t).2.2; have hp := p.isLt; omega⟩

/-! ## Each window's block at a point, read off its array -/

theorem blk_0 (c : Dev nD) (t : Fin cfg2.N) (p : Fin 2000) (k : Fin 256) :
    iblk2 V c 0 t (ix2 p k) = A0 V c (ix2 (row t p) k) := by
  show V c main_v49_0 (((cfg2.win 0).blk t).view.emb (ix2 p k)) = _
  refine congrArg (V c main_v49_0) ?_
  funext a; apply Fin.ext
  have e := idx_0 t
  match a with
  | ⟨0, _⟩ => show win2_0.index t (0 : Fin 2) * 2000 + 1 * p.val = win2_9.index t (0 : Fin 2) * 2000 + p.val; omega
  | ⟨1, _⟩ => show win2_0.index t (1 : Fin 2) * 256 + 1 * k.val = k.val; omega
theorem blk_1 (c : Dev nD) (t : Fin cfg2.N) (p : Fin 2000) (k : Fin 128) :
    iblk2 V c 1 t (ix2 p k) = A1 V c (ix2 (row t p) k) := by
  show V c main_v61 (((cfg2.win 1).blk t).view.emb (ix2 p k)) = _
  refine congrArg (V c main_v61) ?_
  funext a; apply Fin.ext
  have e := idx_1 t
  match a with
  | ⟨0, _⟩ => show win2_1.index t (0 : Fin 2) * 2000 + 1 * p.val = win2_9.index t (0 : Fin 2) * 2000 + p.val; omega
  | ⟨1, _⟩ => show win2_1.index t (1 : Fin 2) * 128 + 1 * k.val = k.val; omega
theorem blk_2 (c : Dev nD) (t : Fin cfg2.N) (p : Fin 2000) (k : Fin 1) :
    iblk2 V c 2 t (ix2 p k) = A2 V c (ix2 (row t p) k) := by
  show V c main_v12 (((cfg2.win 2).blk t).view.emb (ix2 p k)) = _
  refine congrArg (V c main_v12) ?_
  funext a; apply Fin.ext
  have e := idx_2 t
  match a with
  | ⟨0, _⟩ => show win2_2.index t (0 : Fin 2) * 2000 + 1 * p.val = win2_9.index t (0 : Fin 2) * 2000 + p.val; omega
  | ⟨1, _⟩ => show win2_2.index t (1 : Fin 2) * 1 + 1 * k.val = k.val; omega
theorem blk_3 (c : Dev nD) (t : Fin cfg2.N) (j : S256x128.Idx) :
    iblk2 V c 3 t j = A3 V c j := by
  show V c main_arg18 (((cfg2.win 3).blk t).view.emb j) = _
  refine congrArg (V c main_arg18) ?_
  funext a; apply Fin.ext
  have e := idx_3 t
  match a with
  | ⟨0, _⟩ => show win2_3.index t (0 : Fin 2) * 256 + 1 * (j 0).val = (j 0).val; omega
  | ⟨1, _⟩ => show win2_3.index t (1 : Fin 2) * 128 + 1 * (j 1).val = (j 1).val; omega
theorem blk_4 (c : Dev nD) (t : Fin cfg2.N) (j : S1x128.Idx) :
    iblk2 V c 4 t j = A4 V c j := by
  show V c main_v62 (((cfg2.win 4).blk t).view.emb j) = _
  refine congrArg (V c main_v62) ?_
  funext a; apply Fin.ext
  have e := idx_4 t
  match a with
  | ⟨0, _⟩ => show win2_4.index t (0 : Fin 2) * 1 + 1 * (j 0).val = (j 0).val; omega
  | ⟨1, _⟩ => show win2_4.index t (1 : Fin 2) * 128 + 1 * (j 1).val = (j 1).val; omega
theorem blk_5 (c : Dev nD) (t : Fin cfg2.N) (j : S128x64.Idx) :
    iblk2 V c 5 t j = A5 V c j := by
  show V c main_arg19 (((cfg2.win 5).blk t).view.emb j) = _
  refine congrArg (V c main_arg19) ?_
  funext a; apply Fin.ext
  have e := idx_5 t
  match a with
  | ⟨0, _⟩ => show win2_5.index t (0 : Fin 2) * 128 + 1 * (j 0).val = (j 0).val; omega
  | ⟨1, _⟩ => show win2_5.index t (1 : Fin 2) * 64 + 1 * (j 1).val = (j 1).val; omega
theorem blk_6 (c : Dev nD) (t : Fin cfg2.N) (j : S1x64.Idx) :
    iblk2 V c 6 t j = A6 V c j := by
  show V c main_v63 (((cfg2.win 6).blk t).view.emb j) = _
  refine congrArg (V c main_v63) ?_
  funext a; apply Fin.ext
  have e := idx_6 t
  match a with
  | ⟨0, _⟩ => show win2_6.index t (0 : Fin 2) * 1 + 1 * (j 0).val = (j 0).val; omega
  | ⟨1, _⟩ => show win2_6.index t (1 : Fin 2) * 64 + 1 * (j 1).val = (j 1).val; omega
theorem blk_7 (c : Dev nD) (t : Fin cfg2.N) (j : S64x16.Idx) :
    iblk2 V c 7 t j = A7 V c j := by
  show V c main_arg21 (((cfg2.win 7).blk t).view.emb j) = _
  refine congrArg (V c main_arg21) ?_
  funext a; apply Fin.ext
  have e := idx_7 t
  match a with
  | ⟨0, _⟩ => show win2_7.index t (0 : Fin 2) * 64 + 1 * (j 0).val = (j 0).val; omega
  | ⟨1, _⟩ => show win2_7.index t (1 : Fin 2) * 16 + 1 * (j 1).val = (j 1).val; omega
theorem blk_8 (c : Dev nD) (t : Fin cfg2.N) (j : S1x16.Idx) :
    iblk2 V c 8 t j = A8 V c j := by
  show V c main_v64 (((cfg2.win 8).blk t).view.emb j) = _
  refine congrArg (V c main_v64) ?_
  funext a; apply Fin.ext
  have e := idx_8 t
  match a with
  | ⟨0, _⟩ => show win2_8.index t (0 : Fin 2) * 1 + 1 * (j 0).val = (j 0).val; omega
  | ⟨1, _⟩ => show win2_8.index t (1 : Fin 2) * 16 + 1 * (j 1).val = (j 1).val; omega

/-! ## Output window 9 -/

/-- Row p, column q of point t's block is the array index (row t p, q). -/
theorem emb_9 (t : Fin cfg2.N) (p : Fin 2000) (q : Fin 16) :
    ((cfg2.win 9).blk t).view.emb (ix2 p q) = ix2 (row t p) q := by
  funext a; apply Fin.ext
  have e := idx_9 t
  match a with
  | ⟨0, _⟩ => show win2_9.index t (0 : Fin 2) * 2000 + 1 * p.val = win2_9.index t (0 : Fin 2) * 2000 + p.val; omega
  | ⟨1, _⟩ => show win2_9.index t (1 : Fin 2) * 16 + 1 * q.val = q.val; omega

/-- What point t writes back is block t of the stage's whole-array function of the arrays as the region finds them. -/
theorem flushed_9 (c : Dev nD) (t : Fin cfg2.N) :
    (dat2 (F := Ideal) V c).flushed 9 t
      = ((cfg2.win 9).blk t).view.read (Elt Ideal) (G2 (A0 V c) (A1 V c) (A2 V c) (A3 V c) (A4 V c) (A5 V c) (A6 V c) (A7 V c) (A8 V c)) := by
  show (cfg2.win 9).cut (grid2.coords t) ((dat2 (F := Ideal) V c).after 9 t) = _
  rw [after2_9, Cert.Sage.Body.out2_9_eq]
  funext j
  obtain ⟨p, q, rfl⟩ : ∃ (p : Fin 2000) (q : Fin 16), j = ix2 p q := ⟨j 0, j 1, eq_ix2 j⟩
  show G2 (iblk2 V c 0 t) (iblk2 V c 1 t) (iblk2 V c 2 t) (iblk2 V c 3 t) (iblk2 V c 4 t) (iblk2 V c 5 t) (iblk2 V c 6 t) (iblk2 V c 7 t) (iblk2 V c 8 t) (ix2 p q)
     = G2 (A0 V c) (A1 V c) (A2 V c) (A3 V c) (A4 V c) (A5 V c) (A6 V c) (A7 V c) (A8 V c) (((cfg2.win 9).blk t).view.emb (ix2 p q))
  rw [emb_9 t p q]
  exact G2_rowsAll _ _ _ _ _ _ _ _ _ _ _ _ _ _ _ _ _ _ p (row t p) q (fun k => blk_0 V c t p k) (fun k => blk_1 V c t p k) (blk_2 V c t p (0 : Fin 1)) (blk_3 V c t) (blk_4 V c t) (blk_5 V c t) (blk_6 V c t) (blk_7 V c t) (blk_8 V c t)

/-- An index of the output array is in point t's block iff each coordinate is in the block's range. -/
theorem mem_blk_9 (t : Fin cfg2.N) (i : S50000x16.Idx) :
    i ∈ ((cfg2.win 9).blk t).view.set ↔ ∀ a : Fin 2, win2_9.index t a * S2000x16.size a ≤ (i a).val ∧ (i a).val < win2_9.index t a * S2000x16.size a + S2000x16.size a := by
  show i ∈ ((View.whole main_v65).slice (win2_9.rect t)).set ↔ _
  rw [View.set_slice_whole, Rect.mem_set_unit]
  exact Iff.rfl

/-- The 25 blocks tile the output array: row n is in the block of point n / 2000. -/
theorem cover_9 (i : S50000x16.Idx) :
    ∃ t : Fin cfg2.N, (cfg2.win 9).flush t = true ∧ i ∈ ((cfg2.win 9).blk t).view.set := by
  have hi0 : (i 0).val < 50000 := (i 0).isLt
  have hi1 : (i 1).val < 16 := (i 1).isLt
  obtain ⟨t, ht⟩ := idx_onto_9 ⟨(i 0).val / 2000, by omega⟩
  have q0 : win2_9.index t (0 : Fin 2) = (i 0).val / 2000 := congrFun ht 0
  have q1 : win2_9.index t (1 : Fin 2) = 0 := congrFun ht 1
  refine ⟨t, flush2_9 t, ?_⟩
  rw [mem_blk_9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 16 ≤ (i 1).val ∧ (i 1).val < win2_9.index t (1 : Fin 2) * 16 + 16; omega

/-- The output array after the region: the stage's function of the arrays as the region finds them. -/
theorem final_9 (c : Dev nD) :
    (dat2 (F := Ideal) V c).arrAt 9 cfg2.N = G2 (A0 V c) (A1 V c) (A2 V c) (A3 V c) (A4 V c) (A5 V c) (A6 V c) (A7 V c) (A8 V c) :=
  (dat2 (F := Ideal) V c).arrAt_eq_of_cover 9 _ (fun t _ => flushed_9 V c t) cover_9

end Cert.Sage.Region2

end
-- ==== Proof.Fold.lean ====
/-
  The fold of the kernel program's segments, read back. After every segment each buffer that a later segment reads
  holds a closed function of the program's 23 arguments: a host stretch applies its operations to what it finds, a
  region leaves in each output array the stage's function of the arrays it finds (the region modules) and touches
  nothing else. Walking the six segments in order gives the result array as OUT of the arguments.
-/
import proofs.«150929_j57071525429489_2_alg».proof.Proof.Gen.KernelIdeal.Frame
import proofs.«150929_j57071525429489_2_alg».proof.Proof.KHost
import proofs.«150929_j57071525429489_2_alg».proof.Proof.Region0
import proofs.«150929_j57071525429489_2_alg».proof.Proof.Region1
import proofs.«150929_j57071525429489_2_alg».proof.Proof.Region2
import Idealize.ShloMosaic.Lib.StableHlo.Run

set_option maxRecDepth 16384

noncomputable section

namespace Cert.Sage.Fold

open Cert.KernelIdeal Cert.KernelIdeal.Gen Cert.Sage Cert.Sage.KHost
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The arguments as launched -/
abbrev X0 (m : (ℓ : Loc nD τ sig) → Buf (Elt Ideal) ℓ) (c : Dev nD) : (⟨S50000x96, .f32⟩ : BufTy).Contents (Elt Ideal) := m ((c : Thread nD τ).loc main_arg0)
abbrev X1 (m : (ℓ : Loc nD τ sig) → Buf (Elt Ideal) ℓ) (c : Dev nD) : (⟨S2x800000, .i32⟩ : BufTy).Contents (Elt Ideal) := m ((c : Thread nD τ).loc main_arg1)
abbrev X2 (m : (ℓ : Loc nD τ sig) → Buf (Elt Ideal) ℓ) (c : Dev nD) : (⟨S96x256, .f32⟩ : BufTy).Contents (Elt Ideal) := m ((c : Thread nD τ).loc main_arg2)
abbrev X3 (m : (ℓ : Loc nD τ sig) → Buf (Elt Ideal) ℓ) (c : Dev nD) : (⟨S256, .f32⟩ : BufTy).Contents (Elt Ideal) := m ((c : Thread nD τ).loc main_arg3)
abbrev X4 (m : (ℓ : Loc nD τ sig) → Buf (Elt Ideal) ℓ) (c : Dev nD) : (⟨S96x256, .f32⟩ : BufTy).Contents (Elt Ideal) := m ((c : Thread nD τ).loc main_arg4)
abbrev X5 (m : (ℓ : Loc nD τ sig) → Buf (Elt Ideal) ℓ) (c : Dev nD) : (⟨S256, .f32⟩ : BufTy).Contents (Elt Ideal) := m ((c : Thread nD τ).loc main_arg5)
abbrev X6 (m : (ℓ : Loc nD τ sig) → Buf (Elt Ideal) ℓ) (c : Dev nD) : (⟨S256, .f32⟩ : BufTy).Contents (Elt Ideal) := m ((c : Thread nD τ).loc main_arg6)
abbrev X7 (m : (ℓ : Loc nD τ sig) → Buf (Elt Ideal) ℓ) (c : Dev nD) : (⟨S256, .f32⟩ : BufTy).Contents (Elt Ideal) := m ((c : Thread nD τ).loc main_arg7)
abbrev X8 (m : (ℓ : Loc nD τ sig) → Buf (Elt Ideal) ℓ) (c : Dev nD) : (⟨S256, .f32⟩ : BufTy).Contents (Elt Ideal) := m ((c : Thread nD τ).loc main_arg8)
abbrev X9 (m : (ℓ : Loc nD τ sig) → Buf (Elt Ideal) ℓ) (c : Dev nD) : (⟨S256x256, .f32⟩ : BufTy).Contents (Elt Ideal) := m ((c : Thread nD τ).loc main_arg9)
abbrev X10 (m : (ℓ : Loc nD τ sig) → Buf (Elt Ideal) ℓ) (c : Dev nD) : (⟨S256, .f32⟩ : BufTy).Contents (Elt Ideal) := m ((c : Thread nD τ).loc main_arg10)
abbrev X11 (m : (ℓ : Loc nD τ sig) → Buf (Elt Ideal) ℓ) (c : Dev nD) : (⟨S256x256, .f32⟩ : BufTy).Contents (Elt Ideal) := m ((c : Thread nD τ).loc main_arg11)
abbrev X12 (m : (ℓ : Loc nD τ sig) → Buf (Elt Ideal) ℓ) (c : Dev nD) : (⟨S256, .f32⟩ : BufTy).Contents (Elt Ideal) := m ((c : Thread nD τ).loc main_arg12)
abbrev X13 (m : (ℓ : Loc nD τ sig) → Buf (Elt Ideal) ℓ) (c : Dev nD) : (⟨S256, .f32⟩ : BufTy).Contents (Elt Ideal) := m ((c : Thread nD τ).loc main_arg13)
abbrev X14 (m : (ℓ : Loc nD τ sig) → Buf (Elt Ideal) ℓ) (c : Dev nD) : (⟨S256, .f32⟩ : BufTy).Contents (Elt Ideal) := m ((c : Thread nD τ).loc main_arg14)
abbrev X15 (m : (ℓ : Loc nD τ sig) → Buf (Elt Ideal) ℓ) (c : Dev nD) : (⟨S256, .f32⟩ : BufTy).Contents (Elt Ideal) := m ((c : Thread nD τ).loc main_arg15)
abbrev X16 (m : (ℓ : Loc nD τ sig) → Buf (Elt Ideal) ℓ) (c : Dev nD) : (⟨S256x128, .f32⟩ : BufTy).Contents (Elt Ideal) := m ((c : Thread nD τ).loc main_arg16)
abbrev X17 (m : (ℓ : Loc nD τ sig) → Buf (Elt Ideal) ℓ) (c : Dev nD) : (⟨S128, .f32⟩ : BufTy).Contents (Elt Ideal) := m ((c : Thread nD τ).loc main_arg17)
abbrev X18 (m : (ℓ : Loc nD τ sig) → Buf (Elt Ideal) ℓ) (c : Dev nD) : (⟨S256x128, .f32⟩ : BufTy).Contents (Elt Ideal) := m ((c : Thread nD τ).loc main_arg18)
abbrev X19 (m : (ℓ : Loc nD τ sig) → Buf (Elt Ideal) ℓ) (c : Dev nD) : (⟨S128x64, .f32⟩ : BufTy).Contents (Elt Ideal) := m ((c : Thread nD τ).loc main_arg19)
abbrev X20 (m : (ℓ : Loc nD τ sig) → Buf (Elt Ideal) ℓ) (c : Dev nD) : (⟨S64, .f32⟩ : BufTy).Contents (Elt Ideal) := m ((c : Thread nD τ).loc main_arg20)
abbrev X21 (m : (ℓ : Loc nD τ sig) → Buf (Elt Ideal) ℓ) (c : Dev nD) : (⟨S64x16, .f32⟩ : BufTy).Contents (Elt Ideal) := m ((c : Thread nD τ).loc main_arg21)
abbrev X22 (m : (ℓ : Loc nD τ sig) → Buf (Elt Ideal) ℓ) (c : Dev nD) : (⟨S16, .f32⟩ : BufTy).Contents (Elt Ideal) := m ((c : Thread nD τ).loc main_arg22)

/-! ## After segment 1 -/

theorem L1_v1 : W1 m ρ c (Proc.devRef .tc main_v1) = k_v1 (F := Ideal) (X1 m c) := by
  show StableHlo.after hostOps0 (W0 m ρ c) (Proc.devRef .tc main_v1) = _
  after_results_simp
  rfl
theorem L1_v3 : W1 m ρ c (Proc.devRef .tc main_v3) = k_v3 (F := Ideal) (X1 m c) := by
  show StableHlo.after hostOps0 (W0 m ρ c) (Proc.devRef .tc main_v3) = _
  after_results_simp
  rfl
theorem L1_v12 : W1 m ρ c (Proc.devRef .tc main_v12) = k_v12 (F := Ideal) (X1 m c) := by
  show StableHlo.after hostOps0 (W0 m ρ c) (Proc.devRef .tc main_v12) = _
  after_results_simp
  rfl
theorem L1_v13 : W1 m ρ c (Proc.devRef .tc main_v13) = k_v13 (F := Ideal) (X0 m c) := by
  show StableHlo.after hostOps0 (W0 m ρ c) (Proc.devRef .tc main_v13) = _
  after_results_simp
  rfl
theorem L1_v25 : W1 m ρ c (Proc.devRef .tc main_v25) = k_v25 (F := Ideal) (X0 m c) (X1 m c) := by
  show StableHlo.after hostOps0 (W0 m ρ c) (Proc.devRef .tc main_v25) = _
  after_results_simp
  rfl
theorem L1_v26 : W1 m ρ c (Proc.devRef .tc main_v26) = k_v26 (F := Ideal) (X3 m c) := by
  show StableHlo.after hostOps0 (W0 m ρ c) (Proc.devRef .tc main_v26) = _
  after_results_simp
  rfl
theorem L1_v27 : W1 m ρ c (Proc.devRef .tc main_v27) = k_v27 (F := Ideal) (X5 m c) := by
  show StableHlo.after hostOps0 (W0 m ρ c) (Proc.devRef .tc main_v27) = _
  after_results_simp
  rfl
theorem L1_v28 : W1 m ρ c (Proc.devRef .tc main_v28) = k_v28 (F := Ideal) (X6 m c) := by
  show StableHlo.after hostOps0 (W0 m ρ c) (Proc.devRef .tc main_v28) = _
  after_results_simp
  rfl
theorem L1_v29 : W1 m ρ c (Proc.devRef .tc main_v29) = k_v29 (F := Ideal) (X7 m c) := by
  show StableHlo.after hostOps0 (W0 m ρ c) (Proc.devRef .tc main_v29) = _
  after_results_simp
  rfl
theorem L1_v30 : W1 m ρ c (Proc.devRef .tc main_v30) = k_v30 (F := Ideal) (X8 m c) := by
  show StableHlo.after hostOps0 (W0 m ρ c) (Proc.devRef .tc main_v30) = _
  after_results_simp
  rfl
theorem L1_arg2 : W1 m ρ c (Proc.devRef .tc main_arg2) = X2 m c := by
  show StableHlo.after hostOps0 (W0 m ρ c) (Proc.devRef .tc main_arg2) = _
  after_results_simp <;> rfl
theorem L1_arg4 : W1 m ρ c (Proc.devRef .tc main_arg4) = X4 m c := by
  show StableHlo.after hostOps0 (W0 m ρ c) (Proc.devRef .tc main_arg4) = _
  after_results_simp <;> rfl
theorem L1_arg9 : W1 m ρ c (Proc.devRef .tc main_arg9) = X9 m c := by
  show StableHlo.after hostOps0 (W0 m ρ c) (Proc.devRef .tc main_arg9) = _
  after_results_simp <;> rfl
theorem L1_arg10 : W1 m ρ c (Proc.devRef .tc main_arg10) = X10 m c := by
  show StableHlo.after hostOps0 (W0 m ρ c) (Proc.devRef .tc main_arg10) = _
  after_results_simp <;> rfl
theorem L1_arg11 : W1 m ρ c (Proc.devRef .tc main_arg11) = X11 m c := by
  show StableHlo.after hostOps0 (W0 m ρ c) (Proc.devRef .tc main_arg11) = _
  after_results_simp <;> rfl
theorem L1_arg12 : W1 m ρ c (Proc.devRef .tc main_arg12) = X12 m c := by
  show StableHlo.after hostOps0 (W0 m ρ c) (Proc.devRef .tc main_arg12) = _
  after_results_simp <;> rfl
theorem L1_arg13 : W1 m ρ c (Proc.devRef .tc main_arg13) = X13 m c := by
  show StableHlo.after hostOps0 (W0 m ρ c) (Proc.devRef .tc main_arg13) = _
  after_results_simp <;> rfl
theorem L1_arg14 : W1 m ρ c (Proc.devRef .tc main_arg14) = X14 m c := by
  show StableHlo.after hostOps0 (W0 m ρ c) (Proc.devRef .tc main_arg14) = _
  after_results_simp <;> rfl
theorem L1_arg15 : W1 m ρ c (Proc.devRef .tc main_arg15) = X15 m c := by
  show StableHlo.after hostOps0 (W0 m ρ c) (Proc.devRef .tc main_arg15) = _
  after_results_simp <;> rfl
theorem L1_arg16 : W1 m ρ c (Proc.devRef .tc main_arg16) = X16 m c := by
  show StableHlo.after hostOps0 (W0 m ρ c) (Proc.devRef .tc main_arg16) = _
  after_results_simp <;> rfl
theorem L1_arg17 : W1 m ρ c (Proc.devRef .tc main_arg17) = X17 m c := by
  show StableHlo.after hostOps0 (W0 m ρ c) (Proc.devRef .tc main_arg17) = _
  after_results_simp <;> rfl
theorem L1_arg18 : W1 m ρ c (Proc.devRef .tc main_arg18) = X18 m c := by
  show StableHlo.after hostOps0 (W0 m ρ c) (Proc.devRef .tc main_arg18) = _
  after_results_simp <;> rfl
theorem L1_arg19 : W1 m ρ c (Proc.devRef .tc main_arg19) = X19 m c := by
  show StableHlo.after hostOps0 (W0 m ρ c) (Proc.devRef .tc main_arg19) = _
  after_results_simp <;> rfl
theorem L1_arg20 : W1 m ρ c (Proc.devRef .tc main_arg20) = X20 m c := by
  show StableHlo.after hostOps0 (W0 m ρ c) (Proc.devRef .tc main_arg20) = _
  after_results_simp <;> rfl
theorem L1_arg21 : W1 m ρ c (Proc.devRef .tc main_arg21) = X21 m c := by
  show StableHlo.after hostOps0 (W0 m ρ c) (Proc.devRef .tc main_arg21) = _
  after_results_simp <;> rfl
theorem L1_arg22 : W1 m ρ c (Proc.devRef .tc main_arg22) = X22 m c := by
  show StableHlo.after hostOps0 (W0 m ρ c) (Proc.devRef .tc main_arg22) = _
  after_results_simp <;> rfl

/-! ## After segment 2 -/

theorem L2_v1 : W2 m ρ c (Proc.devRef .tc main_v1) = k_v1 (F := Ideal) (X1 m c) :=
  (W2_of_ne m ρ c main_v1 (by decide)).trans (L1_v1 m ρ c)
theorem L2_v3 : W2 m ρ c (Proc.devRef .tc main_v3) = k_v3 (F := Ideal) (X1 m c) :=
  (W2_of_ne m ρ c main_v3 (by decide)).trans (L1_v3 m ρ c)
theorem L2_v12 : W2 m ρ c (Proc.devRef .tc main_v12) = k_v12 (F := Ideal) (X1 m c) :=
  ((W2_arr m ρ c 2).trans (((dat0 (F := Ideal) (V1 m ρ) c).arrAt_in 2 rfl _).trans (A_eq0 (V1 m ρ) c 2))).trans (L1_v12 m ρ c)
theorem L2_v31 : W2 m ρ c (Proc.devRef .tc main_v31) = H1 (X0 m c) (X1 m c) (X2 m c) (X3 m c) (X4 m c) (X5 m c) (X6 m c) (X7 m c) (X8 m c) := by
  refine (W2_arr m ρ c 10).trans ((Region0.final_10 (V1 m ρ) c).trans ?_)
  show G0 (W1 m ρ c (Proc.devRef .tc main_v13)) (W1 m ρ c (Proc.devRef .tc main_v25)) (W1 m ρ c (Proc.devRef .tc main_v12)) (W1 m ρ c (Proc.devRef .tc main_arg2)) (W1 m ρ c (Proc.devRef .tc main_v26)) (W1 m ρ c (Proc.devRef .tc main_arg4)) (W1 m ρ c (Proc.devRef .tc main_v27)) (W1 m ρ c (Proc.devRef .tc main_v28)) (W1 m ρ c (Proc.devRef .tc main_v29)) (W1 m ρ c (Proc.devRef .tc main_v30)) = _
  rw [L1_v13 m ρ c, L1_v25 m ρ c, L1_v12 m ρ c, L1_arg2 m ρ c, L1_v26 m ρ c, L1_arg4 m ρ c, L1_v27 m ρ c, L1_v28 m ρ c, L1_v29 m ρ c, L1_v30 m ρ c]
  rfl
theorem L2_arg9 : W2 m ρ c (Proc.devRef .tc main_arg9) = X9 m c :=
  (W2_of_ne m ρ c main_arg9 (by decide)).trans (L1_arg9 m ρ c)
theorem L2_arg10 : W2 m ρ c (Proc.devRef .tc main_arg10) = X10 m c :=
  (W2_of_ne m ρ c main_arg10 (by decide)).trans (L1_arg10 m ρ c)
theorem L2_arg11 : W2 m ρ c (Proc.devRef .tc main_arg11) = X11 m c :=
  (W2_of_ne m ρ c main_arg11 (by decide)).trans (L1_arg11 m ρ c)
theorem L2_arg12 : W2 m ρ c (Proc.devRef .tc main_arg12) = X12 m c :=
  (W2_of_ne m ρ c main_arg12 (by decide)).trans (L1_arg12 m ρ c)
theorem L2_arg13 : W2 m ρ c (Proc.devRef .tc main_arg13) = X13 m c :=
  (W2_of_ne m ρ c main_arg13 (by decide)).trans (L1_arg13 m ρ c)
theorem L2_arg14 : W2 m ρ c (Proc.devRef .tc main_arg14) = X14 m c :=
  (W2_of_ne m ρ c main_arg14 (by decide)).trans (L1_arg14 m ρ c)
theorem L2_arg15 : W2 m ρ c (Proc.devRef .tc main_arg15) = X15 m c :=
  (W2_of_ne m ρ c main_arg15 (by decide)).trans (L1_arg15 m ρ c)
theorem L2_arg16 : W2 m ρ c (Proc.devRef .tc main_arg16) = X16 m c :=
  (W2_of_ne m ρ c main_arg16 (by decide)).trans (L1_arg16 m ρ c)
theorem L2_arg17 : W2 m ρ c (Proc.devRef .tc main_arg17) = X17 m c :=
  (W2_of_ne m ρ c main_arg17 (by decide)).trans (L1_arg17 m ρ c)
theorem L2_arg18 : W2 m ρ c (Proc.devRef .tc main_arg18) = X18 m c :=
  (W2_of_ne m ρ c main_arg18 (by decide)).trans (L1_arg18 m ρ c)
theorem L2_arg19 : W2 m ρ c (Proc.devRef .tc main_arg19) = X19 m c :=
  (W2_of_ne m ρ c main_arg19 (by decide)).trans (L1_arg19 m ρ c)
theorem L2_arg20 : W2 m ρ c (Proc.devRef .tc main_arg20) = X20 m c :=
  (W2_of_ne m ρ c main_arg20 (by decide)).trans (L1_arg20 m ρ c)
theorem L2_arg21 : W2 m ρ c (Proc.devRef .tc main_arg21) = X21 m c :=
  (W2_of_ne m ρ c main_arg21 (by decide)).trans (L1_arg21 m ρ c)
theorem L2_arg22 : W2 m ρ c (Proc.devRef .tc main_arg22) = X22 m c :=
  (W2_of_ne m ρ c main_arg22 (by decide)).trans (L1_arg22 m ρ c)

/-! ## After segment 3 -/

theorem L3_v1 : W3 m ρ c (Proc.devRef .tc main_v1) = k_v1 (F := Ideal) (X1 m c) := by
  show StableHlo.after hostOps1 (W2 m ρ c) (Proc.devRef .tc main_v1) = _
  after_results_simp <;> exact L2_v1 m ρ c
theorem L3_v3 : W3 m ρ c (Proc.devRef .tc main_v3) = k_v3 (F := Ideal) (X1 m c) := by
  show StableHlo.after hostOps1 (W2 m ρ c) (Proc.devRef .tc main_v3) = _
  after_results_simp <;> exact L2_v3 m ρ c
theorem L3_v12 : W3 m ρ c (Proc.devRef .tc main_v12) = k_v12 (F := Ideal) (X1 m c) := by
  show StableHlo.after hostOps1 (W2 m ρ c) (Proc.devRef .tc main_v12) = _
  after_results_simp <;> exact L2_v12 m ρ c
theorem L3_v31 : W3 m ρ c (Proc.devRef .tc main_v31) = H1 (X0 m c) (X1 m c) (X2 m c) (X3 m c) (X4 m c) (X5 m c) (X6 m c) (X7 m c) (X8 m c) := by
  show StableHlo.after hostOps1 (W2 m ρ c) (Proc.devRef .tc main_v31) = _
  after_results_simp <;> exact L2_v31 m ρ c
theorem L3_v43 : W3 m ρ c (Proc.devRef .tc main_v43) = A2 (X0 m c) (X1 m c) (X2 m c) (X3 m c) (X4 m c) (X5 m c) (X6 m c) (X7 m c) (X8 m c) := by
  show StableHlo.after hostOps1 (W2 m ρ c) (Proc.devRef .tc main_v43) = _
  after_results_simp
  rw [L2_v3 m ρ c, L2_v31 m ρ c, L2_v1 m ρ c]
  rfl
theorem L3_v44 : W3 m ρ c (Proc.devRef .tc main_v44) = k_v44 (F := Ideal) (X10 m c) := by
  show StableHlo.after hostOps1 (W2 m ρ c) (Proc.devRef .tc main_v44) = _
  after_results_simp
  rw [L2_arg10 m ρ c]
  rfl
theorem L3_v45 : W3 m ρ c (Proc.devRef .tc main_v45) = k_v45 (F := Ideal) (X12 m c) := by
  show StableHlo.after hostOps1 (W2 m ρ c) (Proc.devRef .tc main_v45) = _
  after_results_simp
  rw [L2_arg12 m ρ c]
  rfl
theorem L3_v46 : W3 m ρ c (Proc.devRef .tc main_v46) = k_v46 (F := Ideal) (X13 m c) := by
  show StableHlo.after hostOps1 (W2 m ρ c) (Proc.devRef .tc main_v46) = _
  after_results_simp
  rw [L2_arg13 m ρ c]
  rfl
theorem L3_v47 : W3 m ρ c (Proc.devRef .tc main_v47) = k_v47 (F := Ideal) (X14 m c) := by
  show StableHlo.after hostOps1 (W2 m ρ c) (Proc.devRef .tc main_v47) = _
  after_results_simp
  rw [L2_arg14 m ρ c]
  rfl
theorem L3_v48 : W3 m ρ c (Proc.devRef .tc main_v48) = k_v48 (F := Ideal) (X15 m c) := by
  show StableHlo.after hostOps1 (W2 m ρ c) (Proc.devRef .tc main_v48) = _
  after_results_simp
  rw [L2_arg15 m ρ c]
  rfl
theorem L3_arg9 : W3 m ρ c (Proc.devRef .tc main_arg9) = X9 m c := by
  show StableHlo.after hostOps1 (W2 m ρ c) (Proc.devRef .tc main_arg9) = _
  after_results_simp <;> exact L2_arg9 m ρ c
theorem L3_arg11 : W3 m ρ c (Proc.devRef .tc main_arg11) = X11 m c := by
  show StableHlo.after hostOps1 (W2 m ρ c) (Proc.devRef .tc main_arg11) = _
  after_results_simp <;> exact L2_arg11 m ρ c
theorem L3_arg16 : W3 m ρ c (Proc.devRef .tc main_arg16) = X16 m c := by
  show StableHlo.after hostOps1 (W2 m ρ c) (Proc.devRef .tc main_arg16) = _
  after_results_simp <;> exact L2_arg16 m ρ c
theorem L3_arg17 : W3 m ρ c (Proc.devRef .tc main_arg17) = X17 m c := by
  show StableHlo.after hostOps1 (W2 m ρ c) (Proc.devRef .tc main_arg17) = _
  after_results_simp <;> exact L2_arg17 m ρ c
theorem L3_arg18 : W3 m ρ c (Proc.devRef .tc main_arg18) = X18 m c := by
  show StableHlo.after hostOps1 (W2 m ρ c) (Proc.devRef .tc main_arg18) = _
  after_results_simp <;> exact L2_arg18 m ρ c
theorem L3_arg19 : W3 m ρ c (Proc.devRef .tc main_arg19) = X19 m c := by
  show StableHlo.after hostOps1 (W2 m ρ c) (Proc.devRef .tc main_arg19) = _
  after_results_simp <;> exact L2_arg19 m ρ c
theorem L3_arg20 : W3 m ρ c (Proc.devRef .tc main_arg20) = X20 m c := by
  show StableHlo.after hostOps1 (W2 m ρ c) (Proc.devRef .tc main_arg20) = _
  after_results_simp <;> exact L2_arg20 m ρ c
theorem L3_arg21 : W3 m ρ c (Proc.devRef .tc main_arg21) = X21 m c := by
  show StableHlo.after hostOps1 (W2 m ρ c) (Proc.devRef .tc main_arg21) = _
  after_results_simp <;> exact L2_arg21 m ρ c
theorem L3_arg22 : W3 m ρ c (Proc.devRef .tc main_arg22) = X22 m c := by
  show StableHlo.after hostOps1 (W2 m ρ c) (Proc.devRef .tc main_arg22) = _
  after_results_simp <;> exact L2_arg22 m ρ c

/-! ## After segment 4 -/

theorem L4_v1 : W4 m ρ c (Proc.devRef .tc main_v1) = k_v1 (F := Ideal) (X1 m c) :=
  (W4_of_ne m ρ c main_v1 (by decide)).trans (L3_v1 m ρ c)
theorem L4_v3 : W4 m ρ c (Proc.devRef .tc main_v3) = k_v3 (F := Ideal) (X1 m c) :=
  (W4_of_ne m ρ c main_v3 (by decide)).trans (L3_v3 m ρ c)
theorem L4_v12 : W4 m ρ c (Proc.devRef .tc main_v12) = k_v12 (F := Ideal) (X1 m c) :=
  ((W4_arr m ρ c 2).trans (((dat1 (F := Ideal) (V3 m ρ) c).arrAt_in 2 rfl _).trans (A_eq1 (V3 m ρ) c 2))).trans (L3_v12 m ρ c)
theorem L4_v49_0 : W4 m ρ c (Proc.devRef .tc main_v49_0) = H2 (X0 m c) (X1 m c) (X2 m c) (X3 m c) (X4 m c) (X5 m c) (X6 m c) (X7 m c) (X8 m c) (X9 m c) (X10 m c) (X11 m c) (X12 m c) (X13 m c) (X14 m c) (X15 m c) := by
  refine (W4_arr m ρ c 11).trans ((Region1.final_11 (V3 m ρ) c).trans ?_)
  show G0 (W3 m ρ c (Proc.devRef .tc main_v31)) (W3 m ρ c (Proc.devRef .tc main_v43)) (W3 m ρ c (Proc.devRef .tc main_v12)) (W3 m ρ c (Proc.devRef .tc main_arg9)) (W3 m ρ c (Proc.devRef .tc main_v44)) (W3 m ρ c (Proc.devRef .tc main_arg11)) (W3 m ρ c (Proc.devRef .tc main_v45)) (W3 m ρ c (Proc.devRef .tc main_v46)) (W3 m ρ c (Proc.devRef .tc main_v47)) (W3 m ρ c (Proc.devRef .tc main_v48)) = _
  rw [L3_v31 m ρ c, L3_v43 m ρ c, L3_v12 m ρ c, L3_arg9 m ρ c, L3_v44 m ρ c, L3_arg11 m ρ c, L3_v45 m ρ c, L3_v46 m ρ c, L3_v47 m ρ c, L3_v48 m ρ c]
  rfl
theorem L4_v49_1 : W4 m ρ c (Proc.devRef .tc main_v49_1) = Y (X0 m c) (X1 m c) (X2 m c) (X3 m c) (X4 m c) (X5 m c) (X6 m c) (X7 m c) (X8 m c) (X9 m c) (X10 m c) (X11 m c) (X12 m c) (X13 m c) (X14 m c) (X15 m c) (X16 m c) := by
  refine (W4_arr m ρ c 12).trans ((Region1.final_12 (V3 m ρ) c).trans ?_)
  show G1b (W3 m ρ c (Proc.devRef .tc main_v31)) (W3 m ρ c (Proc.devRef .tc main_v43)) (W3 m ρ c (Proc.devRef .tc main_v12)) (W3 m ρ c (Proc.devRef .tc main_arg9)) (W3 m ρ c (Proc.devRef .tc main_v44)) (W3 m ρ c (Proc.devRef .tc main_arg11)) (W3 m ρ c (Proc.devRef .tc main_v45)) (W3 m ρ c (Proc.devRef .tc main_v46)) (W3 m ρ c (Proc.devRef .tc main_v47)) (W3 m ρ c (Proc.devRef .tc main_v48)) (W3 m ρ c (Proc.devRef .tc main_arg16)) = _
  rw [L3_v31 m ρ c, L3_v43 m ρ c, L3_v12 m ρ c, L3_arg9 m ρ c, L3_v44 m ρ c, L3_arg11 m ρ c, L3_v45 m ρ c, L3_v46 m ρ c, L3_v47 m ρ c, L3_v48 m ρ c, L3_arg16 m ρ c]
  rfl
theorem L4_arg17 : W4 m ρ c (Proc.devRef .tc main_arg17) = X17 m c :=
  (W4_of_ne m ρ c main_arg17 (by decide)).trans (L3_arg17 m ρ c)
theorem L4_arg18 : W4 m ρ c (Proc.devRef .tc main_arg18) = X18 m c :=
  (W4_of_ne m ρ c main_arg18 (by decide)).trans (L3_arg18 m ρ c)
theorem L4_arg19 : W4 m ρ c (Proc.devRef .tc main_arg19) = X19 m c :=
  (W4_of_ne m ρ c main_arg19 (by decide)).trans (L3_arg19 m ρ c)
theorem L4_arg20 : W4 m ρ c (Proc.devRef .tc main_arg20) = X20 m c :=
  (W4_of_ne m ρ c main_arg20 (by decide)).trans (L3_arg20 m ρ c)
theorem L4_arg21 : W4 m ρ c (Proc.devRef .tc main_arg21) = X21 m c :=
  (W4_of_ne m ρ c main_arg21 (by decide)).trans (L3_arg21 m ρ c)
theorem L4_arg22 : W4 m ρ c (Proc.devRef .tc main_arg22) = X22 m c :=
  (W4_of_ne m ρ c main_arg22 (by decide)).trans (L3_arg22 m ρ c)

/-! ## After segment 5 -/

theorem L5_v12 : W5 m ρ c (Proc.devRef .tc main_v12) = k_v12 (F := Ideal) (X1 m c) := by
  show StableHlo.after hostOps2 (W4 m ρ c) (Proc.devRef .tc main_v12) = _
  after_results_simp <;> exact L4_v12 m ρ c
theorem L5_v49_0 : W5 m ρ c (Proc.devRef .tc main_v49_0) = H2 (X0 m c) (X1 m c) (X2 m c) (X3 m c) (X4 m c) (X5 m c) (X6 m c) (X7 m c) (X8 m c) (X9 m c) (X10 m c) (X11 m c) (X12 m c) (X13 m c) (X14 m c) (X15 m c) := by
  show StableHlo.after hostOps2 (W4 m ρ c) (Proc.devRef .tc main_v49_0) = _
  after_results_simp <;> exact L4_v49_0 m ρ c
theorem L5_v61 : W5 m ρ c (Proc.devRef .tc main_v61) = k_v61 (F := Ideal) (k_v1 (F := Ideal) (X1 m c)) (k_v3 (F := Ideal) (X1 m c)) (Y (X0 m c) (X1 m c) (X2 m c) (X3 m c) (X4 m c) (X5 m c) (X6 m c) (X7 m c) (X8 m c) (X9 m c) (X10 m c) (X11 m c) (X12 m c) (X13 m c) (X14 m c) (X15 m c) (X16 m c)) := by
  show StableHlo.after hostOps2 (W4 m ρ c) (Proc.devRef .tc main_v61) = _
  after_results_simp
  rw [L4_v3 m ρ c, L4_v49_1 m ρ c, L4_v1 m ρ c]
  rfl
theorem L5_v62 : W5 m ρ c (Proc.devRef .tc main_v62) = k_v62 (F := Ideal) (X17 m c) := by
  show StableHlo.after hostOps2 (W4 m ρ c) (Proc.devRef .tc main_v62) = _
  after_results_simp
  rw [L4_arg17 m ρ c]
  rfl
theorem L5_v63 : W5 m ρ c (Proc.devRef .tc main_v63) = k_v63 (F := Ideal) (X20 m c) := by
  show StableHlo.after hostOps2 (W4 m ρ c) (Proc.devRef .tc main_v63) = _
  after_results_simp
  rw [L4_arg20 m ρ c]
  rfl
theorem L5_v64 : W5 m ρ c (Proc.devRef .tc main_v64) = k_v64 (F := Ideal) (X22 m c) := by
  show StableHlo.after hostOps2 (W4 m ρ c) (Proc.devRef .tc main_v64) = _
  after_results_simp
  rw [L4_arg22 m ρ c]
  rfl
theorem L5_arg18 : W5 m ρ c (Proc.devRef .tc main_arg18) = X18 m c := by
  show StableHlo.after hostOps2 (W4 m ρ c) (Proc.devRef .tc main_arg18) = _
  after_results_simp <;> exact L4_arg18 m ρ c
theorem L5_arg19 : W5 m ρ c (Proc.devRef .tc main_arg19) = X19 m c := by
  show StableHlo.after hostOps2 (W4 m ρ c) (Proc.devRef .tc main_arg19) = _
  after_results_simp <;> exact L4_arg19 m ρ c
theorem L5_arg21 : W5 m ρ c (Proc.devRef .tc main_arg21) = X21 m c := by
  show StableHlo.after hostOps2 (W4 m ρ c) (Proc.devRef .tc main_arg21) = _
  after_results_simp <;> exact L4_arg21 m ρ c

/-! ## The result -/

/-- The result array at the end of the run is OUT of the arguments as launched. -/
theorem value : W6 m ρ c (Proc.devRef .tc main_v65) = OUT (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) (X21 m c) (X22 m c) := by
  refine (W6_arr m ρ c 9).trans ((Region2.final_9 (V5 m ρ) c).trans ?_)
  show G2 (W5 m ρ c (Proc.devRef .tc main_v49_0)) (W5 m ρ c (Proc.devRef .tc main_v61)) (W5 m ρ c (Proc.devRef .tc main_v12)) (W5 m ρ c (Proc.devRef .tc main_arg18)) (W5 m ρ c (Proc.devRef .tc main_v62)) (W5 m ρ c (Proc.devRef .tc main_arg19)) (W5 m ρ c (Proc.devRef .tc main_v63)) (W5 m ρ c (Proc.devRef .tc main_arg21)) (W5 m ρ c (Proc.devRef .tc main_v64)) = _
  rw [L5_v49_0 m ρ c, L5_v61 m ρ c, L5_v12 m ρ c, L5_arg18 m ρ c, L5_v62 m ρ c, L5_arg19 m ρ c, L5_v63 m ρ c, L5_arg21 m ρ c, L5_v64 m ρ c]
  rfl

end Cert.Sage.Fold

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.RefFold.lean ====
/-
  The reference program's fold, read back. Its 160 host operations are taken in four windows — the first SAGE layer,
  the second, the third, and the dense head with the log-softmax — and after each window the buffer the next one
  reads holds that layer's stage of the arguments (the stages of the read-at-an-index module), every argument and
  the two edge rows being untouched. The windows concatenate to the whole list, so the result buffer of the whole
  fold holds the last stage of the arguments. Keeping each earlier layer folded as a named stage is what keeps the
  composed terms small: a layer's output is read twice by the next layer.
-/
import proofs.«150929_j57071525429489_2_alg».proof.Proof.RefRunP
import proofs.«150929_j57071525429489_2_alg».proof.Proof.RefReadP
import proofs.«150929_j57071525429489_2_alg».proof.Proof.LibTypedRefs
import Idealize.ShloMosaic.Lib.Pipeline.Frame

set_option maxRecDepth 16384

noncomputable section

namespace Cert.Sage.RefFold

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-! ## The four windows -/

abbrev wA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst (constant S_ .f32 0x00000000#32),
    unary main_cst main_v11 (broadcastInDim S50000x96 ![] bcast_S_S50000x96 : (⟨S_, .f32⟩ : BufTy).Contents (Elt F) → (⟨S50000x96, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x96 ![0, 1] bcast_S50000x1_S50000x96_0_1 : (⟨S50000x1, .f32⟩ : BufTy).Contents (Elt F) → (⟨S50000x96, .f32⟩ : BufTy).Contents (Elt F)),
    binary main_v13 main_v21 main_v22 (Host.divf : (⟨S50000x96, .f32⟩ : BufTy).Contents (Elt F) → (⟨S50000x96, .f32⟩ : BufTy).Contents (Elt F) → (⟨S50000x96, .f32⟩ : BufTy).Contents (Elt F)),
    binary main_v22 main_arg2 main_v23 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v23 main_v25 main_v26 (addf : (⟨S50000x256, .f32⟩ : BufTy).Contents (Elt F) → (⟨S50000x256, .f32⟩ : BufTy).Contents (Elt F) → (⟨S50000x256, .f32⟩ : BufTy).Contents (Elt F)),
    binary main_arg0 main_arg4 main_v27 ((fun l r => Host.dotGeneral dot_S50000x96_S96x256_S50000x256_1_0_0_1_n_n none l r) : (⟨S50000x96, .f32⟩ : BufTy).Contents (Elt F) → (⟨S96x256, .f32⟩ : BufTy).Contents (Elt F) → (⟨S50000x256, .f32⟩ : BufTy).Contents (Elt F)),
    binary main_v26 main_v27 main_v28 (addf : (⟨S50000x256, .f32⟩ : BufTy).Contents (Elt F) → (⟨S50000x256, .f32⟩ : BufTy).Contents (Elt F) → (⟨S50000x256, .f32⟩ : BufTy).Contents (Elt F)),
    unary main_arg7 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v28 main_v30 main_v31 (subf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v32 (broadcastInDim S256 ![] bcast_S_S256 : (⟨S_, .f32⟩ : BufTy).Contents (Elt F) → (⟨S256, .f32⟩ : BufTy).Contents (Elt F)),
    binary main_arg8 main_v32 main_v33 (addf : (⟨S256, .f32⟩ : BufTy).Contents (Elt F) → (⟨S256, .f32⟩ : BufTy).Contents (Elt F) → (⟨S256, .f32⟩ : BufTy).Contents (Elt F)),
    unary main_v33 main_v34 (Host.sqrt : (⟨S256, .f32⟩ : BufTy).Contents (Elt F) → (⟨S256, .f32⟩ : BufTy).Contents (Elt F)),
    binary main_arg5 main_v34 main_v35 (Host.divf : (⟨S256, .f32⟩ : BufTy).Contents (Elt F) → (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v31 main_v37 main_v38 (mulf : (⟨S50000x256, .f32⟩ : BufTy).Contents (Elt F) → (⟨S50000x256, .f32⟩ : BufTy).Contents (Elt F) → (⟨S50000x256, .f32⟩ : BufTy).Contents (Elt F)),
    unary main_arg6 main_v39 (broadcastInDim S1x256 ![1] bcast_S256_S1x256_1 : (⟨S256, .f32⟩ : BufTy).Contents (Elt F) → (⟨S1x256, .f32⟩ : BufTy).Contents (Elt F)),
    unary main_v39 main_v40 (broadcastInDim S50000x256 ![0, 1] bcast_S1x256_S50000x256_0_1 : (⟨S1x256, .f32⟩ : BufTy).Contents (Elt F) → (⟨S50000x256, .f32⟩ : BufTy).Contents (Elt F)),
    binary main_v38 main_v40 main_v41 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v41) (TRef.of (T := ⟨S50000x256, .f32⟩) main_call0_v0) (TRef.of (T := ⟨S50000x256, .f32⟩) main_v42) maximumf ]

abbrev wB : List (HloOp τ sig (Elt F)) :=
  [ nullary main_c_5 (constantI S_ 32 0#32),
    unary main_c_5 main_v43 (broadcastInDim S800000 ![] bcast_S_S800000 : (⟨S_, .i32⟩ : BufTy).Contents (Elt F) → (⟨S800000, .i32⟩ : BufTy).Contents (Elt F)),
    binary main_v1 main_v43 main_v44 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v45 (broadcastInDim S800000 ![] bcast_S_S800000 : (⟨S_, .i32⟩ : BufTy).Contents (Elt F) → (⟨S800000, .i32⟩ : BufTy).Contents (Elt F)),
    binary main_v1 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_v1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v42 main_v48 main_v49 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v50 (broadcastInDim S50000x256 ![] bcast_S_S50000x256 : (⟨S_, .f32⟩ : BufTy).Contents (Elt F) → (⟨S50000x256, .f32⟩ : BufTy).Contents (Elt F)),
    unary main_v3 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_8 (constant S_ .f32 0x3F800000#32),
    unary main_cst_8 main_v53 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v54 (broadcastInDim S50000 ![] bcast_S_S50000 : (⟨S_, .f32⟩ : BufTy).Contents (Elt F) → (⟨S50000, .f32⟩ : BufTy).Contents (Elt F)),
    unary main_v3 main_v55 (broadcastInDim S800000x1 ![0] bcast_S800000_S800000x1_0 : (⟨S800000, .i32⟩ : BufTy).Contents (Elt F) → (⟨S800000x1, .i32⟩ : BufTy).Contents (Elt F)),
    ternary main_v54 main_v55 main_v53 main_v56 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v57 (broadcastInDim S50000 ![] bcast_S_S50000 : (⟨S_, .f32⟩ : BufTy).Contents (Elt F) → (⟨S50000, .f32⟩ : BufTy).Contents (Elt F)),
    binary main_v56 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (broadcastInDim S50000x1 ![0] bcast_S50000_S50000x1_0 : (⟨S50000, .f32⟩ : BufTy).Contents (Elt F) → (⟨S50000x1, .f32⟩ : BufTy).Contents (Elt F)),
    unary main_v59 main_v60 (broadcastInDim S50000x256 ![0, 1] bcast_S50000x1_S50000x256_0_1 : (⟨S50000x1, .f32⟩ : BufTy).Contents (Elt F) → (⟨S50000x256, .f32⟩ : BufTy).Contents (Elt F)),
    binary main_v52 main_v60 main_v61 (Host.divf : (⟨S50000x256, .f32⟩ : BufTy).Contents (Elt F) → (⟨S50000x256, .f32⟩ : BufTy).Contents (Elt F) → (⟨S50000x256, .f32⟩ : BufTy).Contents (Elt F)),
    binary main_v61 main_arg9 main_v62 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg10 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v62 main_v64 main_v65 (addf : (⟨S50000x256, .f32⟩ : BufTy).Contents (Elt F) → (⟨S50000x256, .f32⟩ : BufTy).Contents (Elt F) → (⟨S50000x256, .f32⟩ : BufTy).Contents (Elt F)),
    binary main_v42 main_arg11 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v65 main_v66 main_v67 (addf : (⟨S50000x256, .f32⟩ : BufTy).Contents (Elt F) → (⟨S50000x256, .f32⟩ : BufTy).Contents (Elt F) → (⟨S50000x256, .f32⟩ : BufTy).Contents (Elt F)),
    unary main_arg14 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v67 main_v69 main_v70 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v71 (broadcastInDim S256 ![] bcast_S_S256 : (⟨S_, .f32⟩ : BufTy).Contents (Elt F) → (⟨S256, .f32⟩ : BufTy).Contents (Elt F)),
    binary main_arg15 main_v71 main_v72 (addf : (⟨S256, .f32⟩ : BufTy).Contents (Elt F) → (⟨S256, .f32⟩ : BufTy).Contents (Elt F) → (⟨S256, .f32⟩ : BufTy).Contents (Elt F)),
    unary main_v72 main_v73 (Host.sqrt : (⟨S256, .f32⟩ : BufTy).Contents (Elt F) → (⟨S256, .f32⟩ : BufTy).Contents (Elt F)),
    binary main_arg12 main_v73 main_v74 (Host.divf : (⟨S256, .f32⟩ : BufTy).Contents (Elt F) → (⟨S256, .f32⟩ : BufTy).Contents (Elt F) → (⟨S256, .f32⟩ : BufTy).Contents (Elt F)),
    unary main_v74 main_v75 (broadcastInDim S1x256 ![1] bcast_S256_S1x256_1 : (⟨S256, .f32⟩ : BufTy).Contents (Elt F) → (⟨S1x256, .f32⟩ : BufTy).Contents (Elt F)),
    unary main_v75 main_v76 (broadcastInDim S50000x256 ![0, 1] bcast_S1x256_S50000x256_0_1 : (⟨S1x256, .f32⟩ : BufTy).Contents (Elt F) → (⟨S50000x256, .f32⟩ : BufTy).Contents (Elt F)),
    binary main_v70 main_v76 main_v77 (mulf : (⟨S50000x256, .f32⟩ : BufTy).Contents (Elt F) → (⟨S50000x256, .f32⟩ : BufTy).Contents (Elt F) → (⟨S50000x256, .f32⟩ : BufTy).Contents (Elt F)),
    unary main_arg13 main_v78 (broadcastInDim S1x256 ![1] bcast_S256_S1x256_1 : (⟨S256, .f32⟩ : BufTy).Contents (Elt F) → (⟨S1x256, .f32⟩ : BufTy).Contents (Elt F)),
    unary main_v78 main_v79 (broadcastInDim S50000x256 ![0, 1] bcast_S1x256_S50000x256_0_1 : (⟨S1x256, .f32⟩ : BufTy).Contents (Elt F) → (⟨S50000x256, .f32⟩ : BufTy).Contents (Elt F)),
    binary main_v77 main_v79 main_v80 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v80) (TRef.of (T := ⟨S50000x256, .f32⟩) main_call1_v0) (TRef.of (T := ⟨S50000x256, .f32⟩) main_v81) maximumf ]

abbrev wC : List (HloOp τ sig (Elt F)) :=
  [ nullary main_c_12 (constantI S_ 32 0#32),
    unary main_c_12 main_v82 (broadcastInDim S800000 ![] bcast_S_S800000 : (⟨S_, .i32⟩ : BufTy).Contents (Elt F) → (⟨S800000, .i32⟩ : BufTy).Contents (Elt F)),
    binary main_v1 main_v82 main_v83 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v84 (broadcastInDim S800000 ![] bcast_S_S800000 : (⟨S_, .i32⟩ : BufTy).Contents (Elt F) → (⟨S800000, .i32⟩ : BufTy).Contents (Elt F)),
    binary main_v1 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v81 main_v87 main_v88 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v89 (broadcastInDim S50000x256 ![] bcast_S_S50000x256 : (⟨S_, .f32⟩ : BufTy).Contents (Elt F) → (⟨S50000x256, .f32⟩ : BufTy).Contents (Elt F)),
    unary main_v3 main_v90 (broadcastInDim S800000x1 ![0] bcast_S800000_S800000x1_0 : (⟨S800000, .i32⟩ : BufTy).Contents (Elt F) → (⟨S800000x1, .i32⟩ : BufTy).Contents (Elt F)),
    ternary main_v89 main_v90 main_v88 main_v91 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_15 (constant S_ .f32 0x3F800000#32),
    unary main_cst_15 main_v92 (broadcastInDim S800000 ![] bcast_S_S800000 : (⟨S_, .f32⟩ : BufTy).Contents (Elt F) → (⟨S800000, .f32⟩ : BufTy).Contents (Elt F)),
    nullary main_cst_16 (constant S_ .f32 0x00000000#32),
    unary main_cst_16 main_v93 (broadcastInDim S50000 ![] bcast_S_S50000 : (⟨S_, .f32⟩ : BufTy).Contents (Elt F) → (⟨S50000, .f32⟩ : BufTy).Contents (Elt F)),
    unary main_v3 main_v94 (broadcastInDim S800000x1 ![0] bcast_S800000_S800000x1_0 : (⟨S800000, .i32⟩ : BufTy).Contents (Elt F) → (⟨S800000x1, .i32⟩ : BufTy).Contents (Elt F)),
    ternary main_v93 main_v94 main_v92 main_v95 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v96 (broadcastInDim S50000 ![] bcast_S_S50000 : (⟨S_, .f32⟩ : BufTy).Contents (Elt F) → (⟨S50000, .f32⟩ : BufTy).Contents (Elt F)),
    binary main_v95 main_v96 main_v97 (maximumf : (⟨S50000, .f32⟩ : BufTy).Contents (Elt F) → (⟨S50000, .f32⟩ : BufTy).Contents (Elt F) → (⟨S50000, .f32⟩ : BufTy).Contents (Elt F)),
    unary main_v97 main_v98 (broadcastInDim S50000x1 ![0] bcast_S50000_S50000x1_0 : (⟨S50000, .f32⟩ : BufTy).Contents (Elt F) → (⟨S50000x1, .f32⟩ : BufTy).Contents (Elt F)),
    unary main_v98 main_v99 (broadcastInDim S50000x256 ![0, 1] bcast_S50000x1_S50000x256_0_1 : (⟨S50000x1, .f32⟩ : BufTy).Contents (Elt F) → (⟨S50000x256, .f32⟩ : BufTy).Contents (Elt F)),
    binary main_v91 main_v99 main_v100 (Host.divf : (⟨S50000x256, .f32⟩ : BufTy).Contents (Elt F) → (⟨S50000x256, .f32⟩ : BufTy).Contents (Elt F) → (⟨S50000x256, .f32⟩ : BufTy).Contents (Elt F)),
    binary main_v100 main_arg16 main_v101 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg17 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)),
    binary main_v81 main_arg18 main_v105 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v104 main_v105 main_v106 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v106) (TRef.of (T := ⟨S50000x128, .f32⟩) main_call2_v0) (TRef.of (T := ⟨S50000x128, .f32⟩) main_v107) maximumf ]

abbrev wD : List (HloOp τ sig (Elt F)) :=
  [ binary main_v107 main_arg19 main_v108 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg20 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v111) (TRef.of (T := ⟨S50000x64, .f32⟩) main_call3_v0) (TRef.of (T := ⟨S50000x64, .f32⟩) main_v112) maximumf,
    binary main_v112 main_arg21 main_v113 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    unary main_arg22 main_v114 (broadcastInDim S1x16 ![1] bcast_S16_S1x16_1 : (⟨S16, .f32⟩ : BufTy).Contents (Elt F) → (⟨S1x16, .f32⟩ : BufTy).Contents (Elt F)),
    unary main_v114 main_v115 (broadcastInDim S50000x16 ![0, 1] bcast_S1x16_S50000x16_0_1 : (⟨S1x16, .f32⟩ : BufTy).Contents (Elt F) → (⟨S50000x16, .f32⟩ : BufTy).Contents (Elt F)),
    binary main_v113 main_v115 main_v116 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call4_cst) (constant S_ .f32 0xFF800000#32),
    TRef.binary (TRef.of (T := ⟨S50000x16, .f32⟩) main_v116) (TRef.of (T := ⟨S_, .f32⟩) main_call4_cst) (TRef.of (T := ⟨S50000, .f32⟩) main_call4_v0) (fun x v => Host.reduce FloatOps.maximumf x v reducesTo_S50000x16_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x16, .f32⟩) main_call4_v4) (broadcastInDim S50000x16 ![0, 1] bcast_S50000x1_S50000x16_0_1),
    TRef.binary (TRef.of (T := ⟨S50000x16, .f32⟩) main_v116) (TRef.of (T := ⟨S50000x16, .f32⟩) main_call4_v4) (TRef.of (T := ⟨S50000x16, .f32⟩) main_call4_v5) subf,
    TRef.unary (TRef.of (T := ⟨S50000x16, .f32⟩) main_call4_v5) (TRef.of (T := ⟨S50000x16, .f32⟩) main_call4_v6) Host.exp,
    TRef.nullary (TRef.of (T := ⟨S_, .f32⟩) main_call4_cst_1) (constant S_ .f32 0x00000000#32),
    TRef.binary (TRef.of (T := ⟨S50000x16, .f32⟩) main_call4_v6) (TRef.of (T := ⟨S_, .f32⟩) main_call4_cst_1) (TRef.of (T := ⟨S50000, .f32⟩) main_call4_v7) (fun x v => Host.reduceAdd x v reducesTo_S50000x16_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x16, .f32⟩) main_call4_v10) (broadcastInDim S50000x16 ![0, 1] bcast_S50000x1_S50000x16_0_1),
    TRef.binary (TRef.of (T := ⟨S50000x16, .f32⟩) main_call4_v5) (TRef.of (T := ⟨S50000x16, .f32⟩) main_call4_v10) (TRef.of (T := ⟨S50000x16, .f32⟩) main_v117) subf ]

/-- The windows in order are the program's operations. -/
theorem ops_split : (ops : List (HloOp τ sig (Elt F))) = wA ++ (wB ++ (wC ++ wD)) := rfl

variable (V : Valuation τ sig (Elt F))

/-! ## What each window keeps -/

theorem keepA_arg9 : after wA V (Proc.devRef .tc main_arg9) = V (Proc.devRef .tc main_arg9) := by after_results_simp
theorem keepA_arg10 : after wA V (Proc.devRef .tc main_arg10) = V (Proc.devRef .tc main_arg10) := by after_results_simp
theorem keepA_arg11 : after wA V (Proc.devRef .tc main_arg11) = V (Proc.devRef .tc main_arg11) := by after_results_simp
theorem keepA_arg12 : after wA V (Proc.devRef .tc main_arg12) = V (Proc.devRef .tc main_arg12) := by after_results_simp
theorem keepA_arg13 : after wA V (Proc.devRef .tc main_arg13) = V (Proc.devRef .tc main_arg13) := by after_results_simp
theorem keepA_arg14 : after wA V (Proc.devRef .tc main_arg14) = V (Proc.devRef .tc main_arg14) := by after_results_simp
theorem keepA_arg15 : after wA V (Proc.devRef .tc main_arg15) = V (Proc.devRef .tc main_arg15) := by after_results_simp
theorem keepA_arg16 : after wA V (Proc.devRef .tc main_arg16) = V (Proc.devRef .tc main_arg16) := by after_results_simp
theorem keepA_arg17 : after wA V (Proc.devRef .tc main_arg17) = V (Proc.devRef .tc main_arg17) := by after_results_simp
theorem keepA_arg18 : after wA V (Proc.devRef .tc main_arg18) = V (Proc.devRef .tc main_arg18) := by after_results_simp
theorem keepA_arg19 : after wA V (Proc.devRef .tc main_arg19) = V (Proc.devRef .tc main_arg19) := by after_results_simp
theorem keepA_arg20 : after wA V (Proc.devRef .tc main_arg20) = V (Proc.devRef .tc main_arg20) := by after_results_simp
theorem keepA_arg21 : after wA V (Proc.devRef .tc main_arg21) = V (Proc.devRef .tc main_arg21) := by after_results_simp
theorem keepA_arg22 : after wA V (Proc.devRef .tc main_arg22) = V (Proc.devRef .tc main_arg22) := by after_results_simp
theorem keepB_v1 : after wB V (Proc.devRef .tc main_v1) = V (Proc.devRef .tc main_v1) := by after_results_simp
theorem keepB_v3 : after wB V (Proc.devRef .tc main_v3) = V (Proc.devRef .tc main_v3) := by after_results_simp
theorem keepB_arg16 : after wB V (Proc.devRef .tc main_arg16) = V (Proc.devRef .tc main_arg16) := by after_results_simp
theorem keepB_arg17 : after wB V (Proc.devRef .tc main_arg17) = V (Proc.devRef .tc main_arg17) := by after_results_simp
theorem keepB_arg18 : after wB V (Proc.devRef .tc main_arg18) = V (Proc.devRef .tc main_arg18) := by after_results_simp
theorem keepB_arg19 : after wB V (Proc.devRef .tc main_arg19) = V (Proc.devRef .tc main_arg19) := by after_results_simp
theorem keepB_arg20 : after wB V (Proc.devRef .tc main_arg20) = V (Proc.devRef .tc main_arg20) := by after_results_simp
theorem keepB_arg21 : after wB V (Proc.devRef .tc main_arg21) = V (Proc.devRef .tc main_arg21) := by after_results_simp
theorem keepB_arg22 : after wB V (Proc.devRef .tc main_arg22) = V (Proc.devRef .tc main_arg22) := by after_results_simp
theorem keepC_arg19 : after wC V (Proc.devRef .tc main_arg19) = V (Proc.devRef .tc main_arg19) := by after_results_simp
theorem keepC_arg20 : after wC V (Proc.devRef .tc main_arg20) = V (Proc.devRef .tc main_arg20) := by after_results_simp
theorem keepC_arg21 : after wC V (Proc.devRef .tc main_arg21) = V (Proc.devRef .tc main_arg21) := by after_results_simp
theorem keepC_arg22 : after wC V (Proc.devRef .tc main_arg22) = V (Proc.devRef .tc main_arg22) := by after_results_simp

/-! ## What each window computes -/

theorem A_v1 : after wA V (Proc.devRef .tc main_v1) = val_main_v1 (F := F) (V (Proc.devRef .tc main_arg1)) := by
  after_results_simp
  try simp only [Cert.LibTypedRefs.ofBuf_toBuf, Cert.LibTypedRefs.toBuf_ofBuf]
  rfl
theorem A_v3 : after wA V (Proc.devRef .tc main_v3) = val_main_v3 (F := F) (V (Proc.devRef .tc main_arg1)) := by
  after_results_simp
  try simp only [Cert.LibTypedRefs.ofBuf_toBuf, Cert.LibTypedRefs.toBuf_ofBuf]
  rfl
theorem A_v42 : after wA V (Proc.devRef .tc main_v42) = val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  try simp only [Cert.LibTypedRefs.ofBuf_toBuf, Cert.LibTypedRefs.toBuf_ofBuf]
  rfl

theorem B_v81 (x0 : (⟨S50000x96, .f32⟩ : BufTy).Contents (Elt F)) (x1 : (⟨S2x800000, .i32⟩ : BufTy).Contents (Elt F)) (x2 : (⟨S96x256, .f32⟩ : BufTy).Contents (Elt F)) (x3 : (⟨S256, .f32⟩ : BufTy).Contents (Elt F)) (x4 : (⟨S96x256, .f32⟩ : BufTy).Contents (Elt F)) (x5 : (⟨S256, .f32⟩ : BufTy).Contents (Elt F)) (x6 : (⟨S256, .f32⟩ : BufTy).Contents (Elt F)) (x7 : (⟨S256, .f32⟩ : BufTy).Contents (Elt F)) (x8 : (⟨S256, .f32⟩ : BufTy).Contents (Elt F)) (x9 : (⟨S256x256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F)) (x15 : (⟨S256, .f32⟩ : BufTy).Contents (Elt F))
    (h42 : V (Proc.devRef .tc main_v42) = val_main_v42 (F := F) x0 x1 x2 x3 x4 x5 x6 x7 x8)
    (h1 : V (Proc.devRef .tc main_v1) = val_main_v1 (F := F) x1) (h3 : V (Proc.devRef .tc main_v3) = val_main_v3 (F := F) x1)
    (h9a : V (Proc.devRef .tc main_arg9) = x9) (h10a : V (Proc.devRef .tc main_arg10) = x10) (h11a : V (Proc.devRef .tc main_arg11) = x11) (h12a : V (Proc.devRef .tc main_arg12) = x12) (h13a : V (Proc.devRef .tc main_arg13) = x13) (h14a : V (Proc.devRef .tc main_arg14) = x14) (h15a : V (Proc.devRef .tc main_arg15) = x15) :
    after wB V (Proc.devRef .tc main_v81) = val_main_v81 (F := F) x0 x1 x2 x3 x4 x5 x6 x7 x8 x9 x10 x11 x12 x13 x14 x15 := by
  after_results_simp
  simp only [h42, h1, h3, h9a, h10a, h11a, h12a, h13a, h14a, h15a, Cert.LibTypedRefs.ofBuf_toBuf, Cert.LibTypedRefs.toBuf_ofBuf]
  rfl

theorem C_v107 (x0 : (⟨S50000x96, .f32⟩ : BufTy).Contents (Elt F)) (x1 : (⟨S2x800000, .i32⟩ : BufTy).Contents (Elt F)) (x2 : (⟨S96x256, .f32⟩ : BufTy).Contents (Elt F)) (x3 : (⟨S256, .f32⟩ : BufTy).Contents (Elt F)) (x4 : (⟨S96x256, .f32⟩ : BufTy).Contents (Elt F)) (x5 : (⟨S256, .f32⟩ : BufTy).Contents (Elt F)) (x6 : (⟨S256, .f32⟩ : BufTy).Contents (Elt F)) (x7 : (⟨S256, .f32⟩ : BufTy).Contents (Elt F)) (x8 : (⟨S256, .f32⟩ : BufTy).Contents (Elt F)) (x9 : (⟨S256x256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F)) (x15 : (⟨S256, .f32⟩ : BufTy).Contents (Elt F)) (x16 : (⟨S256x128, .f32⟩ : BufTy).Contents (Elt F)) (x17 : (⟨S128, .f32⟩ : BufTy).Contents (Elt F)) (x18 : (⟨S256x128, .f32⟩ : BufTy).Contents (Elt F))
    (h81 : V (Proc.devRef .tc main_v81) = val_main_v81 (F := F) x0 x1 x2 x3 x4 x5 x6 x7 x8 x9 x10 x11 x12 x13 x14 x15)
    (h1 : V (Proc.devRef .tc main_v1) = val_main_v1 (F := F) x1) (h3 : V (Proc.devRef .tc main_v3) = val_main_v3 (F := F) x1)
    (h16a : V (Proc.devRef .tc main_arg16) = x16) (h17a : V (Proc.devRef .tc main_arg17) = x17) (h18a : V (Proc.devRef .tc main_arg18) = x18) :
    after wC V (Proc.devRef .tc main_v107) = val_main_v107 (F := F) x0 x1 x2 x3 x4 x5 x6 x7 x8 x9 x10 x11 x12 x13 x14 x15 x16 x17 x18 := by
  after_results_simp
  simp only [h81, h1, h3, h16a, h17a, h18a, Cert.LibTypedRefs.ofBuf_toBuf, Cert.LibTypedRefs.toBuf_ofBuf]
  rfl

theorem D_v117 (x0 : (⟨S50000x96, .f32⟩ : BufTy).Contents (Elt F)) (x1 : (⟨S2x800000, .i32⟩ : BufTy).Contents (Elt F)) (x2 : (⟨S96x256, .f32⟩ : BufTy).Contents (Elt F)) (x3 : (⟨S256, .f32⟩ : BufTy).Contents (Elt F)) (x4 : (⟨S96x256, .f32⟩ : BufTy).Contents (Elt F)) (x5 : (⟨S256, .f32⟩ : BufTy).Contents (Elt F)) (x6 : (⟨S256, .f32⟩ : BufTy).Contents (Elt F)) (x7 : (⟨S256, .f32⟩ : BufTy).Contents (Elt F)) (x8 : (⟨S256, .f32⟩ : BufTy).Contents (Elt F)) (x9 : (⟨S256x256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F)) (x15 : (⟨S256, .f32⟩ : BufTy).Contents (Elt F)) (x16 : (⟨S256x128, .f32⟩ : BufTy).Contents (Elt F)) (x17 : (⟨S128, .f32⟩ : BufTy).Contents (Elt F)) (x18 : (⟨S256x128, .f32⟩ : BufTy).Contents (Elt F)) (x19 : (⟨S128x64, .f32⟩ : BufTy).Contents (Elt F)) (x20 : (⟨S64, .f32⟩ : BufTy).Contents (Elt F)) (x21 : (⟨S64x16, .f32⟩ : BufTy).Contents (Elt F)) (x22 : (⟨S16, .f32⟩ : BufTy).Contents (Elt F))
    (h107 : V (Proc.devRef .tc main_v107) = val_main_v107 (F := F) x0 x1 x2 x3 x4 x5 x6 x7 x8 x9 x10 x11 x12 x13 x14 x15 x16 x17 x18)
    (h19a : V (Proc.devRef .tc main_arg19) = x19) (h20a : V (Proc.devRef .tc main_arg20) = x20) (h21a : V (Proc.devRef .tc main_arg21) = x21) (h22a : V (Proc.devRef .tc main_arg22) = x22) :
    after wD V (Proc.devRef .tc main_v117) = val_main_v117 (F := F) x0 x1 x2 x3 x4 x5 x6 x7 x8 x9 x10 x11 x12 x13 x14 x15 x16 x17 x18 x19 x20 x21 x22 := by
  after_results_simp
  simp only [h107, h19a, h20a, h21a, h22a, Cert.LibTypedRefs.ofBuf_toBuf, Cert.LibTypedRefs.toBuf_ofBuf]
  rfl

/-! ## The whole fold -/

/-- After all 160 operations the result buffer holds the last stage of the arguments as the fold finds them. -/
theorem value : after ops V (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [ops_split, StableHlo.after_append, StableHlo.after_append, StableHlo.after_append]
  have hA1 := A_v1 V
  have hA3 := A_v3 V
  have hA42 := A_v42 V
  have hB81 := B_v81 (after wA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) hA42 hA1 hA3 (keepA_arg9 V) (keepA_arg10 V) (keepA_arg11 V) (keepA_arg12 V) (keepA_arg13 V) (keepA_arg14 V) (keepA_arg15 V)
  have hB1 := (keepB_v1 (after wA V)).trans hA1
  have hB3 := (keepB_v3 (after wA V)).trans hA3
  have hC107 := C_v107 (after wB (after wA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) hB81 hB1 hB3 ((keepB_arg16 (after wA V)).trans (keepA_arg16 V)) ((keepB_arg17 (after wA V)).trans (keepA_arg17 V)) ((keepB_arg18 (after wA V)).trans (keepA_arg18 V))
  exact D_v117 (after wC (after wB (after wA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) hC107 ((keepC_arg19 (after wB (after wA V))).trans ((keepB_arg19 (after wA V)).trans (keepA_arg19 V))) ((keepC_arg20 (after wB (after wA V))).trans ((keepB_arg20 (after wA V)).trans (keepA_arg20 V))) ((keepC_arg21 (after wB (after wA V))).trans ((keepB_arg21 (after wA V)).trans (keepA_arg21 V))) ((keepC_arg22 (after wB (after wA V))).trans ((keepB_arg22 (after wA V)).trans (keepA_arg22 V)))

end Cert.Sage.RefFold

end
-- ==== Proof.PreDomain.lean ====
/-
  The precondition, decoded: the variances are nonnegative.

  The precondition is a conjunction, by "and" on one-bit words, whose last two conjuncts are "every entry of the
  running variance of the first (resp. second) normalisation is ≥ 0", each an "all" — a reduction by "and" from 1 —
  of the elementwise comparison with the broadcast zero word. A conjunction that is 1 has both conjuncts 1; an "all" that
  is 1 has every element 1; the comparison ≥ on the extended reals is 1 exactly when the order holds; the zero word is 0.
-/
import Idealize.ShloMosaic.Lib.ReduceAll
import Idealize.ShloMosaic.Lib.ValueIdx
import Idealize.ShloMosaic.PureOps.Ideal
import Idealize.ShloMosaic.PureOps.Ideal.Laws
import proofs.«150929_j57071525429489_2_alg».proof.Pre_finite_inputs

open Idealize.ShloMosaic
open Cert.Pre_finite_inputs

noncomputable section

namespace Cert.Sage.Pre

variable [Cert.Pre_finite_inputs.Facts]

/-- The shape of a scalar has one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- An "all" of the comparison v ≥ 0-word that is 1 says every entry of v is ≥ 0. -/
theorem all_ge_zero (v : FVec Ideal S256 .f32) (init : IVec S_ 1)
    (e : Host.reduce IntOp.andi
        (cmpf .oge v (broadcastInDim S256 ![] Facts.bcast_S_S256 (constant (F := Ideal) S_ .f32 0x00000000#32)))
        init Facts.reducesTo_S256_S_d0 Facts.h_S_ ValueIdx.ix0 = 1#1)
    (i : S256.Idx) : (0 : EReal) ≤ v i := by
  have hi := Host.reduce_andi_all _ _ _ _ _ e i
  have hi' : BitVec.ofBool (decide (Ideal.ofBits .f32 0x00000000#32 ≤ v i)) = 1#1 := hi
  rw [ofBool_eq_one, decide_eq_true_iff, Ideal.ofBits_zero_f32] at hi'
  exact hi'

/-- What the precondition gives: both variances are nonnegative everywhere. -/
abbrev Dom (a8 a15 : FVec Ideal S256 .f32) : Prop := (∀ i : S256.Idx, (0 : EReal) ≤ a8 i) ∧ (∀ i : S256.Idx, (0 : EReal) ≤ a15 i)

theorem part6 (a8 a15 : FVec Ideal S256 .f32) (a22 : FVec Ideal S16 .f32) (v98 : IVec S_ 1) (v101 : IVec S64x16 1)
    (c39 : IVec S_ 1) (h : fn_part6 (F := Ideal) a8 a15 a22 v98 v101 c39 ValueIdx.ix0 = 1#1) : Dom a8 a15 := by
  unfold fn_part6 at h
  dsimp only at h
  obtain ⟨h12, hR2⟩ := IntOp.andi_eq_one.1 h
  obtain ⟨_, hR1⟩ := IntOp.andi_eq_one.1 h12
  exact ⟨all_ge_zero a8 _ hR1, all_ge_zero a15 _ hR2⟩

theorem part5 (a8 a15 : FVec Ideal S256 .f32) (a19 : FVec Ideal S128x64 .f32) (a20 : FVec Ideal S64 .f32)
    (a21 : FVec Ideal S64x16 .f32) (a22 : FVec Ideal S16 .f32) (v83 : IVec S_ 1) (v84 : FVec Ideal S256x128 .f32)
    (cst32 : FVec Ideal S_ .f32)
    (h : fn_part5 (F := Ideal) a8 a15 a19 a20 a21 a22 v83 v84 cst32 ValueIdx.ix0 = 1#1) : Dom a8 a15 :=
  part6 a8 a15 a22 _ _ _ h

theorem part4 (a8 a15 : FVec Ideal S256 .f32) (a16 : FVec Ideal S256x128 .f32) (a17 : FVec Ideal S128 .f32)
    (a18 : FVec Ideal S256x128 .f32) (a19 : FVec Ideal S128x64 .f32) (a20 : FVec Ideal S64 .f32)
    (a21 : FVec Ideal S64x16 .f32) (a22 : FVec Ideal S16 .f32) (v63 v67 : IVec S_ 1)
    (h : fn_part4 (F := Ideal) a8 a15 a16 a17 a18 a19 a20 a21 a22 v63 v67 ValueIdx.ix0 = 1#1) : Dom a8 a15 :=
  part5 a8 a15 a19 a20 a21 a22 _ _ _ h

theorem part3 (a8 a12 a13 a14 a15 : FVec Ideal S256 .f32) (a16 : FVec Ideal S256x128 .f32) (a17 : FVec Ideal S128 .f32)
    (a18 : FVec Ideal S256x128 .f32) (a19 : FVec Ideal S128x64 .f32) (a20 : FVec Ideal S64 .f32)
    (a21 : FVec Ideal S64x16 .f32) (a22 : FVec Ideal S16 .f32) (v48 : IVec S_ 1) (v49 v50 : FVec Ideal S256x256 .f32)
    (h : fn_part3 (F := Ideal) a8 a12 a13 a14 a15 a16 a17 a18 a19 a20 a21 a22 v48 v49 v50 ValueIdx.ix0 = 1#1) :
    Dom a8 a15 :=
  part4 a8 a15 a16 a17 a18 a19 a20 a21 a22 _ _ h

theorem part2 (a8 : FVec Ideal S256 .f32) (a9 : FVec Ideal S256x256 .f32) (a10 : FVec Ideal S256 .f32)
    (a11 : FVec Ideal S256x256 .f32) (a12 a13 a14 a15 : FVec Ideal S256 .f32) (a16 : FVec Ideal S256x128 .f32)
    (a17 : FVec Ideal S128 .f32) (a18 : FVec Ideal S256x128 .f32) (a19 : FVec Ideal S128x64 .f32)
    (a20 : FVec Ideal S64 .f32) (a21 : FVec Ideal S64x16 .f32) (a22 : FVec Ideal S16 .f32) (v33 : IVec S_ 1)
    (h : fn_part2 (F := Ideal) a8 a9 a10 a11 a12 a13 a14 a15 a16 a17 a18 a19 a20 a21 a22 v33 ValueIdx.ix0 = 1#1) :
    Dom a8 a15 :=
  part3 a8 a12 a13 a14 a15 a16 a17 a18 a19 a20 a21 a22 _ _ _ h

theorem part1 (a5 a6 a7 a8 : FVec Ideal S256 .f32) (a9 : FVec Ideal S256x256 .f32) (a10 : FVec Ideal S256 .f32)
    (a11 : FVec Ideal S256x256 .f32) (a12 a13 a14 a15 : FVec Ideal S256 .f32) (a16 : FVec Ideal S256x128 .f32)
    (a17 : FVec Ideal S128 .f32) (a18 : FVec Ideal S256x128 .f32) (a19 : FVec Ideal S128x64 .f32)
    (a20 : FVec Ideal S64 .f32) (a21 : FVec Ideal S64x16 .f32) (a22 : FVec Ideal S16 .f32) (v13 : IVec S_ 1)
    (v16 : IVec S96x256 1)
    (h : fn_part1 (F := Ideal) a5 a6 a7 a8 a9 a10 a11 a12 a13 a14 a15 a16 a17 a18 a19 a20 a21 a22 v13 v16 ValueIdx.ix0
      = 1#1) : Dom a8 a15 :=
  part2 a8 a9 a10 a11 a12 a13 a14 a15 a16 a17 a18 a19 a20 a21 a22 _ h

/-- The precondition holding says: the two running variances are nonnegative at every index. -/
theorem var_nonneg (x0 : FVec Ideal S50000x96 .f32) (x1 : IVec S2x800000 32) (x2 : FVec Ideal S96x256 .f32)
    (x3 : FVec Ideal S256 .f32) (x4 : FVec Ideal S96x256 .f32) (x5 x6 x7 x8 : FVec Ideal S256 .f32)
    (x9 : FVec Ideal S256x256 .f32) (x10 : FVec Ideal S256 .f32) (x11 : FVec Ideal S256x256 .f32)
    (x12 x13 x14 x15 : FVec Ideal S256 .f32) (x16 : FVec Ideal S256x128 .f32) (x17 : FVec Ideal S128 .f32)
    (x18 : FVec Ideal S256x128 .f32) (x19 : FVec Ideal S128x64 .f32) (x20 : FVec Ideal S64 .f32)
    (x21 : FVec Ideal S64x16 .f32) (x22 : FVec Ideal S16 .f32)
    (h : Cert.Pre_finite_inputs.fn (F := Ideal) x0 x1 x2 x3 x4 x5 x6 x7 x8 x9 x10 x11 x12 x13 x14 x15 x16 x17 x18 x19
      x20 x21 x22 = fun _ => 1#1) :
    (∀ i : Cert.Pre_finite_inputs.S256.Idx, (0 : EReal) ≤ x8 i) ∧ (∀ i : Cert.Pre_finite_inputs.S256.Idx, (0 : EReal) ≤ x15 i) :=
  part1 x5 x6 x7 x8 x9 x10 x11 x12 x13 x14 x15 x16 x17 x18 x19 x20 x21 x22 _ _ (congrFun h ValueIdx.ix0)

end Cert.Sage.Pre

end
-- ==== Proof.RefKept.lean ====
/-
  No operation of the reference program writes an argument: after the whole fold every argument buffer holds what it held.
-/
import proofs.«150929_j57071525429489_2_alg».proof.Proof.RefRunP

set_option maxRecDepth 16384

noncomputable section

namespace Cert.Sage.RefFold

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F] (V : Valuation τ sig (Elt F))

theorem kept_arg0 : after ops V (Proc.devRef .tc main_arg0) = V (Proc.devRef .tc main_arg0) := by after_results_simp
theorem kept_arg1 : after ops V (Proc.devRef .tc main_arg1) = V (Proc.devRef .tc main_arg1) := by after_results_simp
theorem kept_arg2 : after ops V (Proc.devRef .tc main_arg2) = V (Proc.devRef .tc main_arg2) := by after_results_simp
theorem kept_arg3 : after ops V (Proc.devRef .tc main_arg3) = V (Proc.devRef .tc main_arg3) := by after_results_simp
theorem kept_arg4 : after ops V (Proc.devRef .tc main_arg4) = V (Proc.devRef .tc main_arg4) := by after_results_simp
theorem kept_arg5 : after ops V (Proc.devRef .tc main_arg5) = V (Proc.devRef .tc main_arg5) := by after_results_simp
theorem kept_arg6 : after ops V (Proc.devRef .tc main_arg6) = V (Proc.devRef .tc main_arg6) := by after_results_simp
theorem kept_arg7 : after ops V (Proc.devRef .tc main_arg7) = V (Proc.devRef .tc main_arg7) := by after_results_simp
theorem kept_arg8 : after ops V (Proc.devRef .tc main_arg8) = V (Proc.devRef .tc main_arg8) := by after_results_simp
theorem kept_arg9 : after ops V (Proc.devRef .tc main_arg9) = V (Proc.devRef .tc main_arg9) := by after_results_simp
theorem kept_arg10 : after ops V (Proc.devRef .tc main_arg10) = V (Proc.devRef .tc main_arg10) := by after_results_simp
theorem kept_arg11 : after ops V (Proc.devRef .tc main_arg11) = V (Proc.devRef .tc main_arg11) := by after_results_simp
theorem kept_arg12 : after ops V (Proc.devRef .tc main_arg12) = V (Proc.devRef .tc main_arg12) := by after_results_simp
theorem kept_arg13 : after ops V (Proc.devRef .tc main_arg13) = V (Proc.devRef .tc main_arg13) := by after_results_simp
theorem kept_arg14 : after ops V (Proc.devRef .tc main_arg14) = V (Proc.devRef .tc main_arg14) := by after_results_simp
theorem kept_arg15 : after ops V (Proc.devRef .tc main_arg15) = V (Proc.devRef .tc main_arg15) := by after_results_simp
theorem kept_arg16 : after ops V (Proc.devRef .tc main_arg16) = V (Proc.devRef .tc main_arg16) := by after_results_simp
theorem kept_arg17 : after ops V (Proc.devRef .tc main_arg17) = V (Proc.devRef .tc main_arg17) := by after_results_simp
theorem kept_arg18 : after ops V (Proc.devRef .tc main_arg18) = V (Proc.devRef .tc main_arg18) := by after_results_simp
theorem kept_arg19 : after ops V (Proc.devRef .tc main_arg19) = V (Proc.devRef .tc main_arg19) := by after_results_simp
theorem kept_arg20 : after ops V (Proc.devRef .tc main_arg20) = V (Proc.devRef .tc main_arg20) := by after_results_simp
theorem kept_arg21 : after ops V (Proc.devRef .tc main_arg21) = V (Proc.devRef .tc main_arg21) := by after_results_simp
theorem kept_arg22 : after ops V (Proc.devRef .tc main_arg22) = V (Proc.devRef .tc main_arg22) := by after_results_simp

end Cert.Sage.RefFold

end
-- ==== Proof.RefStage1.lean ====
/-
  The reference's first layer, read at a node n and a column c.
  Each broadcast of the reference is read at an index, the two matrix products are read as sums over the 96 input
  features, and the whole chain is the normalised SAGE row of the specification with the mean spelt as a quotient.
-/
import proofs.«150929_j57071525429489_2_alg».proof.Proof.Spec
import proofs.«150929_j57071525429489_2_alg».proof.Proof.RefReadP

noncomputable section

open scoped BigOperators

namespace Cert.Sage.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-1 indices with the same coordinate are equal. -/
local macro "idx1" : tactic =>
  `(tactic| exact funext fun a => Fin.ext (by match a with | ⟨0, _⟩ => rfl))
/-- Two rank-2 indices with the same two coordinates are equal. -/
local macro "idx2" : tactic =>
  `(tactic| exact funext fun a => Fin.ext (by match a with | ⟨0, _⟩ => rfl | ⟨1, _⟩ => rfl))

/-- The clamped degree, a vector of length 50000 laid along the columns: at (n, k) it is the entry n. -/
theorem v21_at (x1 : (⟨S2x800000, .i32⟩ : BufTy).Contents (Elt Ideal)) (n : Fin 50000) (k : Fin 96) :
    val_main_v21 (F := Ideal) x1 (ix2 n k) = val_main_v19 (F := Ideal) x1 (ix1 n) := by
  rw [val_main_v21_apply, val_main_v20_apply]
  exact congrArg (val_main_v19 (F := Ideal) x1) (by idx1)

/-- The neighbour means times Wl: at (n, c), the sum over k of (neighbour sum (n, k) / degree n) · Wl (k, c). -/
theorem v23_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (n : Fin 50000) (c : Fin 256) :
    val_main_v23 (F := Ideal) x0 x1 x2 (ix2 n c)
      = dot (fun k : Fin 96 => Ideal.div (val_main_v13 (F := Ideal) x0 x1 (ix2 n k)) (val_main_v19 (F := Ideal) x1 (ix1 n)))
          (fun k => x2 (ix2 k c)) := by
  rw [val_main_v23_apply]
  unfold Cert.Sage.dot
  refine Finset.sum_congr rfl fun k _ => ?_
  have el : lidx_main_v23 (ix2 n c) k = ix2 n k := by idx2
  have er : ridx_main_v23 (ix2 n c) k = ix2 k c := by idx2
  rewrite [el, er, val_main_v22_apply, v21_at]
  rfl

/-- The node's own features times Wr: at (n, c), the sum over k of feature (n, k) · Wr (k, c). -/
theorem v27_at (x0 : (⟨S50000x96, .f32⟩ : BufTy).Contents (Elt Ideal)) (x4 : (⟨S96x256, .f32⟩ : BufTy).Contents (Elt Ideal)) (n : Fin 50000) (c : Fin 256) :
    val_main_v27 (F := Ideal) x0 x4 (ix2 n c)
      = dot (fun k : Fin 96 => x0 (ix2 n k)) (fun k => x4 (ix2 k c)) := by
  rw [val_main_v27_apply]
  unfold Cert.Sage.dot
  refine Finset.sum_congr rfl fun k _ => ?_
  have el : lidx_main_v27 (ix2 n c) k = ix2 n k := by idx2
  have er : ridx_main_v27 (ix2 n c) k = ix2 k c := by idx2
  rw [el, er]

/-- The bias of the left product, a vector of length 256 laid along the rows: at (n, c) it is the vector's entry c. -/
theorem v25_at (x3 : (⟨S256, .f32⟩ : BufTy).Contents (Elt Ideal)) (n : Fin 50000) (c : Fin 256) :
    val_main_v25 (F := Ideal) x3 (ix2 n c) = x3 (ix1 c) := by
  rw [val_main_v25_apply, val_main_v24_apply]
  exact congrArg x3 (by idx1)

/-- The running mean, a vector of length 256 laid along the rows: at (n, c) it is the vector's entry c. -/
theorem v30_at (x7 : (⟨S256, .f32⟩ : BufTy).Contents (Elt Ideal)) (n : Fin 50000) (c : Fin 256) :
    val_main_v30 (F := Ideal) x7 (ix2 n c) = x7 (ix1 c) := by
  rw [val_main_v30_apply, val_main_v29_apply]
  exact congrArg x7 (by idx1)

/-- The normalisation's shift, a vector of length 256 laid along the rows: at (n, c) it is the vector's entry c. -/
theorem v40_at (x6 : (⟨S256, .f32⟩ : BufTy).Contents (Elt Ideal)) (n : Fin 50000) (c : Fin 256) :
    val_main_v40 (F := Ideal) x6 (ix2 n c) = x6 (ix1 c) := by
  rw [val_main_v40_apply, val_main_v39_apply]
  exact congrArg x6 (by idx1)

/-- The normalisation's scale γ / sqrt(variance + ε), laid along the rows: at (n, c) it is that quotient at c. -/
theorem v37_at (x5 : (⟨S256, .f32⟩ : BufTy).Contents (Elt Ideal)) (x8 : (⟨S256, .f32⟩ : BufTy).Contents (Elt Ideal)) (n : Fin 50000) (c : Fin 256) :
    val_main_v37 (F := Ideal) x5 x8 (ix2 n c) = Ideal.div (x5 (ix1 c)) (Ideal.sqrt (x8 (ix1 c) + eps)) := by
  rw [val_main_v37_apply, val_main_v36_apply]
  have e : idx_main_v36 (idx_main_v37 (ix2 n c)) = ix1 c := by idx1
  rewrite [e, val_main_v35_apply, val_main_v34_apply, val_main_v33_apply, val_main_v32_apply, val_main_cst_4_apply]
  rfl

/-- The layer's output at node n, column c: the normalised, clamped SAGE row with the mean spelt as a quotient. -/
theorem stage1 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (n : Fin 50000) (c : Fin 256) :
    val_main_v42 (F := Ideal) x0 x1 x2 x3 x4 x5 x6 x7 x8 (ix2 n c)
      = bnReluR (sagePreR (fun k : Fin 96 => val_main_v13 (F := Ideal) x0 x1 (ix2 n k)) (fun k => x0 (ix2 n k))
            (val_main_v19 (F := Ideal) x1 (ix1 n)) (fun k => x2 (ix2 k c)) (fun k => x4 (ix2 k c)) (x3 (ix1 c)))
          (x7 (ix1 c)) (x5 (ix1 c)) (x8 (ix1 c)) (x6 (ix1 c)) := by
  rewrite [val_main_v42_apply, val_main_v41_apply, val_main_v38_apply, val_main_v31_apply, val_main_v28_apply,
    val_main_v26_apply, v23_at, v25_at, v27_at, v30_at, v37_at, v40_at,
    val_main_call0_v0_apply, val_main_call0_cst_apply]
  rfl

end Cert.Sage.Ref

end
-- ==== Proof.RefStage2.lean ====
/-
  The reference's second layer, read at a node n and a column c.
  Each broadcast of the reference is read at an index, the two matrix products are read as sums over the 256 hidden
  features, and the whole chain is the normalised SAGE row of the specification with the mean spelt as a quotient.
  The first layer's output and the second neighbour sum stay as named stages.
-/
import proofs.«150929_j57071525429489_2_alg».proof.Proof.Spec
import proofs.«150929_j57071525429489_2_alg».proof.Proof.RefReadP

noncomputable section

open scoped BigOperators

namespace Cert.Sage.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-1 indices with the same coordinate are equal. -/
local macro "idx1" : tactic =>
  `(tactic| exact funext fun a => Fin.ext (by match a with | ⟨0, _⟩ => rfl))
/-- Two rank-2 indices with the same two coordinates are equal. -/
local macro "idx2" : tactic =>
  `(tactic| exact funext fun a => Fin.ext (by match a with | ⟨0, _⟩ => rfl | ⟨1, _⟩ => rfl))

/-- The clamped degree, a vector of length 50000 laid along the columns: at (n, k) it is the entry n. -/
theorem v60_at (x1 : (⟨S2x800000, .i32⟩ : BufTy).Contents (Elt Ideal)) (n : Fin 50000) (k : Fin 256) :
    val_main_v60 (F := Ideal) x1 (ix2 n k) = val_main_v58 (F := Ideal) x1 (ix1 n) := by
  rw [val_main_v60_apply, val_main_v59_apply]
  exact congrArg (val_main_v58 (F := Ideal) x1) (by idx1)

/-- The neighbour means times Wl: at (n, c), the sum over k of (neighbour sum (n, k) / degree n) · Wl (k, c). -/
theorem v62_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (n : Fin 50000) (c : Fin 256) :
    val_main_v62 (F := Ideal) x0 x1 x2 x3 x4 x5 x6 x7 x8 x9 (ix2 n c)
      = dot (fun k : Fin 256 => Ideal.div (val_main_v52 (F := Ideal) x0 x1 x2 x3 x4 x5 x6 x7 x8 (ix2 n k)) (val_main_v58 (F := Ideal) x1 (ix1 n)))
          (fun k => x9 (ix2 k c)) := by
  rw [val_main_v62_apply]
  unfold Cert.Sage.dot
  refine Finset.sum_congr rfl fun k _ => ?_
  have el : lidx_main_v62 (ix2 n c) k = ix2 n k := by idx2
  have er : ridx_main_v62 (ix2 n c) k = ix2 k c := by idx2
  rewrite [el, er, val_main_v61_apply, v60_at]
  rfl

/-- The node's own features times Wr: at (n, c), the sum over k of feature (n, k) · Wr (k, c). -/
theorem v66_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x11 : (⟨S256x256, .f32⟩ : BufTy).Contents (Elt Ideal)) (n : Fin 50000) (c : Fin 256) :
    val_main_v66 (F := Ideal) x0 x1 x2 x3 x4 x5 x6 x7 x8 x11 (ix2 n c)
      = dot (fun k : Fin 256 => val_main_v42 (F := Ideal) x0 x1 x2 x3 x4 x5 x6 x7 x8 (ix2 n k)) (fun k => x11 (ix2 k c)) := by
  rw [val_main_v66_apply]
  unfold Cert.Sage.dot
  refine Finset.sum_congr rfl fun k _ => ?_
  have el : lidx_main_v66 (ix2 n c) k = ix2 n k := by idx2
  have er : ridx_main_v66 (ix2 n c) k = ix2 k c := by idx2
  rw [el, er]

/-- The bias of the left product, a vector of length 256 laid along the rows: at (n, c) it is the vector's entry c. -/
theorem v64_at (x10 : (⟨S256, .f32⟩ : BufTy).Contents (Elt Ideal)) (n : Fin 50000) (c : Fin 256) :
    val_main_v64 (F := Ideal) x10 (ix2 n c) = x10 (ix1 c) := by
  rw [val_main_v64_apply, val_main_v63_apply]
  exact congrArg x10 (by idx1)

/-- The running mean, a vector of length 256 laid along the rows: at (n, c) it is the vector's entry c. -/
theorem v69_at (x14 : (⟨S256, .f32⟩ : BufTy).Contents (Elt Ideal)) (n : Fin 50000) (c : Fin 256) :
    val_main_v69 (F := Ideal) x14 (ix2 n c) = x14 (ix1 c) := by
  rw [val_main_v69_apply, val_main_v68_apply]
  exact congrArg x14 (by idx1)

/-- The normalisation's shift, a vector of length 256 laid along the rows: at (n, c) it is the vector's entry c. -/
theorem v79_at (x13 : (⟨S256, .f32⟩ : BufTy).Contents (Elt Ideal)) (n : Fin 50000) (c : Fin 256) :
    val_main_v79 (F := Ideal) x13 (ix2 n c) = x13 (ix1 c) := by
  rw [val_main_v79_apply, val_main_v78_apply]
  exact congrArg x13 (by idx1)

/-- The normalisation's scale γ / sqrt(variance + ε), laid along the rows: at (n, c) it is that quotient at c. -/
theorem v76_at (x12 : (⟨S256, .f32⟩ : BufTy).Contents (Elt Ideal)) (x15 : (⟨S256, .f32⟩ : BufTy).Contents (Elt Ideal)) (n : Fin 50000) (c : Fin 256) :
    val_main_v76 (F := Ideal) x12 x15 (ix2 n c) = Ideal.div (x12 (ix1 c)) (Ideal.sqrt (x15 (ix1 c) + eps)) := by
  rw [val_main_v76_apply, val_main_v75_apply]
  have e : idx_main_v75 (idx_main_v76 (ix2 n c)) = ix1 c := by idx1
  rewrite [e, val_main_v74_apply, val_main_v73_apply, val_main_v72_apply, val_main_v71_apply, val_main_cst_11_apply]
  rfl

/-- The layer's output at node n, column c: the normalised, clamped SAGE row with the mean spelt as a quotient. -/
theorem stage2 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (n : Fin 50000) (c : Fin 256) :
    val_main_v81 (F := Ideal) x0 x1 x2 x3 x4 x5 x6 x7 x8 x9 x10 x11 x12 x13 x14 x15 (ix2 n c)
      = bnReluR (sagePreR (fun k : Fin 256 => val_main_v52 (F := Ideal) x0 x1 x2 x3 x4 x5 x6 x7 x8 (ix2 n k)) (fun k => val_main_v42 (F := Ideal) x0 x1 x2 x3 x4 x5 x6 x7 x8 (ix2 n k))
            (val_main_v58 (F := Ideal) x1 (ix1 n)) (fun k => x9 (ix2 k c)) (fun k => x11 (ix2 k c)) (x10 (ix1 c)))
          (x14 (ix1 c)) (x12 (ix1 c)) (x15 (ix1 c)) (x13 (ix1 c)) := by
  rewrite [val_main_v81_apply, val_main_v80_apply, val_main_v77_apply, val_main_v70_apply, val_main_v67_apply,
    val_main_v65_apply, v62_at, v64_at, v66_at, v69_at, v76_at, v79_at,
    val_main_call1_v0_apply, val_main_call1_cst_apply]
  rfl

end Cert.Sage.Ref

end
-- ==== Proof.LibGraphSum.lean ====
/-
  Sums over the edges into a node, on the extended reals.

  * A factor `D` with `0 ≤ D` and `D ≠ ⊤` distributes over any finite sum of extended reals — infinite summands of both
    signs included: multiplying by such a factor keeps every sign, so no `⊤ + ⊥` is created or destroyed.
  * Hence a sum of messages `h e · (d e · D' e)` whose second weight `D' e` is one and the same `D` for every edge of the sum
    is the sum of the messages `h e · d e`, times `D`: the normalisation by the target's degree may be applied per edge or
    once per node.
  * `1/√(max x 1)` is such a factor for EVERY extended real `x` (it is `0` at `x = ⊤`, and `(√r)⁻¹` with `r ≥ 1` otherwise).
-/
import Mathlib.Data.EReal.Operations
import Mathlib.Data.EReal.Inv
import Idealize.ShloMosaic.PureOps.Ideal

open scoped BigOperators
open Idealize.ShloMosaic

noncomputable section

namespace Cert.LibGraphSum

/-- A nonnegative factor other than `⊤` distributes over a finite sum of extended reals. -/
theorem sum_mul_of_nonneg_of_ne_top {ι : Type*} (S : Finset ι) (f : ι → EReal) {D : EReal} (h0 : 0 ≤ D) (ht : D ≠ ⊤) :
    (∑ e ∈ S, f e) * D = ∑ e ∈ S, f e * D := by
  classical
  refine Finset.induction_on S (by simp) (fun a S ha ih => ?_)
  rw [Finset.sum_insert ha, Finset.sum_insert ha, EReal.right_distrib_of_nonneg_of_ne_top h0 ht, ih]

/-- Messages weighted per edge by `d e · D' e`, the second weight being the same `D` on every edge of the sum: the sum is
    the sum of the messages weighted by `d e` alone, times `D`. (Both sums start from `0`, as a scatter into zeros does.) -/
theorem weighted_sum_factor {ι : Type*} (S : Finset ι) (h d D' : ι → EReal) {D : EReal} (h0 : 0 ≤ D) (ht : D ≠ ⊤)
    (hD : ∀ e ∈ S, D' e = D) :
    0 + ∑ e ∈ S, h e * (d e * D' e) = (0 + ∑ e ∈ S, h e * d e) * D := by
  rw [zero_add, zero_add, sum_mul_of_nonneg_of_ne_top S _ h0 ht]
  refine Finset.sum_congr rfl fun e he => ?_
  rw [hD e he, mul_assoc]

/-- `1/√r` of a real `r ≥ 1` is a nonnegative real. -/
theorem rsqrt_coe_of_one_le (r : ℝ) (hr : 1 ≤ r) :
    0 ≤ Ideal.rsqrt ((r : ℝ) : EReal) ∧ Ideal.rsqrt ((r : ℝ) : EReal) ≠ ⊤ := by
  have hr0 : ¬ r < 0 := by linarith
  have hr1 : ¬ r = 0 := fun h => by rw [h] at hr; norm_num at hr
  rw [Ideal.rsqrt_coe, if_neg hr0, if_neg hr1]
  exact ⟨EReal.coe_nonneg.mpr (inv_nonneg.mpr (Real.sqrt_nonneg r)), EReal.coe_ne_top _⟩

/-- `1/√(max x 1)` is nonnegative and not `⊤`, whatever the extended real `x`. -/
theorem rsqrt_max_one (x : EReal) : 0 ≤ Ideal.rsqrt (max x 1) ∧ Ideal.rsqrt (max x 1) ≠ ⊤ := by
  induction x using EReal.rec with
  | bot =>
    rw [max_eq_right bot_le, ← EReal.coe_one]
    exact rsqrt_coe_of_one_le 1 le_rfl
  | coe r =>
    rcases le_total ((r : ℝ) : EReal) 1 with h | h
    · rw [max_eq_right h, ← EReal.coe_one]
      exact rsqrt_coe_of_one_le 1 le_rfl
    · rw [max_eq_left h]
      exact rsqrt_coe_of_one_le r (by exact_mod_cast h)
  | top =>
    rw [max_eq_left le_top, Ideal.rsqrt_top]
    exact ⟨le_rfl, EReal.zero_ne_top⟩

end Cert.LibGraphSum

end
-- ==== Proof.MeanLaw.lean ====
/-
  The algebra, on the extended reals, that lets the two spellings of a SAGE layer meet.

  * A quotient by a clamped degree max x 1 is the product with the reciprocal 1/(max x 1): the divisor is at least 1,
    so it is not 0, and the quotient is x · y⁻¹ by definition.
  * That reciprocal i is nonnegative and not ⊤. Such a factor distributes over ANY finite sum of extended reals, and a
    sum of NONNEGATIVE extended reals distributes against any factor; so the projection of a neighbour mean,
    Σ_k ((Σ_e f e k)/d)·w k, is (Σ_e Σ_k f e k · w k)·i: the projection may be applied per edge, before the sum and the
    division — with no finiteness assumed of f or of w.
  * g / sqrt y = g · rsqrt y for every y > 0, the infinite one included (both sides are g · 0 there).
  * The three binary32 words of the statement: ε is positive, the zero word is 0, the word of −∞ is ⊥.
-/
import Mathlib.Data.EReal.Operations
import Mathlib.Data.EReal.Inv
import Idealize.ShloMosaic.PureOps.Ideal
import proofs.«150929_j57071525429489_2_alg».proof.Proof.Spec
import proofs.«150929_j57071525429489_2_alg».proof.Proof.LibGraphSum

open scoped BigOperators
open Idealize.ShloMosaic

noncomputable section

namespace Cert.Sage.MeanLaw

/-- A clamped degree is not zero. -/
theorem max_one_ne_zero (x : EReal) : max x 1 ≠ 0 :=
  ne_of_gt (lt_of_lt_of_le zero_lt_one (le_max_right x 1))

/-- The quotient by a clamped degree is the product with its reciprocal. -/
theorem div_eq_mul_recip (a x : EReal) : Ideal.div a (max x 1) = a * Ideal.div 1 (max x 1) := by
  unfold Ideal.div
  rw [if_neg (max_one_ne_zero x), if_neg (max_one_ne_zero x), one_mul]

/-- The reciprocal of a clamped degree is the inverse. -/
theorem recip_eq_inv (x : EReal) : Ideal.div 1 (max x 1) = (max x 1)⁻¹ := by
  unfold Ideal.div
  rw [if_neg (max_one_ne_zero x), one_mul]

/-- The reciprocal of a clamped degree is nonnegative and not ⊤. -/
theorem recip_nonneg_ne_top (x : EReal) : 0 ≤ Ideal.div 1 (max x 1) ∧ Ideal.div 1 (max x 1) ≠ ⊤ := by
  rw [recip_eq_inv]
  refine ⟨EReal.inv_nonneg_of_nonneg (le_trans zero_le_one (le_max_right x 1)), ?_⟩
  have h1 : (1 : EReal) ≤ max x 1 := le_max_right x 1
  generalize max x 1 = y at h1
  induction y using EReal.rec with
  | bot => exact absurd h1 (not_le.mpr (EReal.bot_lt_coe 1))
  | coe r => rw [← EReal.coe_inv]; exact EReal.coe_ne_top _
  | top => rw [EReal.inv_top]; exact EReal.zero_ne_top

/-- g / sqrt y = g · rsqrt y for every positive y. -/
theorem scale_eq (g y : EReal) (hy : 0 < y) : Ideal.div g (Ideal.sqrt y) = g * Ideal.rsqrt y := by
  induction y using EReal.rec with
  | bot => exact absurd hy (not_lt.mpr bot_le)
  | coe r =>
    have hr : 0 < r := EReal.coe_pos.mp hy
    have hs : Real.sqrt r ≠ 0 := ne_of_gt (Real.sqrt_pos.mpr hr)
    rw [Ideal.sqrt_coe, Ideal.rsqrt_coe, if_neg (not_lt.mpr hr.le), if_neg (not_lt.mpr hr.le), if_neg (ne_of_gt hr)]
    unfold Ideal.div
    rw [if_neg (EReal.coe_ne_zero.mpr hs), EReal.coe_inv]
  | top =>
    rw [Ideal.sqrt_top, Ideal.rsqrt_top]
    unfold Ideal.div
    rw [if_neg EReal.top_ne_zero, EReal.inv_top]

/-- The binary32 word 0x3727C5AC denotes (2^23 + 2606508) · 2^(-40), a positive real. -/
theorem eps_pos : (0 : EReal) < Cert.Sage.eps := by
  show (0 : EReal) < Ideal.ofBits .f32 0x3727C5AC#32
  simp [Ideal.ofBits, Ideal.ieee, -EReal.coe_mul]

/-- A sum of nonnegative extended reals distributes against any factor. -/
theorem sum_mul_of_nonneg {ι : Type*} (S : Finset ι) (y : ι → EReal) (hy : ∀ e ∈ S, 0 ≤ y e) (c : EReal) :
    (∑ e ∈ S, y e) * c = ∑ e ∈ S, y e * c := by
  classical
  induction S using Finset.induction_on with
  | empty => simp
  | insert a S ha ih =>
    have hS : ∀ e ∈ S, 0 ≤ y e := fun e he => hy e (Finset.mem_insert_of_mem he)
    rw [Finset.sum_insert ha, Finset.sum_insert ha,
      EReal.right_distrib_of_nonneg (hy a (Finset.mem_insert_self a S)) (Finset.sum_nonneg hS), ih hS]

/-- The projection of a neighbour mean is the mean of the projections: with i the reciprocal of the clamped degree,
    Σ_k ((0 + Σ_e f e k)/d)·w k = (0 + Σ_e Σ_k f e k·w k)·i, for nonnegative f and ANY w. -/
theorem mean_project {ι : Type*} (S : Finset ι) {K : ℕ} (f : ι → Fin K → EReal) (hf : ∀ e k, 0 ≤ f e k)
    (w : Fin K → EReal) (x : EReal) :
    Cert.Sage.dot (fun k => Ideal.div (0 + ∑ e ∈ S, f e k) (max x 1)) w
      = (0 + ∑ e ∈ S, Cert.Sage.dot (f e) w) * Ideal.div 1 (max x 1) := by
  obtain ⟨h0, ht⟩ := recip_nonneg_ne_top x
  unfold Cert.Sage.dot
  rw [zero_add, Finset.sum_comm, Cert.LibGraphSum.sum_mul_of_nonneg_of_ne_top _ _ h0 ht]
  refine Finset.sum_congr rfl fun k _ => ?_
  show Ideal.div (0 + ∑ e ∈ S, f e k) (max x 1) * w k = (∑ e ∈ S, f e k * w k) * Ideal.div 1 (max x 1)
  rw [div_eq_mul_recip (0 + ∑ e ∈ S, f e k) x, zero_add, mul_assoc, mul_comm (Ideal.div 1 (max x 1)) (w k), ← mul_assoc,
    sum_mul_of_nonneg S (fun e => f e k) (fun e _ => hf e k) (w k)]

/-- 0 ≤ v gives 0 < v + ε. -/
theorem var_eps_pos (v : EReal) (hv : 0 ≤ v) : 0 < v + Cert.Sage.eps :=
  lt_of_lt_of_le eps_pos (le_add_of_nonneg_left hv)

/-- The two spellings of the normalisation agree when the variance is nonnegative. -/
theorem bn_eq (h m g v b : EReal) (hv : 0 ≤ v) : Cert.Sage.bnReluR h m g v b = Cert.Sage.bnReluK h m g v b := by
  unfold Cert.Sage.bnReluR Cert.Sage.bnReluK
  rw [scale_eq g (v + Cert.Sage.eps) (var_eps_pos v hv)]

/-- The binary32 word of −∞ denotes ⊥. -/
theorem ninf32_eq : Cert.Sage.ninf32 = ⊥ := by
  show Ideal.ofBits .f32 0xFF800000#32 = ⊥
  simp [Ideal.ofBits, Ideal.ieee]

/-- The binary32 zero word denotes 0. -/
theorem zero32_eq : Cert.Sage.zero32 = 0 := by
  show Ideal.ofBits .f32 0x00000000#32 = 0
  simp [Ideal.ofBits, Ideal.ieee]

/-- A SAGE row with the mean spelt as a quotient by the clamped degree is the row with the mean spelt as the product
    with the reciprocal. -/
theorem sagePre_congr_mean {K : ℕ} (a x : Fin K → EReal) (d : EReal) (wl wr : Fin K → EReal) (bl : EReal) :
    Cert.Sage.sagePreR a x (max d 1) wl wr bl = Cert.Sage.sagePre a x (Ideal.div 1 (max d 1)) wl wr bl := by
  unfold Cert.Sage.sagePreR Cert.Sage.sagePre
  have e : (fun k => Ideal.div (a k) (max d 1)) = fun k => a k * Ideal.div 1 (max d 1) :=
    funext fun k => div_eq_mul_recip (a k) d
  rw [e]

/-! ## The layer laws built from the above. -/

/-- The binary32 word 0x3F800000 denotes 1. -/
theorem one32_eq : Ideal.ofBits .f32 0x3F800000#32 = (1 : EReal) := by
  simp [Ideal.ofBits, Ideal.ieee, -EReal.coe_mul]; norm_num

/-- A positive part is nonnegative. -/
theorem bnReluK_nonneg (h m g v b : EReal) : 0 ≤ Cert.Sage.bnReluK h m g v b := by
  unfold Cert.Sage.bnReluK
  exact le_trans (le_of_eq zero32_eq.symm) (le_max_right _ _)

/-- Every entry of a stage-1 array is nonnegative. -/
theorem G0_nonneg {N Kin H : ℕ} (x0 x1 : (⟨2, ![N, Kin]⟩ : Shape).Idx → EReal) (x2 : (⟨2, ![N, 1]⟩ : Shape).Idx → EReal)
    (x3 : (⟨2, ![Kin, H]⟩ : Shape).Idx → EReal) (x4 : (⟨2, ![1, H]⟩ : Shape).Idx → EReal)
    (x5 : (⟨2, ![Kin, H]⟩ : Shape).Idx → EReal) (x6 x7 x8 x9 : (⟨2, ![1, H]⟩ : Shape).Idx → EReal)
    (j : (⟨2, ![N, H]⟩ : Shape).Idx) : 0 ≤ Cert.Sage.G0 x0 x1 x2 x3 x4 x5 x6 x7 x8 x9 j := by
  unfold Cert.Sage.G0
  exact bnReluK_nonneg _ _ _ _ _

/-- The last layer's entry from the projected neighbour sum is the positive part of the row whose mean is the quotient
    of the unprojected neighbour sum by the clamped degree. -/
theorem sage3_entry {ι : Type*} (S : Finset ι) {K : ℕ} (f : ι → Fin K → EReal) (hf : ∀ e k, 0 ≤ f e k)
    (x wl wr : Fin K → EReal) (bl d : EReal) :
    Cert.Sage.sage3K (0 + ∑ e ∈ S, Cert.Sage.dot (f e) wl) x (Ideal.div 1 (max d 1)) wr bl
      = max (Cert.Sage.sagePreR (fun k => 0 + ∑ e ∈ S, f e k) x (max d 1) wl wr bl) Cert.Sage.zero32 := by
  unfold Cert.Sage.sage3K Cert.Sage.sagePreR
  rw [← mean_project S f hf wl d]

/-- A whole layer in the two spellings. -/
theorem layer_eq {K : ℕ} (a x : Fin K → EReal) (d : EReal) (wl wr : Fin K → EReal) (bl m g v b : EReal) (hv : 0 ≤ v) :
    Cert.Sage.bnReluR (Cert.Sage.sagePreR a x (max d 1) wl wr bl) m g v b
      = Cert.Sage.bnReluK (Cert.Sage.sagePre a x (Ideal.div 1 (max d 1)) wl wr bl) m g v b := by
  rw [bn_eq _ m g v b hv, sagePre_congr_mean]

end Cert.Sage.MeanLaw

end
-- ==== Proof.Bridge12.lean ====
/-
  The kernel program's first two stages as functions of the program's arguments are the reference's first two layers.
  The facts about the host stretches (the casts of the parameter rows, the reciprocal clamped degree, the neighbour
  sums) come in as hypotheses; with them, stage 1 at (n, c) is the specification's row with the mean spelt as a
  product, the reference's layer is the same row with the mean spelt as a quotient, and the two agree when the
  running variance is not negative.
-/
import proofs.«150929_j57071525429489_2_alg».proof.Proof.Spec
import proofs.«150929_j57071525429489_2_alg».proof.Proof.KHost
import proofs.«150929_j57071525429489_2_alg».proof.Proof.RefReadP
import proofs.«150929_j57071525429489_2_alg».proof.Proof.RefStage1
import proofs.«150929_j57071525429489_2_alg».proof.Proof.RefStage2
import proofs.«150929_j57071525429489_2_alg».proof.Proof.MeanLaw

noncomputable section

open scoped BigOperators

namespace Cert.Sage.Bridge

open Cert.ReferenceIdeal Cert.ReferenceIdeal.Read Idealize.ShloMosaic Idealize.ShloMosaic.ValueIdx

/-- Stage 1's array function at (n, c): the normalised SAGE row of the specification, read off the ten arrays. -/
theorem G0_at {N Kin H : ℕ} (y0 y1 : (⟨2, ![N, Kin]⟩ : Shape).Idx → EReal) (y2 : (⟨2, ![N, 1]⟩ : Shape).Idx → EReal)
    (y3 : (⟨2, ![Kin, H]⟩ : Shape).Idx → EReal) (y4 : (⟨2, ![1, H]⟩ : Shape).Idx → EReal)
    (y5 : (⟨2, ![Kin, H]⟩ : Shape).Idx → EReal) (y6 y7 y8 y9 : (⟨2, ![1, H]⟩ : Shape).Idx → EReal) (n : Fin N) (c : Fin H) :
    G0 y0 y1 y2 y3 y4 y5 y6 y7 y8 y9 (ix2 n c)
      = bnReluK (sagePre (fun k => y1 (ix2 n k)) (fun k => y0 (ix2 n k)) (y2 (ix2 n (0 : Fin 1)))
            (fun k => y3 (ix2 k c)) (fun k => y5 (ix2 k c)) (y4 (ix2 (0 : Fin 1) c)))
          (y8 (ix2 (0 : Fin 1) c)) (y6 (ix2 (0 : Fin 1) c)) (y9 (ix2 (0 : Fin 1) c)) (y7 (ix2 (0 : Fin 1) c)) := rfl

/-- Stage 1 of the kernel program is the reference's first layer. -/
theorem H1_eq_of (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal))
    (hx : KHost.k_v13 (F := Ideal) x0 = x0)
    (hag1 : KHost.k_v25 (F := Ideal) x0 x1 = val_main_v13 (F := Ideal) x0 x1)
    (hinv : ∀ n : Fin 50000, KHost.k_v12 (F := Ideal) x1 (ix2 n (0 : Fin 1)) = Ideal.div 1 (max (val_main_v17 (F := Ideal) x1 (ix1 n)) 1))
    (hdeg : ∀ n : Fin 50000, val_main_v19 (F := Ideal) x1 (ix1 n) = max (val_main_v17 (F := Ideal) x1 (ix1 n)) 1)
    (h26 : ∀ c : Fin 256, KHost.k_v26 (F := Ideal) x3 (ix2 (0 : Fin 1) c) = x3 (ix1 c))
    (h27 : ∀ c : Fin 256, KHost.k_v27 (F := Ideal) x5 (ix2 (0 : Fin 1) c) = x5 (ix1 c))
    (h28 : ∀ c : Fin 256, KHost.k_v28 (F := Ideal) x6 (ix2 (0 : Fin 1) c) = x6 (ix1 c))
    (h29 : ∀ c : Fin 256, KHost.k_v29 (F := Ideal) x7 (ix2 (0 : Fin 1) c) = x7 (ix1 c))
    (h30 : ∀ c : Fin 256, KHost.k_v30 (F := Ideal) x8 (ix2 (0 : Fin 1) c) = x8 (ix1 c))
    (hv1 : ∀ i, (0 : EReal) ≤ x8 i) :
    KHost.H1 x0 x1 x2 x3 x4 x5 x6 x7 x8 = val_main_v42 (F := Ideal) x0 x1 x2 x3 x4 x5 x6 x7 x8 := by
  funext j
  obtain ⟨n, c, rfl⟩ : ∃ (n : Fin 50000) (c : Fin 256), j = ix2 n c := ⟨j 0, j 1, eq_ix2 j⟩
  rewrite [Cert.Sage.Ref.stage1, hdeg n]
  unfold KHost.H1
  rewrite [G0_at, hx, hag1, hinv n, h26 c, h27 c, h28 c, h29 c, h30 c]
  exact (MeanLaw.layer_eq _ _ _ _ _ _ _ _ _ _ (hv1 _)).symm

/-- The kernel program's neighbour sums of stage 1's rows are the reference's second neighbour sum. -/
theorem A2_eq_of (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal))
    (hx : KHost.k_v13 (F := Ideal) x0 = x0)
    (hag1 : KHost.k_v25 (F := Ideal) x0 x1 = val_main_v13 (F := Ideal) x0 x1)
    (hinv : ∀ n : Fin 50000, KHost.k_v12 (F := Ideal) x1 (ix2 n (0 : Fin 1)) = Ideal.div 1 (max (val_main_v17 (F := Ideal) x1 (ix1 n)) 1))
    (hdeg : ∀ n : Fin 50000, val_main_v19 (F := Ideal) x1 (ix1 n) = max (val_main_v17 (F := Ideal) x1 (ix1 n)) 1)
    (h26 : ∀ c : Fin 256, KHost.k_v26 (F := Ideal) x3 (ix2 (0 : Fin 1) c) = x3 (ix1 c))
    (h27 : ∀ c : Fin 256, KHost.k_v27 (F := Ideal) x5 (ix2 (0 : Fin 1) c) = x5 (ix1 c))
    (h28 : ∀ c : Fin 256, KHost.k_v28 (F := Ideal) x6 (ix2 (0 : Fin 1) c) = x6 (ix1 c))
    (h29 : ∀ c : Fin 256, KHost.k_v29 (F := Ideal) x7 (ix2 (0 : Fin 1) c) = x7 (ix1 c))
    (h30 : ∀ c : Fin 256, KHost.k_v30 (F := Ideal) x8 (ix2 (0 : Fin 1) c) = x8 (ix1 c))
    (hv1 : ∀ i, (0 : EReal) ≤ x8 i)
    (hag2 : ∀ h : (⟨S50000x256, .bf16⟩ : BufTy).Contents (Elt Ideal),
      KHost.k_v43 (F := Ideal) (KHost.k_v1 (F := Ideal) x1) (KHost.k_v3 (F := Ideal) x1) h
        = Host.scatterAdd (F := Ideal) (φ := .f32) Cert.ReferenceIdeal.scatter_S50000x256_S800000x1_S800000x256_1_0_0_1 (val_main_v50 (F := Ideal))
            (val_main_v51 (F := Ideal) x1)
            (Host.gather (α := Ideal .f32) Cert.ReferenceIdeal.gather_S50000x256_S800000x1_S800000x256_1_0_n_n_0_1_1256 h (val_main_v48 (F := Ideal) x1))) :
    KHost.A2 x0 x1 x2 x3 x4 x5 x6 x7 x8 = val_main_v52 (F := Ideal) x0 x1 x2 x3 x4 x5 x6 x7 x8 := by
  unfold KHost.A2 val_main_v52 val_main_v49
  rewrite [H1_eq_of x0 x1 x2 x3 x4 x5 x6 x7 x8 hx hag1 hinv hdeg h26 h27 h28 h29 h30 hv1]
  exact hag2 _

/-- Stage 2 of the kernel program is the reference's second layer. -/
theorem H2_eq_of (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal))
    (hx : KHost.k_v13 (F := Ideal) x0 = x0)
    (hag1 : KHost.k_v25 (F := Ideal) x0 x1 = val_main_v13 (F := Ideal) x0 x1)
    (hinv : ∀ n : Fin 50000, KHost.k_v12 (F := Ideal) x1 (ix2 n (0 : Fin 1)) = Ideal.div 1 (max (val_main_v17 (F := Ideal) x1 (ix1 n)) 1))
    (hdeg : ∀ n : Fin 50000, val_main_v19 (F := Ideal) x1 (ix1 n) = max (val_main_v17 (F := Ideal) x1 (ix1 n)) 1)
    (h26 : ∀ c : Fin 256, KHost.k_v26 (F := Ideal) x3 (ix2 (0 : Fin 1) c) = x3 (ix1 c))
    (h27 : ∀ c : Fin 256, KHost.k_v27 (F := Ideal) x5 (ix2 (0 : Fin 1) c) = x5 (ix1 c))
    (h28 : ∀ c : Fin 256, KHost.k_v28 (F := Ideal) x6 (ix2 (0 : Fin 1) c) = x6 (ix1 c))
    (h29 : ∀ c : Fin 256, KHost.k_v29 (F := Ideal) x7 (ix2 (0 : Fin 1) c) = x7 (ix1 c))
    (h30 : ∀ c : Fin 256, KHost.k_v30 (F := Ideal) x8 (ix2 (0 : Fin 1) c) = x8 (ix1 c))
    (hv1 : ∀ i, (0 : EReal) ≤ x8 i)
    (hag2 : ∀ h : (⟨S50000x256, .bf16⟩ : BufTy).Contents (Elt Ideal),
      KHost.k_v43 (F := Ideal) (KHost.k_v1 (F := Ideal) x1) (KHost.k_v3 (F := Ideal) x1) h
        = Host.scatterAdd (F := Ideal) (φ := .f32) Cert.ReferenceIdeal.scatter_S50000x256_S800000x1_S800000x256_1_0_0_1 (val_main_v50 (F := Ideal))
            (val_main_v51 (F := Ideal) x1)
            (Host.gather (α := Ideal .f32) Cert.ReferenceIdeal.gather_S50000x256_S800000x1_S800000x256_1_0_n_n_0_1_1256 h (val_main_v48 (F := Ideal) x1)))
    (hdeg2 : val_main_v58 (F := Ideal) x1 = val_main_v19 (F := Ideal) x1)
    (h44 : ∀ c : Fin 256, KHost.k_v44 (F := Ideal) x10 (ix2 (0 : Fin 1) c) = x10 (ix1 c))
    (h45 : ∀ c : Fin 256, KHost.k_v45 (F := Ideal) x12 (ix2 (0 : Fin 1) c) = x12 (ix1 c))
    (h46 : ∀ c : Fin 256, KHost.k_v46 (F := Ideal) x13 (ix2 (0 : Fin 1) c) = x13 (ix1 c))
    (h47 : ∀ c : Fin 256, KHost.k_v47 (F := Ideal) x14 (ix2 (0 : Fin 1) c) = x14 (ix1 c))
    (h48 : ∀ c : Fin 256, KHost.k_v48 (F := Ideal) x15 (ix2 (0 : Fin 1) c) = x15 (ix1 c))
    (hv2 : ∀ i, (0 : EReal) ≤ x15 i) :
    KHost.H2 x0 x1 x2 x3 x4 x5 x6 x7 x8 x9 x10 x11 x12 x13 x14 x15 = val_main_v81 (F := Ideal) x0 x1 x2 x3 x4 x5 x6 x7 x8 x9 x10 x11 x12 x13 x14 x15 := by
  funext j
  obtain ⟨n, c, rfl⟩ : ∃ (n : Fin 50000) (c : Fin 256), j = ix2 n c := ⟨j 0, j 1, eq_ix2 j⟩
  rewrite [Cert.Sage.Ref.stage2, hdeg2, hdeg n]
  unfold KHost.H2
  rewrite [G0_at, H1_eq_of x0 x1 x2 x3 x4 x5 x6 x7 x8 hx hag1 hinv hdeg h26 h27 h28 h29 h30 hv1, A2_eq_of x0 x1 x2 x3 x4 x5 x6 x7 x8 hx hag1 hinv hdeg h26 h27 h28 h29 h30 hv1 hag2,
    hinv n, h44 c, h45 c, h46 c, h47 c, h48 c]
  exact (MeanLaw.layer_eq _ _ _ _ _ _ _ _ _ _ (hv2 _)).symm

end Cert.Sage.Bridge

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibNeighbourSum.lean ====
/-
  The neighbour sum of a graph layer, read at one position.

  Gathering the rows x[src] of a matrix x : [N, H] at a column of E source indices, and adding row e of the result into
  row dst[e] of an [N, H] array z (a segment sum over rows), gives at (n, c):  z(n, c) plus the sum, over the edges e
  whose target index (read signed) is n, of x at the row the source index of e names — read signed and clamped into
  [0, N − 1], as a gather clamps every start index — and at the column c.
-/
import Idealize.ShloMosaic.PureOps.Ideal
import Idealize.ShloMosaic.Lib.ValueIdx
import proofs.«150929_j57071525429489_2_alg».proof.Proof.LibScatterRows
import proofs.«150929_j57071525429489_2_alg».proof.Proof.LibGatherRows

open scoped BigOperators
open Idealize.ShloMosaic Idealize.ShloMosaic.ValueIdx

noncomputable section

namespace Cert.Sage.Nbr

/-- The row a start index names: the index of edge e, read signed and clamped into [0, N − 1]. -/
def rowOf {N E w : Nat} (hN : 0 < N) (S : IVec ⟨2, ![E, 1]⟩ w) (e : Fin E) : Fin N :=
  ⟨min (S (ix2 e (0 : Fin 1))).toInt.toNat (N - 1), by omega⟩

/-- The start-indices position of result position (e, c) is (e, 0). -/
theorem rowIdx_ix2 {E H : Nat} (e : Fin E) (c : Fin H) :
    Cert.LibGatherRows.rowIdx (ix2 e c) = ix2 e (0 : Fin 1) := by
  funext a
  match a with
  | ⟨0, _⟩ => rfl
  | ⟨1, _⟩ => rfl

/-- The row gather read at (e, c): the operand at the row the index of e names, column c. -/
theorem gather_rows_ix2 {α : Type} {N H E w : Nat} (hN : 0 < N)
    (wf : GatherDims.WF ⟨2, ![N, H]⟩ ⟨2, ![E, 1]⟩ ⟨2, ![E, H]⟩ [1] [0] [] [0] [] 1 ![1, H])
    (f : (⟨2, ![N, H]⟩ : Shape).Idx → α) (S : IVec ⟨2, ![E, 1]⟩ w) (e : Fin E) (c : Fin H) :
    Host.gather (Cert.LibGatherRows.rowDims N H E wf) f S (ix2 e c) = f (ix2 (rowOf hN S e) c) := by
  rw [Cert.LibGatherRows.gather_rows_apply hN wf f S (ix2 e c)]
  unfold rowOf
  simp only [rowIdx_ix2]
  rfl

/-- The segment sum over rows of the gathered rows, read at (n, c). -/
theorem scatter_gather_apply {φ : FTy} {N E H w w' : Nat} (hN : 0 < N)
    (hwf : ScatterDims.WF ⟨2, ![N, H]⟩ ⟨2, ![E, 1]⟩ ⟨2, ![E, H]⟩ [1] [0] [0] 1)
    (wf : GatherDims.WF ⟨2, ![N, H]⟩ ⟨2, ![E, 1]⟩ ⟨2, ![E, H]⟩ [1] [0] [] [0] [] 1 ![1, H])
    (z f : FVec Ideal ⟨2, ![N, H]⟩ φ) (D : IVec ⟨2, ![E, 1]⟩ w) (S : IVec ⟨2, ![E, 1]⟩ w') (n : Fin N) (c : Fin H) :
    Host.scatterAdd (F := Ideal) (Cert.LibScatterRows.rowDims N E H hwf) z D
        (Host.gather (Cert.LibGatherRows.rowDims N H E wf) f S) (ix2 n c)
      = z (ix2 n c) + ∑ e ∈ Finset.univ.filter (fun e : Fin E => (D (ix2 e (0 : Fin 1))).toInt = (n.val : Int)),
          f (ix2 (rowOf hN S e) c) := by
  refine (Cert.LibScatterRows.scatterRows_apply N E H hwf z D
    (Host.gather (Cert.LibGatherRows.rowDims N H E wf) f S) n c).trans ?_
  congr 1
  exact Finset.sum_congr rfl fun e _ => gather_rows_ix2 hN wf f S e c

/-- The same over an operand that is 0 everywhere: 0 plus the sum over the edges into n. -/
theorem scatter_gather_zero {φ : FTy} {N E H w w' : Nat} (hN : 0 < N)
    (hwf : ScatterDims.WF ⟨2, ![N, H]⟩ ⟨2, ![E, 1]⟩ ⟨2, ![E, H]⟩ [1] [0] [0] 1)
    (wf : GatherDims.WF ⟨2, ![N, H]⟩ ⟨2, ![E, 1]⟩ ⟨2, ![E, H]⟩ [1] [0] [] [0] [] 1 ![1, H])
    (z f : FVec Ideal ⟨2, ![N, H]⟩ φ) (hz : ∀ i, z i = 0) (D : IVec ⟨2, ![E, 1]⟩ w) (S : IVec ⟨2, ![E, 1]⟩ w')
    (n : Fin N) (c : Fin H) :
    Host.scatterAdd (F := Ideal) (Cert.LibScatterRows.rowDims N E H hwf) z D
        (Host.gather (Cert.LibGatherRows.rowDims N H E wf) f S) (ix2 n c)
      = 0 + ∑ e ∈ Finset.univ.filter (fun e : Fin E => (D (ix2 e (0 : Fin 1))).toInt = (n.val : Int)),
          f (ix2 (rowOf hN S e) c) := by
  rw [scatter_gather_apply hN hwf wf z f D S n c, hz]

end Cert.Sage.Nbr

end
-- ==== Proof.RefStage3.lean ====
/-
  The reference's third layer, read at a node n and a column j.
  The degree broadcast and the bias broadcast are read at an index, the two matrix products are read as sums over the
  256 hidden features, and the chain is the clamped SAGE row of the specification with the mean spelt as a quotient.
  The second layer's output and the third neighbour sum stay as named stages.
-/
import proofs.«150929_j57071525429489_2_alg».proof.Proof.Spec
import proofs.«150929_j57071525429489_2_alg».proof.Proof.RefReadP

noncomputable section

open scoped BigOperators

namespace Cert.Sage.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-1 indices with the same coordinate are equal. -/
local macro "idx1" : tactic =>
  `(tactic| exact funext fun a => Fin.ext (by match a with | ⟨0, _⟩ => rfl))
/-- Two rank-2 indices with the same two coordinates are equal. -/
local macro "idx2" : tactic =>
  `(tactic| exact funext fun a => Fin.ext (by match a with | ⟨0, _⟩ => rfl | ⟨1, _⟩ => rfl))

/-- The clamped degree, a vector of length 50000 laid along the columns: at (n, k) it is the entry n. -/
theorem v99_at (x1 : (⟨S2x800000, .i32⟩ : BufTy).Contents (Elt Ideal)) (n : Fin 50000) (k : Fin 256) :
    val_main_v99 (F := Ideal) x1 (ix2 n k) = val_main_v97 (F := Ideal) x1 (ix1 n) := by
  rw [val_main_v99_apply, val_main_v98_apply]
  exact congrArg (val_main_v97 (F := Ideal) x1) (by idx1)

/-- The neighbour means times Wl: at (n, j), the sum over k of (neighbour sum (n, k) / degree n) · Wl (k, j). -/
theorem v101_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (n : Fin 50000) (j : Fin 128) :
    val_main_v101 (F := Ideal) x0 x1 x2 x3 x4 x5 x6 x7 x8 x9 x10 x11 x12 x13 x14 x15 x16 (ix2 n j)
      = dot (fun k : Fin 256 => Ideal.div (val_main_v91 (F := Ideal) x0 x1 x2 x3 x4 x5 x6 x7 x8 x9 x10 x11 x12 x13 x14 x15 (ix2 n k)) (val_main_v97 (F := Ideal) x1 (ix1 n)))
          (fun k => x16 (ix2 k j)) := by
  rw [val_main_v101_apply]
  unfold Cert.Sage.dot
  refine Finset.sum_congr rfl fun k _ => ?_
  have el : lidx_main_v101 (ix2 n j) k = ix2 n k := by idx2
  have er : ridx_main_v101 (ix2 n j) k = ix2 k j := by idx2
  rewrite [el, er, val_main_v100_apply, v99_at]
  rfl

/-- The node's own features times Wr: at (n, j), the sum over k of feature (n, k) · Wr (k, j). -/
theorem v105_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x18 : (⟨S256x128, .f32⟩ : BufTy).Contents (Elt Ideal)) (n : Fin 50000) (j : Fin 128) :
    val_main_v105 (F := Ideal) x0 x1 x2 x3 x4 x5 x6 x7 x8 x9 x10 x11 x12 x13 x14 x15 x18 (ix2 n j)
      = dot (fun k : Fin 256 => val_main_v81 (F := Ideal) x0 x1 x2 x3 x4 x5 x6 x7 x8 x9 x10 x11 x12 x13 x14 x15 (ix2 n k)) (fun k => x18 (ix2 k j)) := by
  rw [val_main_v105_apply]
  unfold Cert.Sage.dot
  refine Finset.sum_congr rfl fun k _ => ?_
  have el : lidx_main_v105 (ix2 n j) k = ix2 n k := by idx2
  have er : ridx_main_v105 (ix2 n j) k = ix2 k j := by idx2
  rw [el, er]

/-- The bias of the left product, a vector of length 128 laid along the rows: at (n, j) it is the vector's entry j. -/
theorem v103_at (x17 : (⟨S128, .f32⟩ : BufTy).Contents (Elt Ideal)) (n : Fin 50000) (j : Fin 128) :
    val_main_v103 (F := Ideal) x17 (ix2 n j) = x17 (ix1 j) := by
  rw [val_main_v103_apply, val_main_v102_apply]
  exact congrArg x17 (by idx1)

/-- The third layer's output at node n, column j: the clamped SAGE row with the mean spelt as a quotient. -/
theorem stage3 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (n : Fin 50000) (j : Fin 128) :
    val_main_v107 (F := Ideal) x0 x1 x2 x3 x4 x5 x6 x7 x8 x9 x10 x11 x12 x13 x14 x15 x16 x17 x18 (ix2 n j)
      = max (sagePreR (fun k : Fin 256 => val_main_v91 (F := Ideal) x0 x1 x2 x3 x4 x5 x6 x7 x8 x9 x10 x11 x12 x13 x14 x15 (ix2 n k))
            (fun k => val_main_v81 (F := Ideal) x0 x1 x2 x3 x4 x5 x6 x7 x8 x9 x10 x11 x12 x13 x14 x15 (ix2 n k)) (val_main_v97 (F := Ideal) x1 (ix1 n))
            (fun k => x16 (ix2 k j)) (fun k => x18 (ix2 k j)) (x17 (ix1 j))) zero32 := by
  rewrite [val_main_v107_apply, val_main_v106_apply, val_main_v104_apply, v101_at, v103_at, v105_at,
    val_main_call2_v0_apply, val_main_call2_cst_apply]
  rfl

end Cert.Sage.Ref

end
-- ==== Proof.RefStage4.lean ====
/-
  The reference's head, read at a node n and a class q.
  The two dense stages are read as sums, the maximum reduction along a row as the fold of max from −∞ over the row
  (the reference then takes the maximum with −∞ once more, which changes nothing), the sum reduction as the sum over
  the row (its starting value is the zero word), and the chain is the log-softmax head of the specification.
  The third layer's output stays as a named stage.
-/
import proofs.«150929_j57071525429489_2_alg».proof.Proof.Spec
import proofs.«150929_j57071525429489_2_alg».proof.Proof.RefReadP
import proofs.«150929_j57071525429489_2_alg».proof.Proof.LibRowReduce

noncomputable section

open scoped BigOperators

namespace Cert.Sage.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-1 indices with the same coordinate are equal. -/
local macro "idx1" : tactic =>
  `(tactic| exact funext fun a => Fin.ext (by match a with | ⟨0, _⟩ => rfl))
/-- Two rank-2 indices with the same two coordinates are equal. -/
local macro "idx2" : tactic =>
  `(tactic| exact funext fun a => Fin.ext (by match a with | ⟨0, _⟩ => rfl | ⟨1, _⟩ => rfl))

/-- The first dense stage's product: at (n, k), the sum over a of the third layer's (n, a) · Wf1 (a, k). -/
theorem v108_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (n : Fin 50000) (k : Fin 64) :
    val_main_v108 (F := Ideal) x0 x1 x2 x3 x4 x5 x6 x7 x8 x9 x10 x11 x12 x13 x14 x15 x16 x17 x18 x19 (ix2 n k)
      = dot (fun a : Fin 128 => val_main_v107 (F := Ideal) x0 x1 x2 x3 x4 x5 x6 x7 x8 x9 x10 x11 x12 x13 x14 x15 x16 x17 x18 (ix2 n a)) (fun a => x19 (ix2 a k)) := by
  rw [val_main_v108_apply]
  unfold Cert.Sage.dot
  refine Finset.sum_congr rfl fun a _ => ?_
  have el : lidx_main_v108 (ix2 n k) a = ix2 n a := by idx2
  have er : ridx_main_v108 (ix2 n k) a = ix2 a k := by idx2
  rw [el, er]

/-- The first dense stage's bias, a vector of length 64 laid along the rows: at (n, k) it is the vector's entry k. -/
theorem v110_at (x20 : (⟨S64, .f32⟩ : BufTy).Contents (Elt Ideal)) (n : Fin 50000) (k : Fin 64) :
    val_main_v110 (F := Ideal) x20 (ix2 n k) = x20 (ix1 k) := by
  rw [val_main_v110_apply, val_main_v109_apply]
  exact congrArg x20 (by idx1)

/-- The first dense stage at (n, k): the positive part of the product plus the bias. -/
theorem v112_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (n : Fin 50000) (k : Fin 64) :
    val_main_v112 (F := Ideal) x0 x1 x2 x3 x4 x5 x6 x7 x8 x9 x10 x11 x12 x13 x14 x15 x16 x17 x18 x19 x20 (ix2 n k)
      = max (dot (fun a : Fin 128 => val_main_v107 (F := Ideal) x0 x1 x2 x3 x4 x5 x6 x7 x8 x9 x10 x11 x12 x13 x14 x15 x16 x17 x18 (ix2 n a)) (fun a => x19 (ix2 a k)) + x20 (ix1 k)) zero32 := by
  rewrite [val_main_v112_apply, val_main_v111_apply, v108_at, v110_at, val_main_call3_v0_apply, val_main_call3_cst_apply]
  rfl

/-- The second dense stage's product: at (n, j), the sum over k of the first dense stage's (n, k) · Wf2 (k, j). -/
theorem v113_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (n : Fin 50000) (j : Fin 16) :
    val_main_v113 (F := Ideal) x0 x1 x2 x3 x4 x5 x6 x7 x8 x9 x10 x11 x12 x13 x14 x15 x16 x17 x18 x19 x20 x21 (ix2 n j)
      = dot (fun k : Fin 64 => max (dot (fun a : Fin 128 => val_main_v107 (F := Ideal) x0 x1 x2 x3 x4 x5 x6 x7 x8 x9 x10 x11 x12 x13 x14 x15 x16 x17 x18 (ix2 n a)) (fun a => x19 (ix2 a k)) + x20 (ix1 k)) zero32)
          (fun k => x21 (ix2 k j)) := by
  rw [val_main_v113_apply]
  unfold Cert.Sage.dot
  refine Finset.sum_congr rfl fun k _ => ?_
  have el : lidx_main_v113 (ix2 n j) k = ix2 n k := by idx2
  have er : ridx_main_v113 (ix2 n j) k = ix2 k j := by idx2
  rewrite [el, er, v112_at]
  rfl

/-- The second dense stage's bias, a vector of length 16 laid along the rows: at (n, j) it is the vector's entry j. -/
theorem v115_at (x22 : (⟨S16, .f32⟩ : BufTy).Contents (Elt Ideal)) (n : Fin 50000) (j : Fin 16) :
    val_main_v115 (F := Ideal) x22 (ix2 n j) = x22 (ix1 j) := by
  rw [val_main_v115_apply, val_main_v114_apply]
  exact congrArg x22 (by idx1)

/-- The logits at (n, j): the second dense stage's product plus its bias. -/
theorem v116_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) (j : Fin 16) :
    val_main_v116 (F := Ideal) x0 x1 x2 x3 x4 x5 x6 x7 x8 x9 x10 x11 x12 x13 x14 x15 x16 x17 x18 x19 x20 x21 x22 (ix2 n j)
      = dot (fun k : Fin 64 => max (dot (fun a : Fin 128 => val_main_v107 (F := Ideal) x0 x1 x2 x3 x4 x5 x6 x7 x8 x9 x10 x11 x12 x13 x14 x15 x16 x17 x18 (ix2 n a)) (fun a => x19 (ix2 a k)) + x20 (ix1 k)) zero32)
          (fun k => x21 (ix2 k j)) + x22 (ix1 j) := by
  rewrite [val_main_v116_apply, v113_at, v115_at]
  rfl

/-- The log-softmax of a row, written out. -/
theorem logSoftmax_unfold {K : ℕ} (l : Fin K → EReal) (q : Fin K) :
    (l q - rowMax l) - Ideal.log (∑ k, Ideal.exp (l k - rowMax l)) = logSoftmax l q := rfl

/-- The maximum of −∞ and a row maximum folded from −∞ is that row maximum. -/
theorem ninf_max_rowMax {K : ℕ} (l : Fin K → EReal) : max ninf32 (rowMax l) = rowMax l :=
  max_eq_right (by unfold rowMax; exact (Finset.le_fold_max ninf32).mpr (Or.inl le_rfl))

/-- The host's maximum reduction along the rows of a [50000, 16] matrix, started from −∞: at n it is the row's maximum. -/
theorem hostRowMax (y : (⟨S50000x16, .f32⟩ : BufTy).Contents (Elt Ideal)) (n : Fin 50000) :
    Host.reduce (FloatOps.maximumf (F := Ideal) (φ := .f32)) y (val_main_call4_cst (F := Ideal)) reducesTo_S50000x16_S50000_d1 h_S_ (ix1 n)
      = rowMax (fun k : Fin 16 => y (ix2 n k)) := by
  have h : S50000x16.Reduces [1] S50000 := by decide
  refine (Host.reduce_eq_fold_single (FloatOps.maximumf (F := Ideal) (φ := .f32)) y _ reducesTo_S50000x16_S50000_d1 h h_S_ (ix1 n)).trans ?_
  unfold rowMax
  have hf : (y ∘ h.lift (ix1 n)) = fun k : Fin 16 => y (ix2 n k) :=
    funext fun k => congrArg y (Cert.LibRowReduce.lift_row h n k)
  exact congrArg (fun f => Finset.fold max ninf32 f (Finset.univ : Finset (Fin 16))) hf

/-- The clamped row maximum of the logits at n. -/
theorem c2_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) :
    val_main_call4_v2 (F := Ideal) x0 x1 x2 x3 x4 x5 x6 x7 x8 x9 x10 x11 x12 x13 x14 x15 x16 x17 x18 x19 x20 x21 x22 (ix1 n) = rowMax (fun k : Fin 16 => val_main_v116 (F := Ideal) x0 x1 x2 x3 x4 x5 x6 x7 x8 x9 x10 x11 x12 x13 x14 x15 x16 x17 x18 x19 x20 x21 x22 (ix2 n k)) := by
  rewrite [val_main_call4_v2_apply, val_main_call4_v1_apply, val_main_call4_cst_0_apply]
  unfold val_main_call4_v0
  exact (congrArg (max ninf32) (hostRowMax (val_main_v116 (F := Ideal) x0 x1 x2 x3 x4 x5 x6 x7 x8 x9 x10 x11 x12 x13 x14 x15 x16 x17 x18 x19 x20 x21 x22) n)).trans (ninf_max_rowMax _)

/-- The row maximum laid along the columns: at (n, q) it is the row maximum at n. -/
theorem c4_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) (q : Fin 16) :
    val_main_call4_v4 (F := Ideal) x0 x1 x2 x3 x4 x5 x6 x7 x8 x9 x10 x11 x12 x13 x14 x15 x16 x17 x18 x19 x20 x21 x22 (ix2 n q) = rowMax (fun k : Fin 16 => val_main_v116 (F := Ideal) x0 x1 x2 x3 x4 x5 x6 x7 x8 x9 x10 x11 x12 x13 x14 x15 x16 x17 x18 x19 x20 x21 x22 (ix2 n k)) := by
  rewrite [val_main_call4_v4_apply, val_main_call4_v3_apply]
  have e : idx_main_call4_v3 (idx_main_call4_v4 (ix2 n q)) = ix1 n := by idx1
  rewrite [e]
  exact c2_at x0 x1 x2 x3 x4 x5 x6 x7 x8 x9 x10 x11 x12 x13 x14 x15 x16 x17 x18 x19 x20 x21 x22 n

/-- The shifted logits at (n, q). -/
theorem c5_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) (q : Fin 16) :
    val_main_call4_v5 (F := Ideal) x0 x1 x2 x3 x4 x5 x6 x7 x8 x9 x10 x11 x12 x13 x14 x15 x16 x17 x18 x19 x20 x21 x22 (ix2 n q) = val_main_v116 (F := Ideal) x0 x1 x2 x3 x4 x5 x6 x7 x8 x9 x10 x11 x12 x13 x14 x15 x16 x17 x18 x19 x20 x21 x22 (ix2 n q) - rowMax (fun k : Fin 16 => val_main_v116 (F := Ideal) x0 x1 x2 x3 x4 x5 x6 x7 x8 x9 x10 x11 x12 x13 x14 x15 x16 x17 x18 x19 x20 x21 x22 (ix2 n k)) := by
  rewrite [val_main_call4_v5_apply, c4_at]
  rfl

/-- The sum of the exponentials of the shifted logits of row n. -/
theorem c7_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) :
    val_main_call4_v7 (F := Ideal) x0 x1 x2 x3 x4 x5 x6 x7 x8 x9 x10 x11 x12 x13 x14 x15 x16 x17 x18 x19 x20 x21 x22 (ix1 n)
      = ∑ k : Fin 16, Ideal.exp (val_main_v116 (F := Ideal) x0 x1 x2 x3 x4 x5 x6 x7 x8 x9 x10 x11 x12 x13 x14 x15 x16 x17 x18 x19 x20 x21 x22 (ix2 n k) - rowMax (fun k : Fin 16 => val_main_v116 (F := Ideal) x0 x1 x2 x3 x4 x5 x6 x7 x8 x9 x10 x11 x12 x13 x14 x15 x16 x17 x18 x19 x20 x21 x22 (ix2 n k))) := by
  rewrite [val_main_call4_v7_apply, val_main_call4_cst_1_apply]
  refine (congrArg (· + _) Ideal.ofBits_zero_f32).trans ((zero_add _).trans ?_)
  refine Finset.sum_congr rfl fun k _ => ?_
  have e : idx_main_call4_v7 (ix1 n) k = ix2 n k := by idx2
  rewrite [e, val_main_call4_v6_apply, c5_at, Ideal.hostUnary_exp_def]
  rfl

/-- The logarithm of that sum laid along the columns: at (n, q) it is the logarithm at n. -/
theorem c10_at (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) (q : Fin 16) :
    val_main_call4_v10 (F := Ideal) x0 x1 x2 x3 x4 x5 x6 x7 x8 x9 x10 x11 x12 x13 x14 x15 x16 x17 x18 x19 x20 x21 x22 (ix2 n q)
      = Ideal.log (∑ k : Fin 16, Ideal.exp (val_main_v116 (F := Ideal) x0 x1 x2 x3 x4 x5 x6 x7 x8 x9 x10 x11 x12 x13 x14 x15 x16 x17 x18 x19 x20 x21 x22 (ix2 n k) - rowMax (fun k : Fin 16 => val_main_v116 (F := Ideal) x0 x1 x2 x3 x4 x5 x6 x7 x8 x9 x10 x11 x12 x13 x14 x15 x16 x17 x18 x19 x20 x21 x22 (ix2 n k)))) := by
  rewrite [val_main_call4_v10_apply, val_main_call4_v9_apply, val_main_call4_v8_apply]
  have e : idx_main_call4_v8 (idx_main_call4_v10 (ix2 n q)) = ix1 n := by idx1
  rewrite [e, c7_at, Ideal.hostUnary_log_def]
  rfl

/-- The result at node n, class q: the head of the specification on the third layer's row n. -/
theorem stage4 (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal)) (n : Fin 50000) (q : Fin 16) :
    val_main_v117 (F := Ideal) x0 x1 x2 x3 x4 x5 x6 x7 x8 x9 x10 x11 x12 x13 x14 x15 x16 x17 x18 x19 x20 x21 x22 (ix2 n q)
      = head (fun a : Fin 128 => val_main_v107 (F := Ideal) x0 x1 x2 x3 x4 x5 x6 x7 x8 x9 x10 x11 x12 x13 x14 x15 x16 x17 x18 (ix2 n a)) (fun a k => x19 (ix2 a k)) (fun k => x20 (ix1 k))
          (fun k j => x21 (ix2 k j)) (fun j => x22 (ix1 j)) q := by
  rewrite [val_main_v117_apply, c5_at, c10_at, Ideal.subf_def]
  unfold head
  exact (logSoftmax_unfold (fun k : Fin 16 => val_main_v116 (F := Ideal) x0 x1 x2 x3 x4 x5 x6 x7 x8 x9 x10 x11 x12 x13 x14 x15 x16 x17 x18 x19 x20 x21 x22 (ix2 n k)) q).trans
    (congrArg (fun l => logSoftmax l q) (funext fun j => v116_at x0 x1 x2 x3 x4 x5 x6 x7 x8 x9 x10 x11 x12 x13 x14 x15 x16 x17 x18 x19 x20 x21 x22 n j))

end Cert.Sage.Ref

end
-- ==== Proof.Bridge3.lean ====
/-
  The last layer: the kernel program's result is the reference's.

  Both results are the head (two dense stages and a row-wise log-softmax) of a row of 128 entries. The reference's entry
  (n, a) is the positive part of the SAGE row whose mean is the neighbour sum of the second layer's rows divided by the
  clamped degree, projected by Wl afterwards. The kernel program's entry is the positive part of: the neighbour sum of
  the ALREADY PROJECTED rows (second layer times Wl), times the reciprocal of the clamped degree, plus the bias and the
  node's own projection. The two neighbour sums run over the same edges (the same target column selects them, the same
  source column names the rows), the second layer's rows are nonnegative, and the reciprocal of a clamped degree is a
  nonnegative finite factor: the projection moves inside the mean.
-/
import proofs.«150929_j57071525429489_2_alg».proof.Proof.Spec
import proofs.«150929_j57071525429489_2_alg».proof.Proof.MeanLaw
import proofs.«150929_j57071525429489_2_alg».proof.Proof.LibNeighbourSum
import proofs.«150929_j57071525429489_2_alg».proof.Proof.KHost
import proofs.«150929_j57071525429489_2_alg».proof.Proof.RefReadP
import proofs.«150929_j57071525429489_2_alg».proof.Proof.RefStage3
import proofs.«150929_j57071525429489_2_alg».proof.Proof.RefStage4

open scoped BigOperators
open Idealize.ShloMosaic Idealize.ShloMosaic.ValueIdx

noncomputable section

namespace Cert.Sage.Bridge

/-- The last layer's entry in the two programs, over any arrays: the program that projects first (it sums the rows of
    h2·Wl over the edges into n, then multiplies by the reciprocal degree) and the program that projects last (it sums
    the rows of h2 over the same edges, divides by the degree, then multiplies by Wl) give the same entry, when h2 is
    nonnegative, the two zero operands are 0, and the reciprocal and the degree are those of one clamped count dd. -/
theorem entry_core {N E P K w w' : ℕ} (hN : 0 < N)
    (hwfK : ScatterDims.WF ⟨2, ![N, P]⟩ ⟨2, ![E, 1]⟩ ⟨2, ![E, P]⟩ [1] [0] [0] 1)
    (wfK : GatherDims.WF ⟨2, ![N, P]⟩ ⟨2, ![E, 1]⟩ ⟨2, ![E, P]⟩ [1] [0] [] [0] [] 1 ![1, P])
    (hwfR : ScatterDims.WF ⟨2, ![N, K]⟩ ⟨2, ![E, 1]⟩ ⟨2, ![E, K]⟩ [1] [0] [0] 1)
    (wfR : GatherDims.WF ⟨2, ![N, K]⟩ ⟨2, ![E, 1]⟩ ⟨2, ![E, K]⟩ [1] [0] [] [0] [] 1 ![1, K])
    (D : IVec ⟨2, ![E, 1]⟩ w) (S : IVec ⟨2, ![E, 1]⟩ w')
    (zK : FVec Ideal ⟨2, ![N, P]⟩ .f32) (hzK : ∀ i, zK i = 0) (zR : FVec Ideal ⟨2, ![N, K]⟩ .f32) (hzR : ∀ i, zR i = 0)
    (h2 : FVec Ideal ⟨2, ![N, K]⟩ .f32) (hh : ∀ i, (0 : EReal) ≤ h2 i)
    (y : FVec Ideal ⟨2, ![N, P]⟩ .f32) (wl wr : (⟨2, ![K, P]⟩ : Shape).Idx → EReal)
    (hy : ∀ (r : Fin N) (a : Fin P), y (ix2 r a) = Cert.Sage.dot (fun k => h2 (ix2 r k)) (fun k => wl (ix2 k a)))
    (bl inv deg dd : EReal) (hinv : inv = Ideal.div 1 (max dd 1)) (hdeg : deg = max dd 1) (n : Fin N) (a : Fin P) :
    Cert.Sage.sage3K
        (Host.scatterAdd (F := Ideal) (Cert.LibScatterRows.rowDims N E P hwfK) zK D
          (Host.gather (Cert.LibGatherRows.rowDims N P E wfK) y S) (ix2 n a))
        (fun k => h2 (ix2 n k)) inv (fun k => wr (ix2 k a)) bl
      = max (Cert.Sage.sagePreR
          (fun k => Host.scatterAdd (F := Ideal) (Cert.LibScatterRows.rowDims N E K hwfR) zR D
            (Host.gather (Cert.LibGatherRows.rowDims N K E wfR) h2 S) (ix2 n k))
          (fun k => h2 (ix2 n k)) deg (fun k => wl (ix2 k a)) (fun k => wr (ix2 k a)) bl) Cert.Sage.zero32 := by
  subst hinv hdeg
  have eK := Cert.Sage.Nbr.scatter_gather_zero hN hwfK wfK zK y hzK D S n a
  have eR : (fun k : Fin K => Host.scatterAdd (F := Ideal) (Cert.LibScatterRows.rowDims N E K hwfR) zR D
        (Host.gather (Cert.LibGatherRows.rowDims N K E wfR) h2 S) (ix2 n k))
      = fun k => 0 + ∑ e ∈ Finset.univ.filter (fun e : Fin E => (D (ix2 e (0 : Fin 1))).toInt = (n.val : Int)),
          h2 (ix2 (Cert.Sage.Nbr.rowOf hN S e) k) :=
    funext fun k => Cert.Sage.Nbr.scatter_gather_zero hN hwfR wfR zR h2 hzR D S n k
  have eY : (∑ e ∈ Finset.univ.filter (fun e : Fin E => (D (ix2 e (0 : Fin 1))).toInt = (n.val : Int)),
        y (ix2 (Cert.Sage.Nbr.rowOf hN S e) a))
      = ∑ e ∈ Finset.univ.filter (fun e : Fin E => (D (ix2 e (0 : Fin 1))).toInt = (n.val : Int)),
        Cert.Sage.dot (fun k => h2 (ix2 (Cert.Sage.Nbr.rowOf hN S e) k)) (fun k => wl (ix2 k a)) :=
    Finset.sum_congr rfl fun e _ => hy _ a
  rw [eK, eR, eY]
  exact Cert.Sage.MeanLaw.sage3_entry _ (fun e k => h2 (ix2 (Cert.Sage.Nbr.rowOf hN S e) k)) (fun e k => hh _)
    (fun k => h2 (ix2 n k)) (fun k => wl (ix2 k a)) (fun k => wr (ix2 k a)) bl dd

/-- The last stage read at (n, q): the head of the row of entries of node n. -/
theorem G2_at {N K P B C : ℕ} (x0 : (⟨2, ![N, K]⟩ : Shape).Idx → EReal) (x1 : (⟨2, ![N, P]⟩ : Shape).Idx → EReal)
    (x2 : (⟨2, ![N, 1]⟩ : Shape).Idx → EReal) (x3 : (⟨2, ![K, P]⟩ : Shape).Idx → EReal)
    (x4 : (⟨2, ![1, P]⟩ : Shape).Idx → EReal) (x5 : (⟨2, ![P, B]⟩ : Shape).Idx → EReal)
    (x6 : (⟨2, ![1, B]⟩ : Shape).Idx → EReal) (x7 : (⟨2, ![B, C]⟩ : Shape).Idx → EReal)
    (x8 : (⟨2, ![1, C]⟩ : Shape).Idx → EReal) (n : Fin N) (q : Fin C) :
    Cert.Sage.G2 x0 x1 x2 x3 x4 x5 x6 x7 x8 (ix2 n q)
      = Cert.Sage.head (fun a => Cert.Sage.sage3K (x1 (ix2 n a)) (fun k => x0 (ix2 n k)) (x2 (ix2 n (0 : Fin 1)))
            (fun k => x3 (ix2 k a)) (x4 (ix2 (0 : Fin 1) a)))
          (fun a k => x5 (ix2 a k)) (fun k => x6 (ix2 (0 : Fin 1) k)) (fun k j' => x7 (ix2 k j'))
          (fun j' => x8 (ix2 (0 : Fin 1) j')) q := rfl

/-- The head depends on its row and its two bias rows only through their entries. -/
theorem head_congr {A B C : ℕ} {h h' : Fin A → EReal} (wf1 : Fin A → Fin B → EReal) {b1 b1' : Fin B → EReal}
    (wf2 : Fin B → Fin C → EReal) {b2 b2' : Fin C → EReal} (q : Fin C) (eh : ∀ a, h a = h' a)
    (e1 : ∀ k, b1 k = b1' k) (e2 : ∀ j, b2 j = b2' j) :
    Cert.Sage.head h wf1 b1 wf2 b2 q = Cert.Sage.head h' wf1 b1' wf2 b2' q := by
  obtain rfl : h = h' := funext eh
  obtain rfl : b1 = b1' := funext e1
  obtain rfl : b2 = b2' := funext e2
  rfl

/-- The reference's zero operand of its third neighbour sum is 0 everywhere. -/
theorem v89_zero (i : Cert.ReferenceIdeal.S50000x256.Idx) : Cert.ReferenceIdeal.Read.val_main_v89 (F := Ideal) i = (0 : EReal) :=
  Ideal.ofBits_zero_f32

/-- One entry of the last layer before the head: the kernel program's is the reference's. -/
theorem entry_of (x0 : (⟨Cert.KernelIdeal.S50000x96, .f32⟩ : BufTy).Contents (Elt Ideal)) (x1 : (⟨Cert.KernelIdeal.S2x800000, .i32⟩ : BufTy).Contents (Elt Ideal)) (x2 : (⟨Cert.KernelIdeal.S96x256, .f32⟩ : BufTy).Contents (Elt Ideal)) (x3 : (⟨Cert.KernelIdeal.S256, .f32⟩ : BufTy).Contents (Elt Ideal)) (x4 : (⟨Cert.KernelIdeal.S96x256, .f32⟩ : BufTy).Contents (Elt Ideal)) (x5 : (⟨Cert.KernelIdeal.S256, .f32⟩ : BufTy).Contents (Elt Ideal)) (x6 : (⟨Cert.KernelIdeal.S256, .f32⟩ : BufTy).Contents (Elt Ideal)) (x7 : (⟨Cert.KernelIdeal.S256, .f32⟩ : BufTy).Contents (Elt Ideal)) (x8 : (⟨Cert.KernelIdeal.S256, .f32⟩ : BufTy).Contents (Elt Ideal)) (x9 : (⟨Cert.KernelIdeal.S256x256, .f32⟩ : BufTy).Contents (Elt Ideal)) (x10 : (⟨Cert.KernelIdeal.S256, .f32⟩ : BufTy).Contents (Elt Ideal)) (x11 : (⟨Cert.KernelIdeal.S256x256, .f32⟩ : BufTy).Contents (Elt Ideal)) (x12 : (⟨Cert.KernelIdeal.S256, .f32⟩ : BufTy).Contents (Elt Ideal)) (x13 : (⟨Cert.KernelIdeal.S256, .f32⟩ : BufTy).Contents (Elt Ideal)) (x14 : (⟨Cert.KernelIdeal.S256, .f32⟩ : BufTy).Contents (Elt Ideal)) (x15 : (⟨Cert.KernelIdeal.S256, .f32⟩ : BufTy).Contents (Elt Ideal)) (x16 : (⟨Cert.KernelIdeal.S256x128, .f32⟩ : BufTy).Contents (Elt Ideal)) (x17 : (⟨Cert.KernelIdeal.S128, .f32⟩ : BufTy).Contents (Elt Ideal)) (x18 : (⟨Cert.KernelIdeal.S256x128, .f32⟩ : BufTy).Contents (Elt Ideal))
    (Z : (⟨Cert.KernelIdeal.S50000x128, .f32⟩ : BufTy).Contents (Elt Ideal)) (hZ : ∀ i, Z i = (0 : EReal))
    (hH2 : Cert.Sage.KHost.H2 x0 x1 x2 x3 x4 x5 x6 x7 x8 x9 x10 x11 x12 x13 x14 x15 = Cert.ReferenceIdeal.Read.val_main_v81 (F := Ideal) x0 x1 x2 x3 x4 x5 x6 x7 x8 x9 x10 x11 x12 x13 x14 x15)
    (hagg : ∀ y : (⟨Cert.KernelIdeal.S50000x128, .bf16⟩ : BufTy).Contents (Elt Ideal),
      Cert.Sage.KHost.k_v61 (F := Ideal) (Cert.Sage.KHost.k_v1 (F := Ideal) x1) (Cert.Sage.KHost.k_v3 (F := Ideal) x1) y
        = Host.scatterAdd (F := Ideal) (φ := .f32) Cert.KernelIdeal.scatter_S50000x128_S800000x1_S800000x128_1_0_0_1 Z (Cert.ReferenceIdeal.Read.val_main_v90 (F := Ideal) x1)
            (Host.gather Cert.KernelIdeal.gather_S50000x128_S800000x1_S800000x128_1_0_n_n_0_1_1128 y (Cert.ReferenceIdeal.Read.val_main_v87 (F := Ideal) x1)))
    (hinv : ∀ n : Fin 50000, Cert.Sage.KHost.k_v12 (F := Ideal) x1 (ix2 n (0 : Fin 1))
        = Ideal.div 1 (max (Cert.ReferenceIdeal.Read.val_main_v17 (F := Ideal) x1 (ix1 n)) 1))
    (hdeg : ∀ n : Fin 50000, Cert.ReferenceIdeal.Read.val_main_v97 (F := Ideal) x1 (ix1 n) = max (Cert.ReferenceIdeal.Read.val_main_v17 (F := Ideal) x1 (ix1 n)) 1)
    (h62 : ∀ a : Fin 128, Cert.Sage.KHost.k_v62 (F := Ideal) x17 (ix2 (0 : Fin 1) a) = x17 (ix1 a))
    (n : Fin 50000) (a : Fin 128) :
    Cert.Sage.sage3K
        (Cert.Sage.KHost.k_v61 (F := Ideal) (Cert.Sage.KHost.k_v1 (F := Ideal) x1) (Cert.Sage.KHost.k_v3 (F := Ideal) x1)
          (Cert.Sage.KHost.Y x0 x1 x2 x3 x4 x5 x6 x7 x8 x9 x10 x11 x12 x13 x14 x15 x16) (ix2 n a))
        (fun k : Fin 256 => Cert.Sage.KHost.H2 x0 x1 x2 x3 x4 x5 x6 x7 x8 x9 x10 x11 x12 x13 x14 x15 (ix2 n k))
        (Cert.Sage.KHost.k_v12 (F := Ideal) x1 (ix2 n (0 : Fin 1))) (fun k : Fin 256 => x18 (ix2 k a))
        (Cert.Sage.KHost.k_v62 (F := Ideal) x17 (ix2 (0 : Fin 1) a))
      = Cert.ReferenceIdeal.Read.val_main_v107 (F := Ideal) x0 x1 x2 x3 x4 x5 x6 x7 x8 x9 x10 x11 x12 x13 x14 x15 x16 x17 x18 (ix2 n a) := by
  have hh : ∀ i, (0 : EReal) ≤ Cert.ReferenceIdeal.Read.val_main_v81 (F := Ideal) x0 x1 x2 x3 x4 x5 x6 x7 x8 x9 x10 x11 x12 x13 x14 x15 i := fun i => by
    rw [← hH2]; exact Cert.Sage.MeanLaw.G0_nonneg _ _ _ _ _ _ _ _ _ _ i
  have hy : ∀ (r : Fin 50000) (c : Fin 128), Cert.Sage.KHost.Y x0 x1 x2 x3 x4 x5 x6 x7 x8 x9 x10 x11 x12 x13 x14 x15 x16 (ix2 r c)
      = Cert.Sage.dot (fun k : Fin 256 => Cert.ReferenceIdeal.Read.val_main_v81 (F := Ideal) x0 x1 x2 x3 x4 x5 x6 x7 x8 x9 x10 x11 x12 x13 x14 x15 (ix2 r k))
          (fun k => x16 (ix2 k c)) := fun r c => by
    rw [← hH2]; rfl
  rw [Cert.Sage.Ref.stage3 x0 x1 x2 x3 x4 x5 x6 x7 x8 x9 x10 x11 x12 x13 x14 x15 x16 x17 x18 n a, hagg, h62 a, hH2]
  unfold Cert.ReferenceIdeal.Read.val_main_v91 Cert.ReferenceIdeal.Read.val_main_v88
  exact entry_core (N := 50000) (E := 800000) (P := 128) (K := 256) (by norm_num)
    Cert.KernelIdeal.Facts₀.scatter_S50000x128_S800000x1_S800000x128_1_0_0_1_wf
    Cert.KernelIdeal.Facts₀.gather_S50000x128_S800000x1_S800000x128_1_0_n_n_0_1_1128_wf
    Cert.ReferenceIdeal.Facts₀.scatter_S50000x256_S800000x1_S800000x256_1_0_0_1_wf
    Cert.ReferenceIdeal.Facts₀.gather_S50000x256_S800000x1_S800000x256_1_0_n_n_0_1_1256_wf
    (Cert.ReferenceIdeal.Read.val_main_v90 (F := Ideal) x1) (Cert.ReferenceIdeal.Read.val_main_v87 (F := Ideal) x1) Z hZ
    (Cert.ReferenceIdeal.Read.val_main_v89 (F := Ideal)) v89_zero
    (Cert.ReferenceIdeal.Read.val_main_v81 (F := Ideal) x0 x1 x2 x3 x4 x5 x6 x7 x8 x9 x10 x11 x12 x13 x14 x15) hh
    (Cert.Sage.KHost.Y x0 x1 x2 x3 x4 x5 x6 x7 x8 x9 x10 x11 x12 x13 x14 x15 x16) x16 x18 hy
    (x17 (ix1 a)) (Cert.Sage.KHost.k_v12 (F := Ideal) x1 (ix2 n (0 : Fin 1))) (Cert.ReferenceIdeal.Read.val_main_v97 (F := Ideal) x1 (ix1 n))
    (Cert.ReferenceIdeal.Read.val_main_v17 (F := Ideal) x1 (ix1 n)) (hinv n) (hdeg n) n a

/-- The kernel program's result is the reference's, from the facts about the host stretches named in the hypotheses. -/
theorem OUT_eq_of (x0 : (⟨Cert.KernelIdeal.S50000x96, .f32⟩ : BufTy).Contents (Elt Ideal)) (x1 : (⟨Cert.KernelIdeal.S2x800000, .i32⟩ : BufTy).Contents (Elt Ideal)) (x2 : (⟨Cert.KernelIdeal.S96x256, .f32⟩ : BufTy).Contents (Elt Ideal)) (x3 : (⟨Cert.KernelIdeal.S256, .f32⟩ : BufTy).Contents (Elt Ideal)) (x4 : (⟨Cert.KernelIdeal.S96x256, .f32⟩ : BufTy).Contents (Elt Ideal)) (x5 : (⟨Cert.KernelIdeal.S256, .f32⟩ : BufTy).Contents (Elt Ideal)) (x6 : (⟨Cert.KernelIdeal.S256, .f32⟩ : BufTy).Contents (Elt Ideal)) (x7 : (⟨Cert.KernelIdeal.S256, .f32⟩ : BufTy).Contents (Elt Ideal)) (x8 : (⟨Cert.KernelIdeal.S256, .f32⟩ : BufTy).Contents (Elt Ideal)) (x9 : (⟨Cert.KernelIdeal.S256x256, .f32⟩ : BufTy).Contents (Elt Ideal)) (x10 : (⟨Cert.KernelIdeal.S256, .f32⟩ : BufTy).Contents (Elt Ideal)) (x11 : (⟨Cert.KernelIdeal.S256x256, .f32⟩ : BufTy).Contents (Elt Ideal)) (x12 : (⟨Cert.KernelIdeal.S256, .f32⟩ : BufTy).Contents (Elt Ideal)) (x13 : (⟨Cert.KernelIdeal.S256, .f32⟩ : BufTy).Contents (Elt Ideal)) (x14 : (⟨Cert.KernelIdeal.S256, .f32⟩ : BufTy).Contents (Elt Ideal)) (x15 : (⟨Cert.KernelIdeal.S256, .f32⟩ : BufTy).Contents (Elt Ideal)) (x16 : (⟨Cert.KernelIdeal.S256x128, .f32⟩ : BufTy).Contents (Elt Ideal)) (x17 : (⟨Cert.KernelIdeal.S128, .f32⟩ : BufTy).Contents (Elt Ideal)) (x18 : (⟨Cert.KernelIdeal.S256x128, .f32⟩ : BufTy).Contents (Elt Ideal)) (x19 : (⟨Cert.KernelIdeal.S128x64, .f32⟩ : BufTy).Contents (Elt Ideal)) (x20 : (⟨Cert.KernelIdeal.S64, .f32⟩ : BufTy).Contents (Elt Ideal)) (x21 : (⟨Cert.KernelIdeal.S64x16, .f32⟩ : BufTy).Contents (Elt Ideal)) (x22 : (⟨Cert.KernelIdeal.S16, .f32⟩ : BufTy).Contents (Elt Ideal))
    (Z : (⟨Cert.KernelIdeal.S50000x128, .f32⟩ : BufTy).Contents (Elt Ideal)) (hZ : ∀ i, Z i = (0 : EReal))
    (hH2 : Cert.Sage.KHost.H2 x0 x1 x2 x3 x4 x5 x6 x7 x8 x9 x10 x11 x12 x13 x14 x15 = Cert.ReferenceIdeal.Read.val_main_v81 (F := Ideal) x0 x1 x2 x3 x4 x5 x6 x7 x8 x9 x10 x11 x12 x13 x14 x15)
    (hagg : ∀ y : (⟨Cert.KernelIdeal.S50000x128, .bf16⟩ : BufTy).Contents (Elt Ideal),
      Cert.Sage.KHost.k_v61 (F := Ideal) (Cert.Sage.KHost.k_v1 (F := Ideal) x1) (Cert.Sage.KHost.k_v3 (F := Ideal) x1) y
        = Host.scatterAdd (F := Ideal) (φ := .f32) Cert.KernelIdeal.scatter_S50000x128_S800000x1_S800000x128_1_0_0_1 Z (Cert.ReferenceIdeal.Read.val_main_v90 (F := Ideal) x1)
            (Host.gather Cert.KernelIdeal.gather_S50000x128_S800000x1_S800000x128_1_0_n_n_0_1_1128 y (Cert.ReferenceIdeal.Read.val_main_v87 (F := Ideal) x1)))
    (hinv : ∀ n : Fin 50000, Cert.Sage.KHost.k_v12 (F := Ideal) x1 (ix2 n (0 : Fin 1))
        = Ideal.div 1 (max (Cert.ReferenceIdeal.Read.val_main_v17 (F := Ideal) x1 (ix1 n)) 1))
    (hdeg : ∀ n : Fin 50000, Cert.ReferenceIdeal.Read.val_main_v97 (F := Ideal) x1 (ix1 n) = max (Cert.ReferenceIdeal.Read.val_main_v17 (F := Ideal) x1 (ix1 n)) 1)
    (h62 : ∀ a : Fin 128, Cert.Sage.KHost.k_v62 (F := Ideal) x17 (ix2 (0 : Fin 1) a) = x17 (ix1 a))
    (h63 : ∀ k : Fin 64, Cert.Sage.KHost.k_v63 (F := Ideal) x20 (ix2 (0 : Fin 1) k) = x20 (ix1 k))
    (h64 : ∀ j : Fin 16, Cert.Sage.KHost.k_v64 (F := Ideal) x22 (ix2 (0 : Fin 1) j) = x22 (ix1 j)) :
    Cert.Sage.KHost.OUT x0 x1 x2 x3 x4 x5 x6 x7 x8 x9 x10 x11 x12 x13 x14 x15 x16 x17 x18 x19 x20 x21 x22 = Cert.ReferenceIdeal.Read.val_main_v117 (F := Ideal) x0 x1 x2 x3 x4 x5 x6 x7 x8 x9 x10 x11 x12 x13 x14 x15 x16 x17 x18 x19 x20 x21 x22 := by
  funext j
  obtain ⟨n, q, rfl⟩ : ∃ (n : Fin 50000) (q : Fin 16), j = ix2 n q := ⟨j 0, j 1, eq_ix2 j⟩
  rw [Cert.Sage.Ref.stage4 x0 x1 x2 x3 x4 x5 x6 x7 x8 x9 x10 x11 x12 x13 x14 x15 x16 x17 x18 x19 x20 x21 x22 n q]
  refine (G2_at _ _ _ _ _ _ _ _ _ n q).trans ?_
  exact head_congr _ _ q (fun a => entry_of x0 x1 x2 x3 x4 x5 x6 x7 x8 x9 x10 x11 x12 x13 x14 x15 x16 x17 x18 Z hZ hH2 hagg hinv hdeg h62 n a) h63 h64

end Cert.Sage.Bridge

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.HostId.lean ====
/-
  The first layer's neighbour sums are the same array in the two programs, at the extended reals.

  Both programs gather the rows of the source nodes and add them into the rows of the target nodes of an array of
  zeros. At a node n and a column c either result is 0 plus the sum, over the edges whose target is n, of the features
  of the edge's source node at column c. The two programs read the same target column and the same wrapped source
  column off the edge array, and one of them rounds the features to a narrower format before the gather and widens
  them after it, which is the identity at the extended reals. So the two sums are the same sum.
-/
import proofs.«150929_j57071525429489_2_alg».proof.Proof.KHost
import proofs.«150929_j57071525429489_2_alg».proof.Proof.RefReadP
import proofs.«150929_j57071525429489_2_alg».proof.Proof.LibNeighbourSum
import proofs.«150929_j57071525429489_2_alg».proof.Proof.LibHostBroadcast

noncomputable section

namespace Cert.Sage.HostId

open Idealize.ShloMosaic Idealize.ShloMosaic.ValueIdx
open Cert.KernelIdeal Cert.KernelIdeal.Facts₀ Cert.KernelIdeal.Facts Cert.Sage.KHost Cert.ReferenceIdeal.Read

/-- Rounding to a narrower format is the identity at the extended reals. -/
theorem truncf_id {s : Shape} {φ ψ : FTy} (v : FVec Ideal s φ) (h : ψ.bits < φ.bits) :
    (truncf ψ v h : FVec Ideal s ψ) = v := rfl

/-- Widening to a wider format is the identity at the extended reals. -/
theorem extf_id {s : Shape} {φ ψ : FTy} (v : FVec Ideal s φ) (h : φ.bits < ψ.bits) :
    (extf ψ v h : FVec Ideal s ψ) = v := rfl

/-- The features in the narrower format are the features. -/
theorem cast_x (x0 : (⟨S50000x96, .f32⟩ : BufTy).Contents (Elt Ideal)) : k_v13 (F := Ideal) x0 = x0 := rfl

/-- A neighbour sum whose features are rounded before the gather, widened after it and rounded after the sum is the
    neighbour sum of the features: for ANY dimension numbers, zeros, index columns and features. -/
theorem nbr_cast {N E H w w' : ℕ} (sc : ScatterDims ⟨2, ![N, H]⟩ ⟨2, ![E, 1]⟩ ⟨2, ![E, H]⟩)
    (ga : GatherDims ⟨2, ![N, H]⟩ ⟨2, ![E, 1]⟩ ⟨2, ![E, H]⟩) (z : FVec Ideal ⟨2, ![N, H]⟩ .f32)
    (T : IVec ⟨2, ![E, 1]⟩ w) (S : IVec ⟨2, ![E, 1]⟩ w') (x : FVec Ideal ⟨2, ![N, H]⟩ .f32)
    (h1 : FTy.bf16.bits < FTy.f32.bits) (h2 : FTy.bf16.bits < FTy.f32.bits) (h3 : FTy.bf16.bits < FTy.f32.bits) :
    (truncf .bf16 (Host.scatterAdd (F := Ideal) sc z T
        (extf .f32 (Host.gather ga (truncf .bf16 x h1 : FVec Ideal ⟨2, ![N, H]⟩ .bf16) S) h2)) h3
          : FVec Ideal ⟨2, ![N, H]⟩ .bf16)
      = Host.scatterAdd (F := Ideal) sc z T (Host.gather ga x S) := rfl

/-- The array of zeros the first layer's sums are added into. -/
def kZero96 : FVec Ideal S50000x96 .f32 :=
  broadcastInDim S50000x96 ![] bcast_S_S50000x96 (constant (F := Ideal) S_ .f32 0x00000000#32)

/-- The target column: the second edge row, as a column. -/
def kTgt (x1 : (⟨S2x800000, .i32⟩ : BufTy).Contents (Elt Ideal)) : IVec S800000x1 32 :=
  broadcastInDim S800000x1 ![0] bcast_S800000_S800000x1_0 (k_v3 (F := Ideal) x1)

/-- The source column: the first edge row, a negative index wrapped by the number of nodes, as a column. -/
def kSrc (x1 : (⟨S2x800000, .i32⟩ : BufTy).Contents (Elt Ideal)) : IVec S800000x1 32 :=
  broadcastInDim S800000x1 ![0] bcast_S800000_S800000x1_0
    (select (cmpi .slt (k_v1 (F := Ideal) x1) (broadcastInDim S800000 ![] bcast_S_S800000 (constantI S_ 32 0#32)))
      (addi (k_v1 (F := Ideal) x1) (broadcastInDim S800000 ![] bcast_S_S800000 (constantI S_ 32 50000#32)))
      (k_v1 (F := Ideal) x1))

/-- The first program's neighbour sums as a row gather followed by a row segment sum. -/
theorem k25_form (x0 : (⟨S50000x96, .f32⟩ : BufTy).Contents (Elt Ideal)) (x1 : (⟨S2x800000, .i32⟩ : BufTy).Contents (Elt Ideal)) :
    k_v25 (F := Ideal) x0 x1
      = Host.scatterAdd (F := Ideal) (Cert.LibScatterRows.rowDims 50000 800000 96 scatter_S50000x96_S800000x1_S800000x96_1_0_0_1_wf) kZero96 (kTgt x1)
          (Host.gather (Cert.LibGatherRows.rowDims 50000 96 800000 gather_S50000x96_S800000x1_S800000x96_1_0_n_n_0_1_196_wf) x0 (kSrc x1)) :=
  nbr_cast (Cert.LibScatterRows.rowDims 50000 800000 96 scatter_S50000x96_S800000x1_S800000x96_1_0_0_1_wf)
    (Cert.LibGatherRows.rowDims 50000 96 800000 gather_S50000x96_S800000x1_S800000x96_1_0_n_n_0_1_196_wf) kZero96 (kTgt x1) (kSrc x1) x0
    bitsLt_bf16_f32 bitsLt_bf16_f32 bitsLt_bf16_f32

/-- The second program's neighbour sums as a row gather followed by a row segment sum. -/
theorem v13_form (x0 : (⟨S50000x96, .f32⟩ : BufTy).Contents (Elt Ideal)) (x1 : (⟨S2x800000, .i32⟩ : BufTy).Contents (Elt Ideal)) :
    val_main_v13 (F := Ideal) x0 x1
      = Host.scatterAdd (F := Ideal) (φ := .f32) (Cert.LibScatterRows.rowDims 50000 800000 96 Cert.ReferenceIdeal.Facts₀.scatter_S50000x96_S800000x1_S800000x96_1_0_0_1_wf)
          (val_main_v11 (F := Ideal)) (val_main_v12 (F := Ideal) x1)
          (Host.gather (α := Ideal .f32) (Cert.LibGatherRows.rowDims 50000 96 800000 Cert.ReferenceIdeal.Facts₀.gather_S50000x96_S800000x1_S800000x96_1_0_n_n_0_1_196_wf) x0
            (val_main_v9 (F := Ideal) x1)) := by
  unfold val_main_v13 val_main_v10
  rfl

/-- The two programs read the same target column. -/
theorem tgt_eq (x1 : (⟨S2x800000, .i32⟩ : BufTy).Contents (Elt Ideal)) : kTgt x1 = val_main_v12 (F := Ideal) x1 := by
  unfold kTgt k_v3 val_main_v12 val_main_v3 val_main_v2
  rfl

/-- The two programs read the same wrapped source column. -/
theorem src_eq (x1 : (⟨S2x800000, .i32⟩ : BufTy).Contents (Elt Ideal)) : kSrc x1 = val_main_v9 (F := Ideal) x1 := by
  unfold kSrc k_v1 val_main_v9 val_main_v8 val_main_v7 val_main_v6 val_main_v5 val_main_v4 val_main_v1 val_main_v0
    val_main_c val_main_c_0
  rfl

/-- The first program's zeros, at an entry. -/
theorem zeroK_at (n : Fin 50000) (c : Fin 96) :
    kZero96 (ix2 n c) = FloatOps.ofBits (F := Ideal) .f32 0x00000000#32 := by
  unfold kZero96
  exact Cert.LibHostBroadcast.scalar_to_any _ _ _

/-- The second program's zeros, at an entry. -/
theorem zeroR_at (n : Fin 50000) (c : Fin 96) :
    val_main_v11 (F := Ideal) (ix2 n c) = FloatOps.ofBits (F := Ideal) .f32 0x00000000#32 := by
  rw [val_main_v11_apply, val_main_cst_apply]

/-- The first layer's neighbour sums are the same array in the two programs. -/
theorem agg1 (x0 : (⟨S50000x96, .f32⟩ : BufTy).Contents (Elt Ideal)) (x1 : (⟨S2x800000, .i32⟩ : BufTy).Contents (Elt Ideal)) :
    k_v25 (F := Ideal) x0 x1 = val_main_v13 (F := Ideal) x0 x1 := by
  rw [k25_form, v13_form, tgt_eq, src_eq]
  funext j
  obtain ⟨n, c, rfl⟩ : ∃ (n : Fin 50000) (c : Fin 96), j = ix2 n c := ⟨j 0, j 1, eq_ix2 j⟩
  rw [Cert.Sage.Nbr.scatter_gather_apply (by decide : 0 < 50000) scatter_S50000x96_S800000x1_S800000x96_1_0_0_1_wf gather_S50000x96_S800000x1_S800000x96_1_0_n_n_0_1_196_wf kZero96,
    Cert.Sage.Nbr.scatter_gather_apply (by decide : 0 < 50000) Cert.ReferenceIdeal.Facts₀.scatter_S50000x96_S800000x1_S800000x96_1_0_0_1_wf Cert.ReferenceIdeal.Facts₀.gather_S50000x96_S800000x1_S800000x96_1_0_n_n_0_1_196_wf (val_main_v11 (F := Ideal)),
    zeroK_at, zeroR_at]

end Cert.Sage.HostId

end
-- ==== Proof.HostId2.lean ====
/-
  The degree and the small layout facts of the two programs' host operations, at the extended reals.

  The clamped degree of a node is the larger of its degree and 1, and each layer recomputes it by the same operations;
  the reciprocal column read at a node is 1 over that clamped degree (the host's quotient of ones by the clamped
  degrees, recast as a column); a vector made a one-row matrix is read at (0, c) as the vector at c.
-/
import proofs.«150929_j57071525429489_2_alg».proof.Proof.KHost
import proofs.«150929_j57071525429489_2_alg».proof.Proof.RefReadP
import proofs.«150929_j57071525429489_2_alg».proof.Proof.MeanLaw
import proofs.«150929_j57071525429489_2_alg».proof.Proof.LibColumn
import Idealize.ShloMosaic.Lib.ValueLayout

noncomputable section

namespace Cert.Sage.HostId

open Idealize.ShloMosaic Idealize.ShloMosaic.ValueIdx
open Cert.KernelIdeal Cert.KernelIdeal.Facts₀ Cert.KernelIdeal.Facts Cert.Sage.KHost Cert.ReferenceIdeal.Read

/-- The second layer's clamped degree is the first layer's. -/
theorem deg2 (x1 : (⟨S2x800000, .i32⟩ : BufTy).Contents (Elt Ideal)) : val_main_v58 (F := Ideal) x1 = val_main_v19 (F := Ideal) x1 := by
  unfold val_main_v58 val_main_v57 val_main_v56 val_main_v55 val_main_v54 val_main_v53 val_main_cst_10 val_main_cst_9
    val_main_cst_8 val_main_v19 val_main_v18 val_main_v17 val_main_v16 val_main_v15 val_main_v14 val_main_cst_3
    val_main_cst_2 val_main_cst_1
  rfl

/-- The third layer's clamped degree is the first layer's. -/
theorem deg3 (x1 : (⟨S2x800000, .i32⟩ : BufTy).Contents (Elt Ideal)) : val_main_v97 (F := Ideal) x1 = val_main_v19 (F := Ideal) x1 := by
  unfold val_main_v97 val_main_v96 val_main_v95 val_main_v94 val_main_v93 val_main_v92 val_main_cst_17 val_main_cst_16
    val_main_cst_15 val_main_v19 val_main_v18 val_main_v17 val_main_v16 val_main_v15 val_main_v14 val_main_cst_3
    val_main_cst_2 val_main_cst_1
  rfl

/-- The host's quotient of two arrays, at an index. -/
theorem hostDivf_at {s : Shape} {φ : FTy} (a b : FVec Ideal s φ) (i : s.Idx) :
    Host.divf (F := Ideal) a b i = Ideal.div (a i) (b i) := rfl

/-- The binary32 word 0x3F800000 read as a value is 1. -/
theorem one32_word : FloatOps.ofBits (F := Ideal) .f32 0x3F800000#32 = (1 : EReal) := Cert.Sage.MeanLaw.one32_eq

/-- The clamped degree at a node is the larger of the degree and 1. -/
theorem deg_eq (x1 : (⟨S2x800000, .i32⟩ : BufTy).Contents (Elt Ideal)) (n : Fin 50000) :
    val_main_v19 (F := Ideal) x1 (ix1 n) = max (val_main_v17 (F := Ideal) x1 (ix1 n)) 1 := by
  rw [val_main_v19_apply, val_main_v18_apply, val_main_cst_3_apply]
  show max (val_main_v17 (F := Ideal) x1 (ix1 n)) (Ideal.ofBits .f32 0x3F800000#32) = _
  rw [Cert.Sage.MeanLaw.one32_eq]

/-- The reciprocal column is the cast of the quotient of ones by the clamped degrees. -/
theorem k_v12_eq (x1 : (⟨S2x800000, .i32⟩ : BufTy).Contents (Elt Ideal)) :
    k_v12 (F := Ideal) x1
      = shapeCast S50000x1 (Host.divf (F := Ideal) (φ := .f32) (val_main_v18 (F := Ideal)) (val_main_v19 (F := Ideal) x1))
          shapeCasts_S50000_S50000x1 := by
  unfold k_v12 val_main_v19 val_main_v18 val_main_v17 val_main_v16 val_main_v15 val_main_v14 val_main_v3 val_main_v2
    val_main_cst_3 val_main_cst_2 val_main_cst_1
  rfl

/-- The reciprocal column at a node is 1 over the clamped degree. -/
theorem inv_eq (x1 : (⟨S2x800000, .i32⟩ : BufTy).Contents (Elt Ideal)) (n : Fin 50000) :
    k_v12 (F := Ideal) x1 (ix2 n (0 : Fin 1)) = Ideal.div 1 (max (val_main_v17 (F := Ideal) x1 (ix1 n)) 1) := by
  rw [k_v12_eq]
  refine (Cert.LibColumn.shapeCast_a_a1_apply _ _ n (0 : Fin 1)).trans ?_
  rw [hostDivf_at, deg_eq, val_main_v18_apply, val_main_cst_3_apply]
  exact congrArg (fun t : EReal => Ideal.div t (max (val_main_v17 (F := Ideal) x1 (ix1 n)) 1)) one32_word

/-- A vector made a one-row matrix reads, at (0, c), the vector at c. -/
theorem row_eq {H : ℕ} {α : Type} (v : (⟨1, ![H]⟩ : Shape).Idx → α) (h : (⟨1, ![H]⟩ : Shape).ShapeCasts ⟨2, ![1, H]⟩)
    (c : Fin H) : shapeCast ⟨2, ![1, H]⟩ v h (ix2 (0 : Fin 1) c) = v (ix1 c) :=
  shapeCast_a_1a_apply v h 0 c

/-- The [256] vector made a [1, 256] row, at (0, c). -/
theorem row_v26 (v : (⟨S256, .f32⟩ : BufTy).Contents (Elt Ideal)) (c : Fin 256) :
    k_v26 (F := Ideal) v (ix2 (0 : Fin 1) c) = v (ix1 c) := row_eq v _ c

/-- The [256] vector made a [1, 256] row, at (0, c). -/
theorem row_v27 (v : (⟨S256, .f32⟩ : BufTy).Contents (Elt Ideal)) (c : Fin 256) :
    k_v27 (F := Ideal) v (ix2 (0 : Fin 1) c) = v (ix1 c) := row_eq v _ c

/-- The [256] vector made a [1, 256] row, at (0, c). -/
theorem row_v28 (v : (⟨S256, .f32⟩ : BufTy).Contents (Elt Ideal)) (c : Fin 256) :
    k_v28 (F := Ideal) v (ix2 (0 : Fin 1) c) = v (ix1 c) := row_eq v _ c

/-- The [256] vector made a [1, 256] row, at (0, c). -/
theorem row_v29 (v : (⟨S256, .f32⟩ : BufTy).Contents (Elt Ideal)) (c : Fin 256) :
    k_v29 (F := Ideal) v (ix2 (0 : Fin 1) c) = v (ix1 c) := row_eq v _ c

/-- The [256] vector made a [1, 256] row, at (0, c). -/
theorem row_v30 (v : (⟨S256, .f32⟩ : BufTy).Contents (Elt Ideal)) (c : Fin 256) :
    k_v30 (F := Ideal) v (ix2 (0 : Fin 1) c) = v (ix1 c) := row_eq v _ c

/-- The [256] vector made a [1, 256] row, at (0, c). -/
theorem row_v44 (v : (⟨S256, .f32⟩ : BufTy).Contents (Elt Ideal)) (c : Fin 256) :
    k_v44 (F := Ideal) v (ix2 (0 : Fin 1) c) = v (ix1 c) := row_eq v _ c

/-- The [256] vector made a [1, 256] row, at (0, c). -/
theorem row_v45 (v : (⟨S256, .f32⟩ : BufTy).Contents (Elt Ideal)) (c : Fin 256) :
    k_v45 (F := Ideal) v (ix2 (0 : Fin 1) c) = v (ix1 c) := row_eq v _ c

/-- The [256] vector made a [1, 256] row, at (0, c). -/
theorem row_v46 (v : (⟨S256, .f32⟩ : BufTy).Contents (Elt Ideal)) (c : Fin 256) :
    k_v46 (F := Ideal) v (ix2 (0 : Fin 1) c) = v (ix1 c) := row_eq v _ c

/-- The [256] vector made a [1, 256] row, at (0, c). -/
theorem row_v47 (v : (⟨S256, .f32⟩ : BufTy).Contents (Elt Ideal)) (c : Fin 256) :
    k_v47 (F := Ideal) v (ix2 (0 : Fin 1) c) = v (ix1 c) := row_eq v _ c

/-- The [256] vector made a [1, 256] row, at (0, c). -/
theorem row_v48 (v : (⟨S256, .f32⟩ : BufTy).Contents (Elt Ideal)) (c : Fin 256) :
    k_v48 (F := Ideal) v (ix2 (0 : Fin 1) c) = v (ix1 c) := row_eq v _ c

/-- The [128] vector made a [1, 128] row, at (0, c). -/
theorem row_v62 (v : (⟨S128, .f32⟩ : BufTy).Contents (Elt Ideal)) (c : Fin 128) :
    k_v62 (F := Ideal) v (ix2 (0 : Fin 1) c) = v (ix1 c) := row_eq v _ c

/-- The [64] vector made a [1, 64] row, at (0, c). -/
theorem row_v63 (v : (⟨S64, .f32⟩ : BufTy).Contents (Elt Ideal)) (c : Fin 64) :
    k_v63 (F := Ideal) v (ix2 (0 : Fin 1) c) = v (ix1 c) := row_eq v _ c

/-- The [16] vector made a [1, 16] row, at (0, c). -/
theorem row_v64 (v : (⟨S16, .f32⟩ : BufTy).Contents (Elt Ideal)) (c : Fin 16) :
    k_v64 (F := Ideal) v (ix2 (0 : Fin 1) c) = v (ix1 c) := row_eq v _ c

end Cert.Sage.HostId

end
-- ==== Proof.HostId3.lean ====
/-
  The neighbour sums of the kernel program's host stretches, written with the reference's edge columns.

  The kernel program rounds the rows to a narrower format before it gathers them and widens them after — the identity on the
  extended reals —, and it builds the target column and the wrapped source column from the edge array by the same
  operations as the reference. So its neighbour sum of an array y is the scatter-add, into zeros, along the reference's
  target column, of the rows of y gathered along the reference's source column.
-/
import Idealize.ShloMosaic.Lib.ValueIdx
import Idealize.ShloMosaic.PureOps.Ideal
import Idealize.ShloMosaic.PureOps.Ideal.Laws
import proofs.«150929_j57071525429489_2_alg».proof.Proof.KHost
import proofs.«150929_j57071525429489_2_alg».proof.Proof.RefReadP

noncomputable section

namespace Cert.Sage.HostId

open Idealize.ShloMosaic Idealize.ShloMosaic.ValueIdx
open Cert.KernelIdeal Cert.KernelIdeal.Facts₀ Cert.KernelIdeal.Facts Cert.Sage.KHost Cert.ReferenceIdeal.Read

/-- Rounding to a narrower format does nothing to an array of extended reals. -/
theorem truncf_same {s : Shape} {φ ψ : FTy} (v : FVec Ideal s φ) (h : ψ.bits < φ.bits) :
    (truncf ψ v h : FVec Ideal s ψ) = v := rfl

/-- Widening to a wider format does nothing to an array of extended reals. -/
theorem extf_same {s : Shape} {φ ψ : FTy} (v : FVec Ideal s φ) (h : φ.bits < ψ.bits) :
    (extf ψ v h : FVec Ideal s ψ) = v := rfl

/-- The kernel program's target column is the reference's third-layer target column. -/
theorem colD3 (x1 : (⟨S2x800000, .i32⟩ : BufTy).Contents (Elt Ideal)) :
    (broadcastInDim S800000x1 ![0] bcast_S800000_S800000x1_0 (k_v3 (F := Ideal) x1) : IVec S800000x1 32)
      = val_main_v90 (F := Ideal) x1 := rfl

/-- The kernel program's wrapped source column is the reference's third-layer source column. -/
theorem colS3 (x1 : (⟨S2x800000, .i32⟩ : BufTy).Contents (Elt Ideal)) :
    (broadcastInDim S800000x1 ![0] bcast_S800000_S800000x1_0 (select (cmpi .slt (k_v1 (F := Ideal) x1) (broadcastInDim S800000 ![] bcast_S_S800000 (constantI S_ 32 0#32))) (addi (k_v1 (F := Ideal) x1) (broadcastInDim S800000 ![] bcast_S_S800000 (constantI S_ 32 50000#32))) (k_v1 (F := Ideal) x1) : IVec S800000 32) : IVec S800000x1 32)
      = val_main_v87 (F := Ideal) x1 := rfl

/-- The zero operand of the kernel program's third neighbour sum. -/
def zeros128 : (⟨S50000x128, .f32⟩ : BufTy).Contents (Elt Ideal) :=
  broadcastInDim S50000x128 ![] bcast_S_S50000x128 (constant (F := Ideal) S_ .f32 0x00000000#32)

/-- It is 0 everywhere. -/
theorem zeros128_apply (i : S50000x128.Idx) : zeros128 i = (0 : EReal) := Ideal.ofBits_zero_f32

/-- The kernel program's third neighbour sum, along the reference's columns. -/
theorem agg3 (x1 : (⟨S2x800000, .i32⟩ : BufTy).Contents (Elt Ideal)) (y : (⟨S50000x128, .bf16⟩ : BufTy).Contents (Elt Ideal)) :
    k_v61 (F := Ideal) (k_v1 (F := Ideal) x1) (k_v3 (F := Ideal) x1) y
      = Host.scatterAdd (F := Ideal) (φ := .f32) scatter_S50000x128_S800000x1_S800000x128_1_0_0_1 zeros128
          (val_main_v90 (F := Ideal) x1)
          (Host.gather gather_S50000x128_S800000x1_S800000x128_1_0_n_n_0_1_1128 y (val_main_v87 (F := Ideal) x1)) := by
  unfold k_v61 zeros128
  dsimp only
  rw [truncf_same, extf_same, colD3 x1, colS3 x1]

end Cert.Sage.HostId

end
-- ==== Proof.HostId4.lean ====
/-
  The second neighbour sum of the kernel program, written with the reference's records, zeros and edge columns.

  The same reading as for the third neighbour sum: the format changes around the gather are the identity on the extended
  reals, the two edge columns are built from the edge array by the reference's operations, and the zero operand and the
  dimension numbers of the two programs are the same terms.
-/
import Idealize.ShloMosaic.Lib.ValueIdx
import Idealize.ShloMosaic.PureOps.Ideal
import proofs.«150929_j57071525429489_2_alg».proof.Proof.KHost
import proofs.«150929_j57071525429489_2_alg».proof.Proof.RefReadP
import proofs.«150929_j57071525429489_2_alg».proof.Proof.HostId3

noncomputable section

namespace Cert.Sage.HostId

open Idealize.ShloMosaic Idealize.ShloMosaic.ValueIdx
open Cert.KernelIdeal Cert.KernelIdeal.Facts₀ Cert.KernelIdeal.Facts Cert.Sage.KHost Cert.ReferenceIdeal.Read

/-- The kernel program's target column is the reference's second-layer target column. -/
theorem colD2 (x1 : (⟨S2x800000, .i32⟩ : BufTy).Contents (Elt Ideal)) :
    (broadcastInDim S800000x1 ![0] bcast_S800000_S800000x1_0 (k_v3 (F := Ideal) x1) : IVec S800000x1 32)
      = val_main_v51 (F := Ideal) x1 := rfl

/-- The kernel program's wrapped source column is the reference's second-layer source column. -/
theorem colS2 (x1 : (⟨S2x800000, .i32⟩ : BufTy).Contents (Elt Ideal)) :
    (broadcastInDim S800000x1 ![0] bcast_S800000_S800000x1_0 (select (cmpi .slt (k_v1 (F := Ideal) x1) (broadcastInDim S800000 ![] bcast_S_S800000 (constantI S_ 32 0#32))) (addi (k_v1 (F := Ideal) x1) (broadcastInDim S800000 ![] bcast_S_S800000 (constantI S_ 32 50000#32))) (k_v1 (F := Ideal) x1) : IVec S800000 32) : IVec S800000x1 32)
      = val_main_v48 (F := Ideal) x1 := rfl

/-- The two programs' zero operands of the second neighbour sum are the same array. -/
theorem zeros256_eq :
    (broadcastInDim S50000x256 ![] bcast_S_S50000x256 (constant (F := Ideal) S_ .f32 0x00000000#32)
        : (⟨S50000x256, .f32⟩ : BufTy).Contents (Elt Ideal))
      = val_main_v50 (F := Ideal) := rfl

/-- The two programs' dimension numbers of the 256-wide row scatter are the same record. -/
theorem scatter256_eq :
    (scatter_S50000x256_S800000x1_S800000x256_1_0_0_1 : ScatterDims S50000x256 S800000x1 S800000x256)
      = Cert.ReferenceIdeal.scatter_S50000x256_S800000x1_S800000x256_1_0_0_1 := rfl

/-- The two programs' dimension numbers of the 256-wide row gather are the same record. -/
theorem gather256_eq :
    (gather_S50000x256_S800000x1_S800000x256_1_0_n_n_0_1_1256 : GatherDims S50000x256 S800000x1 S800000x256)
      = Cert.ReferenceIdeal.gather_S50000x256_S800000x1_S800000x256_1_0_n_n_0_1_1256 := rfl

/-- The kernel program's second neighbour sum, with the reference's records, zeros and columns. -/
theorem agg2 (x1 : (⟨S2x800000, .i32⟩ : BufTy).Contents (Elt Ideal)) (h : (⟨S50000x256, .bf16⟩ : BufTy).Contents (Elt Ideal)) :
    k_v43 (F := Ideal) (k_v1 (F := Ideal) x1) (k_v3 (F := Ideal) x1) h
      = Host.scatterAdd (F := Ideal) (φ := .f32) Cert.ReferenceIdeal.scatter_S50000x256_S800000x1_S800000x256_1_0_0_1
          (val_main_v50 (F := Ideal)) (val_main_v51 (F := Ideal) x1)
          (Host.gather (α := Ideal .f32) Cert.ReferenceIdeal.gather_S50000x256_S800000x1_S800000x256_1_0_n_n_0_1_1256 h
            (val_main_v48 (F := Ideal) x1)) := by
  unfold k_v43
  dsimp only
  rw [truncf_same, extf_same, colD2 x1, colS2 x1, zeros256_eq, scatter256_eq, gather256_eq]

end Cert.Sage.HostId

end
-- ==== Proof.Bridge.lean ====
/-
  The two programs compute one function of their arguments wherever both running variances are nonnegative.

  Layer by layer: the kernel's host stretches are the reference's own operations (the same slices, comparisons,
  gathers and scatter-adds on the same edge rows; a change of float format is the identity on the extended reals), so
  the node arrays entering each stage agree; stages 1 and 2 then agree entry by entry because a / d = a · (1/d) for
  the clamped degree d ≥ 1 and g / sqrt(v + ε) = g · rsqrt(v + ε) for v ≥ 0; stage 3 agrees because projecting the
  nonnegative rows before summing them over a node's neighbours and scaling by 1/d is projecting the neighbour mean.
-/
import proofs.«150929_j57071525429489_2_alg».proof.Proof.Bridge12
import proofs.«150929_j57071525429489_2_alg».proof.Proof.Bridge3
import proofs.«150929_j57071525429489_2_alg».proof.Proof.HostId
import proofs.«150929_j57071525429489_2_alg».proof.Proof.HostId2
import proofs.«150929_j57071525429489_2_alg».proof.Proof.HostId3
import proofs.«150929_j57071525429489_2_alg».proof.Proof.HostId4

noncomputable section

namespace Cert.Sage.Bridge

open Cert.KernelIdeal Cert.Sage Cert.Sage.HostId Idealize.ShloMosaic

/-- The kernel program's result function is the reference's last stage, on the stated domain. -/
theorem OUT_eq (x0 : (⟨S50000x96, .f32⟩ : BufTy).Contents (Elt Ideal)) (x1 : (⟨S2x800000, .i32⟩ : BufTy).Contents (Elt Ideal)) (x2 : (⟨S96x256, .f32⟩ : BufTy).Contents (Elt Ideal)) (x3 : (⟨S256, .f32⟩ : BufTy).Contents (Elt Ideal)) (x4 : (⟨S96x256, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256, .f32⟩ : BufTy).Contents (Elt Ideal)) (x14 : (⟨S256, .f32⟩ : BufTy).Contents (Elt Ideal)) (x15 : (⟨S256, .f32⟩ : BufTy).Contents (Elt Ideal)) (x16 : (⟨S256x128, .f32⟩ : BufTy).Contents (Elt Ideal)) (x17 : (⟨S128, .f32⟩ : BufTy).Contents (Elt Ideal)) (x18 : (⟨S256x128, .f32⟩ : BufTy).Contents (Elt Ideal)) (x19 : (⟨S128x64, .f32⟩ : BufTy).Contents (Elt Ideal)) (x20 : (⟨S64, .f32⟩ : BufTy).Contents (Elt Ideal)) (x21 : (⟨S64x16, .f32⟩ : BufTy).Contents (Elt Ideal)) (x22 : (⟨S16, .f32⟩ : BufTy).Contents (Elt Ideal))
    (hv1 : ∀ i, (0 : EReal) ≤ x8 i) (hv2 : ∀ i, (0 : EReal) ≤ x15 i) :
    Cert.Sage.KHost.OUT x0 x1 x2 x3 x4 x5 x6 x7 x8 x9 x10 x11 x12 x13 x14 x15 x16 x17 x18 x19 x20 x21 x22 = Cert.ReferenceIdeal.Read.val_main_v117 (F := Ideal) x0 x1 x2 x3 x4 x5 x6 x7 x8 x9 x10 x11 x12 x13 x14 x15 x16 x17 x18 x19 x20 x21 x22 :=
  OUT_eq_of x0 x1 x2 x3 x4 x5 x6 x7 x8 x9 x10 x11 x12 x13 x14 x15 x16 x17 x18 x19 x20 x21 x22 zeros128 zeros128_apply
    (H2_eq_of x0 x1 x2 x3 x4 x5 x6 x7 x8 x9 x10 x11 x12 x13 x14 x15 (cast_x x0) (agg1 x0 x1) (inv_eq x1) (deg_eq x1)
      (row_v26 x3) (row_v27 x5) (row_v28 x6) (row_v29 x7) (row_v30 x8) hv1 (agg2 x1) (deg2 x1)
      (row_v44 x10) (row_v45 x12) (row_v46 x13) (row_v47 x14) (row_v48 x15) hv2)
    (agg3 x1) (inv_eq x1) (fun n => (congrFun (deg3 x1) _).trans (deg_eq x1 n))
    (row_v62 x17) (row_v63 x20) (row_v64 x22)

end Cert.Sage.Bridge

end
-- ==== Proof.lean ====
/-
  Cert.Claim for the three-layer GraphSAGE kernel against its jnp reference.

  The three frames: the two kernel programs' are the generated frame certificates; the reference's is its run with the
  result dropped. The idealization rewrote nothing, so 'preserves' is trivial.

  The algebraic claim. The kernel program is three pipelined stages among host stretches that gather neighbour rows
  and sum them per target node; the fold of its segments leaves the result array at OUT of the arguments (the
  stage-by-stage read-back of the run). The reference's run ends at its own composed stage. The two are one function
  of the arguments wherever the running variances are nonnegative — the domain the precondition states, outside which
  the reference's g / sqrt(v + ε) is not a number —: layers 1 and 2 differ only in how the neighbour mean (a·(1/d)
  against a/d, d ≥ 1) and the normalisation's scale (g·rsqrt(v + ε) against g / sqrt(v + ε)) are spelt; layer 3
  projects the rows by Wl before the neighbour sum where the reference projects the mean after it, which agree because
  the rows are positive parts (so nonnegative) and the reciprocal degree is a nonnegative factor other than ⊤, under
  which both distributive laws hold on the extended reals; the dense head and the log-softmax are the same function
  of layer 3's rows in two spellings.
-/
import proofs.«150929_j57071525429489_2_alg».proof.Defs
import proofs.«150929_j57071525429489_2_alg».proof.Proof.Gen.Kernel
import proofs.«150929_j57071525429489_2_alg».proof.Proof.Gen.Kernel.Frame
import proofs.«150929_j57071525429489_2_alg».proof.Proof.Gen.KernelIdeal
import proofs.«150929_j57071525429489_2_alg».proof.Proof.Gen.KernelIdeal.Frame
import proofs.«150929_j57071525429489_2_alg».proof.Proof.Gen.ReferenceIdeal
import proofs.«150929_j57071525429489_2_alg».proof.Proof.Gen.Pre_finite_inputs
import proofs.«150929_j57071525429489_2_alg».proof.Proof.KernelRun
import proofs.«150929_j57071525429489_2_alg».proof.Proof.Fold
import proofs.«150929_j57071525429489_2_alg».proof.Proof.RefReadP
import proofs.«150929_j57071525429489_2_alg».proof.Proof.RefFold
import proofs.«150929_j57071525429489_2_alg».proof.Proof.PreDomain
import proofs.«150929_j57071525429489_2_alg».proof.Proof.RefKept
import proofs.«150929_j57071525429489_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c =>
    ⟨(h c Cert.ReferenceIdeal.main_arg0).trans (Cert.Sage.RefFold.kept_arg0 _),
     (h c Cert.ReferenceIdeal.main_arg1).trans (Cert.Sage.RefFold.kept_arg1 _),
     (h c Cert.ReferenceIdeal.main_arg2).trans (Cert.Sage.RefFold.kept_arg2 _),
     (h c Cert.ReferenceIdeal.main_arg3).trans (Cert.Sage.RefFold.kept_arg3 _),
     (h c Cert.ReferenceIdeal.main_arg4).trans (Cert.Sage.RefFold.kept_arg4 _),
     (h c Cert.ReferenceIdeal.main_arg5).trans (Cert.Sage.RefFold.kept_arg5 _),
     (h c Cert.ReferenceIdeal.main_arg6).trans (Cert.Sage.RefFold.kept_arg6 _),
     (h c Cert.ReferenceIdeal.main_arg7).trans (Cert.Sage.RefFold.kept_arg7 _),
     (h c Cert.ReferenceIdeal.main_arg8).trans (Cert.Sage.RefFold.kept_arg8 _),
     (h c Cert.ReferenceIdeal.main_arg9).trans (Cert.Sage.RefFold.kept_arg9 _),
     (h c Cert.ReferenceIdeal.main_arg10).trans (Cert.Sage.RefFold.kept_arg10 _),
     (h c Cert.ReferenceIdeal.main_arg11).trans (Cert.Sage.RefFold.kept_arg11 _),
     (h c Cert.ReferenceIdeal.main_arg12).trans (Cert.Sage.RefFold.kept_arg12 _),
     (h c Cert.ReferenceIdeal.main_arg13).trans (Cert.Sage.RefFold.kept_arg13 _),
     (h c Cert.ReferenceIdeal.main_arg14).trans (Cert.Sage.RefFold.kept_arg14 _),
     (h c Cert.ReferenceIdeal.main_arg15).trans (Cert.Sage.RefFold.kept_arg15 _),
     (h c Cert.ReferenceIdeal.main_arg16).trans (Cert.Sage.RefFold.kept_arg16 _),
     (h c Cert.ReferenceIdeal.main_arg17).trans (Cert.Sage.RefFold.kept_arg17 _),
     (h c Cert.ReferenceIdeal.main_arg18).trans (Cert.Sage.RefFold.kept_arg18 _),
     (h c Cert.ReferenceIdeal.main_arg19).trans (Cert.Sage.RefFold.kept_arg19 _),
     (h c Cert.ReferenceIdeal.main_arg20).trans (Cert.Sage.RefFold.kept_arg20 _),
     (h c Cert.ReferenceIdeal.main_arg21).trans (Cert.Sage.RefFold.kept_arg21 _),
     (h c Cert.ReferenceIdeal.main_arg22).trans (Cert.Sage.RefFold.kept_arg22 _)⟩)
    (Cert.ReferenceIdeal.Value.run (F := Ideal) m ρ)

set_option maxHeartbeats 4000000 in
/-- Both idealized programs end with the result at OUT of the kernel's arguments: the kernel by the fold of its
    segments, the reference because its composed stage is that function on the stated domain. -/
theorem algebraic : Cert.algebraic_KernelIdeal_ReferenceIdeal := by
  intro m ρ m' ρ' hpre hagree
  refine ⟨fun c => Cert.Sage.KHost.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.Sage.Fold.value m ρ c), (h c).2⟩)
      (Cert.Sage.KRun.run_named (F := Ideal) m ρ)
  · refine (θ_run Cert.ReferenceIdeal.defs _ _).mono (fun r h c =>
      ⟨?_, (h c Cert.ReferenceIdeal.main_arg0).trans (Cert.Sage.RefFold.kept_arg0 _),
       (h c Cert.ReferenceIdeal.main_arg1).trans (Cert.Sage.RefFold.kept_arg1 _),
       (h c Cert.ReferenceIdeal.main_arg2).trans (Cert.Sage.RefFold.kept_arg2 _),
       (h c Cert.ReferenceIdeal.main_arg3).trans (Cert.Sage.RefFold.kept_arg3 _),
       (h c Cert.ReferenceIdeal.main_arg4).trans (Cert.Sage.RefFold.kept_arg4 _),
       (h c Cert.ReferenceIdeal.main_arg5).trans (Cert.Sage.RefFold.kept_arg5 _),
       (h c Cert.ReferenceIdeal.main_arg6).trans (Cert.Sage.RefFold.kept_arg6 _),
       (h c Cert.ReferenceIdeal.main_arg7).trans (Cert.Sage.RefFold.kept_arg7 _),
       (h c Cert.ReferenceIdeal.main_arg8).trans (Cert.Sage.RefFold.kept_arg8 _),
       (h c Cert.ReferenceIdeal.main_arg9).trans (Cert.Sage.RefFold.kept_arg9 _),
       (h c Cert.ReferenceIdeal.main_arg10).trans (Cert.Sage.RefFold.kept_arg10 _),
       (h c Cert.ReferenceIdeal.main_arg11).trans (Cert.Sage.RefFold.kept_arg11 _),
       (h c Cert.ReferenceIdeal.main_arg12).trans (Cert.Sage.RefFold.kept_arg12 _),
       (h c Cert.ReferenceIdeal.main_arg13).trans (Cert.Sage.RefFold.kept_arg13 _),
       (h c Cert.ReferenceIdeal.main_arg14).trans (Cert.Sage.RefFold.kept_arg14 _),
       (h c Cert.ReferenceIdeal.main_arg15).trans (Cert.Sage.RefFold.kept_arg15 _),
       (h c Cert.ReferenceIdeal.main_arg16).trans (Cert.Sage.RefFold.kept_arg16 _),
       (h c Cert.ReferenceIdeal.main_arg17).trans (Cert.Sage.RefFold.kept_arg17 _),
       (h c Cert.ReferenceIdeal.main_arg18).trans (Cert.Sage.RefFold.kept_arg18 _),
       (h c Cert.ReferenceIdeal.main_arg19).trans (Cert.Sage.RefFold.kept_arg19 _),
       (h c Cert.ReferenceIdeal.main_arg20).trans (Cert.Sage.RefFold.kept_arg20 _),
       (h c Cert.ReferenceIdeal.main_arg21).trans (Cert.Sage.RefFold.kept_arg21 _),
       (h c Cert.ReferenceIdeal.main_arg22).trans (Cert.Sage.RefFold.kept_arg22 _)⟩)
      (Cert.ReferenceIdeal.Value.run (F := Ideal) m' ρ')
    refine (h c Cert.ReferenceIdeal.main_v117).trans ((Cert.Sage.RefFold.value (F := Ideal) _).trans ?_)
    show Cert.ReferenceIdeal.Read.val_main_v117 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
    obtain ⟨e0, e1, e2, e3, e4, e5, e6, e7, e8, e9, e10, e11, e12, e13, e14, e15, e16, e17, e18, e19, e20, e21, e22⟩ := hagree c
    simp only [e0, e1, e2, e3, e4, e5, e6, e7, e8, e9, e10, e11, e12, e13, e14, e15, e16, e17, e18, e19, e20, e21, e22]
    obtain ⟨hv1, hv2⟩ := Cert.Sage.Pre.var_nonneg _ _ _ _ _ _ _ _ _ _ _ _ _ _ _ _ _ _ _ _ _ _ _ (hpre c)
    exact (Cert.Sage.Bridge.OUT_eq _ _ _ _ _ _ _ _ _ _ _ _ _ _ _ _ _ _ _ _ _ _ _ hv1 hv2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
